-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x180 : Shape := ⟨2, ![128, 180]⟩
abbrev S180 : Shape := ⟨1, ![180]⟩
abbrev S180x120 : Shape := ⟨2, ![180, 120]⟩
abbrev S120 : Shape := ⟨1, ![120]⟩
abbrev S120x16 : Shape := ⟨2, ![120, 16]⟩
abbrev S16 : Shape := ⟨1, ![16]⟩
abbrev S2x800000 : Shape := ⟨2, ![2, 800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x180 : S_.BroadcastsInDim S128x180 (![] : Fin 0 → Fin S128x180.rank)
  reducesTo_S128x180_S_d0_1 : S128x180.ReducesTo [0, 1] S_
  bcast_S_S180 : S_.BroadcastsInDim S180 (![] : Fin 0 → Fin S180.rank)
  reducesTo_S180_S_d0 : S180.ReducesTo [0] S_
  bcast_S_S180x120 : S_.BroadcastsInDim S180x120 (![] : Fin 0 → Fin S180x120.rank)
  reducesTo_S180x120_S_d0_1 : S180x120.ReducesTo [0, 1] S_
  bcast_S_S120 : S_.BroadcastsInDim S120 (![] : Fin 0 → Fin S120.rank)
  reducesTo_S120_S_d0 : S120.ReducesTo [0] S_
  bcast_S_S120x16 : S_.BroadcastsInDim S120x16 (![] : Fin 0 → Fin S120x16.rank)
  reducesTo_S120x16_S_d0_1 : S120x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S120 .f32) (main_arg5 : FVec F S120x16 .f32) (main_arg6 : FVec F S16 .f32) (main_v13 : IVec S_ 1) (main_v16 : IVec S180x120 1) : IVec S_ 1 :=
  let main_c_5 : IVec S_ 1 := constantI S_ 1 1#1
  let main_v17 : IVec S_ 1 := (fun x v => Host.reduce IntOp.andi x v reducesTo_S180x120_S_d0_1 h_S_) main_v16 main_c_5
  let main_v18 : IVec S_ 1 := andi main_v13 main_v17
  let main_v19 : FVec F S120 .f32 := Host.absf main_arg4
  let main_cst_6 : FVec F S_ .f32 := constant S_ .f32 0x7F800000#32
  let main_v20 : FVec F S120 .f32 := broadcastInDim S120 ![] bcast_S_S120 main_cst_6
  let main_v21 : IVec S120 1 := cmpf .olt main_v19 main_v20
  let main_c_7 : IVec S_ 1 := constantI S_ 1 1#1
  let main_v22 : IVec S_ 1 := (fun x v => Host.reduce IntOp.andi x v reducesTo_S120_S_d0 h_S_) main_v21 main_c_7
  let main_v23 : IVec S_ 1 := andi main_v18 main_v22
  let main_v24 : FVec F S120x16 .f32 := Host.absf main_arg5
  let main_cst_8 : FVec F S_ .f32 := constant S_ .f32 0x7F800000#32
  let main_v25 : FVec F S120x16 .f32 := broadcastInDim S120x16 ![] bcast_S_S120x16 main_cst_8
  let main_v26 : IVec S120x16 1 := cmpf .olt main_v24 main_v25
  let main_c_9 : IVec S_ 1 := constantI S_ 1 1#1
  let main_v27 : IVec S_ 1 := (fun x v => Host.reduce IntOp.andi x v reducesTo_S120x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : FVec F S128x180 .f32) (main_arg2 : FVec F S180 .f32) (main_arg3 : FVec F S180x120 .f32) (main_arg4 : FVec F S120 .f32) (main_arg5 : FVec F S120x16 .f32) (main_arg6 : FVec F S16 .f32) (main_arg7 : IVec S2x800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x180 .f32 := Host.absf main_arg1
  let main_cst_0 : FVec F S_ .f32 := constant S_ .f32 0x7F800000#32
  let main_v5 : FVec F S128x180 .f32 := broadcastInDim S128x180 ![] bcast_S_S128x180 main_cst_0
  let main_v6 : IVec S128x180 1 := cmpf .olt main_v4 main_v5
  let main_c_1 : IVec S_ 1 := constantI S_ 1 1#1
  let main_v7 : IVec S_ 1 := (fun x v => Host.reduce IntOp.andi x v reducesTo_S128x180_S_d0_1 h_S_) main_v6 main_c_1
  let main_v8 : IVec S_ 1 := andi main_v3 main_v7
  let main_v9 : FVec F S180 .f32 := Host.absf main_arg2
  let main_cst_2 : FVec F S_ .f32 := constant S_ .f32 0x7F800000#32
  let main_v10 : FVec F S180 .f32 := broadcastInDim S180 ![] bcast_S_S180 main_cst_2
  let main_v11 : IVec S180 1 := cmpf .olt main_v9 main_v10
  let main_c_3 : IVec S_ 1 := constantI S_ 1 1#1
  let main_v12 : IVec S_ 1 := (fun x v => Host.reduce IntOp.andi x v reducesTo_S180_S_d0 h_S_) main_v11 main_c_3
  let main_v13 : IVec S_ 1 := andi main_v8 main_v12
  let main_v14 : FVec F S180x120 .f32 := Host.absf main_arg3
  let main_cst_4 : FVec F S_ .f32 := constant S_ .f32 0x7F800000#32
  let main_v15 : FVec F S180x120 .f32 := broadcastInDim S180x120 ![] bcast_S_S180x120 main_cst_4
  let main_v16 : IVec S180x120 1 := cmpf .olt main_v14 main_v15
  fn_part1 (F := F) main_arg4 main_arg5 main_arg6 main_v13 main_v16
-- ==== Kernel.lean ====
abbrev S100000x128 : Shape := ⟨2, ![100000, 128]⟩
abbrev S128x180 : Shape := ⟨2, ![128, 180]⟩
abbrev S180 : Shape := ⟨1, ![180]⟩
abbrev S180x120 : Shape := ⟨2, ![180, 120]⟩
abbrev S120 : Shape := ⟨1, ![120]⟩
abbrev S120x16 : Shape := ⟨2, ![120, 16]⟩
abbrev S16 : Shape := ⟨1, ![16]⟩
abbrev S2x800000 : Shape := ⟨2, ![2, 800000]⟩
abbrev S1x800000 : Shape := ⟨2, ![1, 800000]⟩
abbrev S800000 : Shape := ⟨1, ![800000]⟩
abbrev S100000 : Shape := ⟨1, ![100000]⟩
abbrev S900000 : Shape := ⟨1, ![900000]⟩
abbrev S_ : Shape := ⟨0, ![]⟩
abbrev S900000x1 : Shape := ⟨2, ![900000, 1]⟩
abbrev S100000x1 : Shape := ⟨2, ![100000, 1]⟩
abbrev S2000x128 : Shape := ⟨2, ![2000, 128]⟩
abbrev S2000x1 : Shape := ⟨2, ![2000, 1]⟩
abbrev S900000x128 : Shape := ⟨2, ![900000, 128]⟩
abbrev S1x180 : Shape := ⟨2, ![1, 180]⟩
abbrev S100000x180 : Shape := ⟨2, ![100000, 180]⟩
abbrev S2000x180 : Shape := ⟨2, ![2000, 180]⟩
abbrev S100000x120 : Shape := ⟨2, ![100000, 120]⟩
abbrev S2000x120 : Shape := ⟨2, ![2000, 120]⟩
abbrev S900000x120 : Shape := ⟨2, ![900000, 120]⟩
abbrev S1x120 : Shape := ⟨2, ![1, 120]⟩
abbrev S1x16 : Shape := ⟨2, ![1, 16]⟩
abbrev S100000x16 : Shape := ⟨2, ![100000, 16]⟩
abbrev S2000x16 : Shape := ⟨2, ![2000, 16]⟩
abbrev S2000 : Shape := ⟨1, ![2000]⟩

abbrev nBuf : Space → Nat
  | .hbm => 56
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S128x180, .f32⟩
  | .hbm, ⟨2, _⟩ => ⟨S180, .f32⟩
  | .hbm, ⟨3, _⟩ => ⟨S180x120, .f32⟩
  | .hbm, ⟨4, _⟩ => ⟨S120, .f32⟩
  | .hbm, ⟨5, _⟩ => ⟨S120x16, .f32⟩
  | .hbm, ⟨6, _⟩ => ⟨S16, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S100000, .i32⟩
  | .hbm, ⟨13, _⟩ => ⟨S900000, .i32⟩
  | .hbm, ⟨14, _⟩ => ⟨S900000, .i32⟩
  | .hbm, ⟨15, _⟩ => ⟨S_, .f32⟩
  | .hbm, ⟨16, _⟩ => ⟨S900000, .f32⟩
  | .hbm, ⟨17, _⟩ => ⟨S_, .f32⟩
  | .hbm, ⟨18, _⟩ => ⟨S100000, .f32⟩
  | .hbm, ⟨19, _⟩ => ⟨S900000x1, .i32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x128, .f32⟩
  | .hbm, ⟨24, _⟩ => ⟨S_, .i32⟩
  | .hbm, ⟨25, _⟩ => ⟨S900000, .i32⟩
  | .hbm, ⟨26, _⟩ => ⟨S900000, .i1⟩
  | .hbm, ⟨27, _⟩ => ⟨S_, .i32⟩
  | .hbm, ⟨28, _⟩ => ⟨S900000, .i32⟩
  | .hbm, ⟨29, _⟩ => ⟨S900000, .i32⟩
  | .hbm, ⟨30, _⟩ => ⟨S900000, .i32⟩
  | .hbm, ⟨31, _⟩ => ⟨S900000x1, .i32⟩
  | .hbm, ⟨32, _⟩ => ⟨S900000x128, .f32⟩
  | .hbm, ⟨33, _⟩ => ⟨S_, .f32⟩
  | .hbm, ⟨34, _⟩ => ⟨S100000x128, .f32⟩
  | .hbm, ⟨35, _⟩ => ⟨S900000x1, .i32⟩
  | .hbm, ⟨36, _⟩ => ⟨S100000x128, .f32⟩
  | .hbm, ⟨37, _⟩ => ⟨S1x180, .f32⟩
  | .hbm, ⟨38, _⟩ => ⟨S100000x180, .f32⟩
  | .hbm, ⟨39, _⟩ => ⟨S100000x120, .f32⟩
  | .hbm, ⟨40, _⟩ => ⟨S_, .i32⟩
  | .hbm, ⟨41, _⟩ => ⟨S900000, .i32⟩
  | .hbm, ⟨42, _⟩ => ⟨S900000, .i1⟩
  | .hbm, ⟨43, _⟩ => ⟨S_, .i32⟩
  | .hbm, ⟨44, _⟩ => ⟨S900000, .i32⟩
  | .hbm, ⟨45, _⟩ => ⟨S900000, .i32⟩
  | .hbm, ⟨46, _⟩ => ⟨S900000, .i32⟩
  | .hbm, ⟨47, _⟩ => ⟨S900000x1, .i32⟩
  | .hbm, ⟨48, _⟩ => ⟨S900000x120, .f32⟩
  | .hbm, ⟨49, _⟩ => ⟨S_, .f32⟩
  | .hbm, ⟨50, _⟩ => ⟨S100000x120, .f32⟩
  | .hbm, ⟨51, _⟩ => ⟨S900000x1, .i32⟩
  | .hbm, ⟨52, _⟩ => ⟨S100000x120, .f32⟩
  | .hbm, ⟨53, _⟩ => ⟨S1x120, .f32⟩
  | .hbm, ⟨54, _⟩ => ⟨S1x16, .f32⟩
  | .hbm, ⟨55, _⟩ => ⟨S100000x16, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S128x180, .f32⟩
  | .local _ .vmem, ⟨11, _⟩ => ⟨S1x180, .f32⟩
  | .local _ .vmem, ⟨12, _⟩ => ⟨S2000x180, .f32⟩
  | .local _ .vmem, ⟨13, _⟩ => ⟨S2000x180, .f32⟩
  | .local _ .vmem, ⟨14, _⟩ => ⟨S2000x180, .f32⟩
  | .local _ .vmem, ⟨15, _⟩ => ⟨S2000x180, .f32⟩
  | .local _ .vmem, ⟨16, _⟩ => ⟨S180x120, .f32⟩
  | .local _ .vmem, ⟨17, _⟩ => ⟨S2000x1, .f32⟩
  | .local _ .vmem, ⟨18, _⟩ => ⟨S2000x1, .f32⟩
  | .local _ .vmem, ⟨19, _⟩ => ⟨S2000x120, .f32⟩
  | .local _ .vmem, ⟨20, _⟩ => ⟨S2000x120, .f32⟩
  | .local _ .vmem, ⟨21, _⟩ => ⟨S2000x120, .f32⟩
  | .local _ .vmem, ⟨22, _⟩ => ⟨S2000x120, .f32⟩
  | .local _ .vmem, ⟨23, _⟩ => ⟨S2000x1, .f32⟩
  | .local _ .vmem, ⟨24, _⟩ => ⟨S2000x1, .f32⟩
  | .local _ .vmem, ⟨25, _⟩ => ⟨S1x120, .f32⟩
  | .local _ .vmem, ⟨26, _⟩ => ⟨S120x16, .f32⟩
  | .local _ .vmem, ⟨27, _⟩ => ⟨S1x16, .f32⟩
  | .local _ .vmem, ⟨28, _⟩ => ⟨S2000x16, .f32⟩
  | .local _ .vmem, ⟨29, _⟩ => ⟨S2000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x180 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x180 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x180 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x180 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S180x120 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x120 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x120 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x120 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S120x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S100000x128 : S_.BroadcastsInDim S100000x128 (![] : Fin 0 → Fin S100000x128.rank)
  shapeCasts_S180_S1x180 : S180.ShapeCasts S1x180
  shapeCasts_S2000x128_S2000x128 : S2000x128.ShapeCasts S2000x128
  bitsLt_bf16_f32 : FTy.bits .bf16 < FTy.bits .f32
  inb_S128x180_S128x180_0_0 : ∀ a, (![0, 0] : Fin 2 → Nat) a + S128x180.size a ≤ S128x180.size a
  h_S128x180 : 0 < S128x180.numel
  inb_S1x180_S1x180_0_0 : ∀ a, (![0, 0] : Fin 2 → Nat) a + S1x180.size a ≤ S1x180.size a
  h_S1x180 : 0 < S1x180.numel
  shapeCasts_S1x180_S1x180 : S1x180.ShapeCasts S1x180
  broadcasts_S1x180_S2000x180 : S1x180.Broadcasts S2000x180
  inb_S2000x180_S2000x180_0_0 : ∀ a, (![0, 0] : Fin 2 → Nat) a + S2000x180.size a ≤ S2000x180.size a
  h_S2000x180 : 0 < S2000x180.numel
  shapeCasts_S2000x180_S2000x180 : S2000x180.ShapeCasts S2000x180
  inb_S180x120_S180x120_0_0 : ∀ a, (![0, 0] : Fin 2 → Nat) a + S180x120.size a ≤ S180x120.size a
  h_S180x120 : 0 < S180x120.numel
  broadcasts_S2000x1_S2000x120 : S2000x1.Broadcasts S2000x120
  inb_S2000x120_S2000x120_0_0 : ∀ a, (![0, 0] : Fin 2 → Nat) a + S2000x120.size a ≤ S2000x120.size a
  h_S2000x120 : 0 < S2000x120.numel
  bcast_S_S100000x120 : S_.BroadcastsInDim S100000x120 (![] : Fin 0 → Fin S100000x120.rank)
  shapeCasts_S120_S1x120 : S120.ShapeCasts S1x120
  shapeCasts_S16_S1x16 : S16.ShapeCasts S1x16
  shapeCasts_S2000x120_S2000x120 : S2000x120.ShapeCasts S2000x120
  inb_S1x120_S1x120_0_0 : ∀ a, (![0, 0] : Fin 2 → Nat) a + S1x120.size a ≤ S1x120.size a
  h_S1x120 : 0 < S1x120.numel
  shapeCasts_S1x120_S1x120 : S1x120.ShapeCasts S1x120
  broadcasts_S1x120_S2000x120 : S1x120.Broadcasts S2000x120
  inb_S120x16_S120x16_0_0 : ∀ a, (![0, 0] : Fin 2 → Nat) a + S120x16.size a ≤ S120x16.size a
  h_S120x16 : 0 < S120x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  scatter_S100000_S900000x1_S900000_n_0_0_1_wf : ScatterDims.WF S100000 S900000x1 S900000 [] [0] [0] 1
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S2000x128_S128x180_S2000x180_1_0_0_1_n_n_wf : DotDims.WF S2000x128 S128x180 S2000x180 [1] [0] [0] [1] [] []
  dot_S2000x180_S180x120_S2000x120_1_0_0_1_n_n_wf : DotDims.WF S2000x180 S180x120 S2000x120 [1] [0] [0] [1] [] []
  gather_S100000x120_S900000x1_S900000x120_1_0_n_n_0_1_1120_wf : GatherDims.WF S100000x120 S900000x1 S900000x120 [1] [0] [] [0] [] 1 ![1, 120]
  scatter_S100000x120_S900000x1_S900000x120_1_0_0_1_wf : ScatterDims.WF S100000x120 S900000x1 S900000x120 [1] [0] [0] 1
  dot_S2000x120_S120x16_S2000x16_1_0_0_1_n_n_wf : DotDims.WF S2000x120 S120x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x180.size a ≤ S128x180.size a
  hwx1_2 : ∀ i : grid1.Coords, EltTy.bits .f32 = 32 ∨ (Rect.block (s := S128x180) S128x180.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x180.size a ≤ S1x180.size a
  hwx1_3 : ∀ i : grid1.Coords, EltTy.bits .f32 = 32 ∨ (Rect.block (s := S1x180) S1x180.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x180.size a ≤ S100000x180.size a
  hwx1_4 : ∀ i : grid1.Coords, EltTy.bits .f32 = 32 ∨ (Rect.block (s := S100000x180) S2000x180.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x180.size a ≤ S100000x180.size a
  hwx2_0 : ∀ i : grid2.Coords, EltTy.bits .f32 = 32 ∨ (Rect.block (s := S100000x180) S2000x180.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S180x120.size a ≤ S180x120.size a
  hwx2_1 : ∀ i : grid2.Coords, EltTy.bits .f32 = 32 ∨ (Rect.block (s := S180x120) S180x120.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x120.size a ≤ S100000x120.size a
  hwx2_3 : ∀ i : grid2.Coords, EltTy.bits .f32 = 32 ∨ (Rect.block (s := S100000x120) S2000x120.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x120.size a ≤ S100000x120.size a
  hwx3_0 : ∀ i : grid3.Coords, EltTy.bits .f32 = 32 ∨ (Rect.block (s := S100000x120) S2000x120.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x120.size a ≤ S1x120.size a
  hwx3_2 : ∀ i : grid3.Coords, EltTy.bits .f32 = 32 ∨ (Rect.block (s := S1x120) S1x120.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S120x16.size a ≤ S120x16.size a
  hwx3_3 : ∀ i : grid3.Coords, EltTy.bits .f32 = 32 ∨ (Rect.block (s := S120x16) S120x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x16.size a ≤ S100000x16.size a
  hwx3_5 : ∀ i : grid3.Coords, EltTy.bits .f32 = 32 ∨ (Rect.block (s := S100000x16) S2000x16.size (cc3_transform_5 i) (hinb3_5 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S2000x128_S128x180_S2000x180_1_0_0_1_n_n : DotDims S2000x128 S128x180 S2000x180 where
  lhsContracting := [1]
  rhsContracting := [0]
  lhsNonContracting := [0]
  rhsNonContracting := [1]
  lhsBatch := []
  rhsBatch := []
  wf := dot_S2000x128_S128x180_S2000x180_1_0_0_1_n_n_wf
def dot_S2000x180_S180x120_S2000x120_1_0_0_1_n_n : DotDims S2000x180 S180x120 S2000x120 where
  lhsContracting := [1]
  rhsContracting := [0]
  lhsNonContracting := [0]
  rhsNonContracting := [1]
  lhsBatch := []
  rhsBatch := []
  wf := dot_S2000x180_S180x120_S2000x120_1_0_0_1_n_n_wf
def gather_S100000x120_S900000x1_S900000x120_1_0_n_n_0_1_1120 : GatherDims S100000x120 S900000x1 S900000x120 where
  offsetDims := [1]
  collapsedSliceDims := [0]
  operandBatchingDims := []
  startIndicesBatchingDims := []
  startIndexMap := [0]
  indexVectorDim := 1
  sliceSizes := ![1, 120]
  wf := gather_S100000x120_S900000x1_S900000x120_1_0_n_n_0_1_1120_wf
def scatter_S100000x120_S900000x1_S900000x120_1_0_0_1 : ScatterDims S100000x120 S900000x1 S900000x120 where
  updateWindowDims := [1]
  insertedWindowDims := [0]
  scatterDimsToOperandDims := [0]
  indexVectorDim := 1
  wf := scatter_S100000x120_S900000x1_S900000x120_1_0_0_1_wf
def dot_S2000x120_S120x16_S2000x16_1_0_0_1_n_n : DotDims S2000x120 S120x16 S2000x16 where
  lhsContracting := [1]
  rhsContracting := [0]
  lhsNonContracting := [0]
  rhsNonContracting := [1]
  lhsBatch := []
  rhsBatch := []
  wf := dot_S2000x120_S120x16_S2000x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x180.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x180.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S2000x180.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25) S2000x180.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S180x120.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26) S2000x120.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v36) S2000x120.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S1x120.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S120x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S2000x16.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x180 : Shape := ⟨2, ![128, 180]⟩
abbrev S180 : Shape := ⟨1, ![180]⟩
abbrev S180x120 : Shape := ⟨2, ![180, 120]⟩
abbrev S120 : Shape := ⟨1, ![120]⟩
abbrev S120x16 : Shape := ⟨2, ![120, 16]⟩
abbrev S16 : Shape := ⟨1, ![16]⟩
abbrev S2x800000 : Shape := ⟨2, ![2, 800000]⟩
abbrev S1x800000 : Shape := ⟨2, ![1, 800000]⟩
abbrev S800000 : Shape := ⟨1, ![800000]⟩
abbrev S100000x180 : Shape := ⟨2, ![100000, 180]⟩
abbrev S100000 : Shape := ⟨1, ![100000]⟩
abbrev S900000 : Shape := ⟨1, ![900000]⟩
abbrev S_ : Shape := ⟨0, ![]⟩
abbrev S900000x1 : Shape := ⟨2, ![900000, 1]⟩
abbrev S900000x180 : Shape := ⟨2, ![900000, 180]⟩
abbrev S1x180 : Shape := ⟨2, ![1, 180]⟩
abbrev S100000x120 : Shape := ⟨2, ![100000, 120]⟩
abbrev S900000x120 : Shape := ⟨2, ![900000, 120]⟩
abbrev S1x120 : Shape := ⟨2, ![1, 120]⟩
abbrev S100000x16 : Shape := ⟨2, ![100000, 16]⟩
abbrev S1x16 : Shape := ⟨2, ![1, 16]⟩
abbrev S100000x1 : Shape := ⟨2, ![100000, 1]⟩

abbrev nBuf : Space → Nat
  | .hbm => 145
  | .vmem => 0
  | .smem => 0
  | _ => 0

abbrev hbmTy0_0 (i : Nat) : BufTy := match i % 128 with
  | 0 => ⟨S100000x128, .f32⟩
  | 1 => ⟨S128x180, .f32⟩
  | 2 => ⟨S180, .f32⟩
  | 3 => ⟨S180x120, .f32⟩
  | 4 => ⟨S120, .f32⟩
  | 5 => ⟨S120x16, .f32⟩
  | 6 => ⟨S16, .f32⟩
  | 7 => ⟨S2x800000, .i32⟩
  | 8 => ⟨S1x800000, .i32⟩
  | 9 => ⟨S800000, .i32⟩
  | 10 => ⟨S1x800000, .i32⟩
  | 11 => ⟨S800000, .i32⟩
  | 12 => ⟨S100000x180, .f32⟩
  | 13 => ⟨S100000, .i32⟩
  | 14 => ⟨S900000, .i32⟩
  | 15 => ⟨S900000, .i32⟩
  | 16 => ⟨S_, .f32⟩
  | 17 => ⟨S900000, .f32⟩
  | 18 => ⟨S_, .f32⟩
  | 19 => ⟨S100000, .f32⟩
  | 20 => ⟨S900000x1, .i32⟩
  | 21 => ⟨S100000, .f32⟩
  | 22 => ⟨S100000, .f32⟩
  | 23 => ⟨S_, .i32⟩
  | 24 => ⟨S900000, .i32⟩
  | 25 => ⟨S900000, .i1⟩
  | 26 => ⟨S_, .i32⟩
  | 27 => ⟨S900000, .i32⟩
  | 28 => ⟨S900000, .i32⟩
  | 29 => ⟨S900000, .i32⟩
  | 30 => ⟨S900000x1, .i32⟩
  | 31 => ⟨S900000, .f32⟩
  | 32 => ⟨S_, .i32⟩
  | 33 => ⟨S900000, .i32⟩
  | 34 => ⟨S900000, .i1⟩
  | 35 => ⟨S_, .i32⟩
  | 36 => ⟨S900000, .i32⟩
  | 37 => ⟨S900000, .i32⟩
  | 38 => ⟨S900000, .i32⟩
  | 39 => ⟨S900000x1, .i32⟩
  | 40 => ⟨S900000, .f32⟩
  | 41 => ⟨S900000, .f32⟩
  | 42 => ⟨S_, .i32⟩
  | 43 => ⟨S900000, .i32⟩
  | 44 => ⟨S900000, .i1⟩
  | 45 => ⟨S_, .i32⟩
  | 46 => ⟨S900000, .i32⟩
  | 47 => ⟨S900000, .i32⟩
  | 48 => ⟨S900000, .i32⟩
  | 49 => ⟨S900000x1, .i32⟩
  | 50 => ⟨S900000x180, .f32⟩
  | 51 => ⟨S900000x1, .f32⟩
  | 52 => ⟨S900000x180, .f32⟩
  | 53 => ⟨S900000x180, .f32⟩
  | 54 => ⟨S_, .f32⟩
  | 55 => ⟨S100000x180, .f32⟩
  | 56 => ⟨S900000x1, .i32⟩
  | 57 => ⟨S100000x180, .f32⟩
  | 58 => ⟨S1x180, .f32⟩
  | 59 => ⟨S100000x180, .f32⟩
  | 60 => ⟨S100000x180, .f32⟩
  | 61 => ⟨S_, .f32⟩
  | 62 => ⟨S_, .f32⟩
  | 63 => ⟨S100000x180, .f32⟩
  | 64 => ⟨S100000x180, .i1⟩
  | 65 => ⟨S_, .f32⟩
  | 66 => ⟨S100000x180, .f32⟩
  | 67 => ⟨S100000x180, .f32⟩
  | 68 => ⟨S100000x180, .f32⟩
  | 69 => ⟨S100000x120, .f32⟩
  | 70 => ⟨S100000, .i32⟩
  | 71 => ⟨S900000, .i32⟩
  | 72 => ⟨S900000, .i32⟩
  | 73 => ⟨S_, .f32⟩
  | 74 => ⟨S900000, .f32⟩
  | 75 => ⟨S_, .f32⟩
  | 76 => ⟨S100000, .f32⟩
  | 77 => ⟨S900000x1, .i32⟩
  | 78 => ⟨S100000, .f32⟩
  | 79 => ⟨S100000, .f32⟩
  | 80 => ⟨S_, .i32⟩
  | 81 => ⟨S900000, .i32⟩
  | 82 => ⟨S900000, .i1⟩
  | 83 => ⟨S_, .i32⟩
  | 84 => ⟨S900000, .i32⟩
  | 85 => ⟨S900000, .i32⟩
  | 86 => ⟨S900000, .i32⟩
  | 87 => ⟨S900000x1, .i32⟩
  | 88 => ⟨S900000, .f32⟩
  | 89 => ⟨S_, .i32⟩
  | 90 => ⟨S900000, .i32⟩
  | 91 => ⟨S900000, .i1⟩
  | 92 => ⟨S_, .i32⟩
  | 93 => ⟨S900000, .i32⟩
  | 94 => ⟨S900000, .i32⟩
  | 95 => ⟨S900000, .i32⟩
  | 96 => ⟨S900000x1, .i32⟩
  | 97 => ⟨S900000, .f32⟩
  | 98 => ⟨S900000, .f32⟩
  | 99 => ⟨S_, .i32⟩
  | 100 => ⟨S900000, .i32⟩
  | 101 => ⟨S900000, .i1⟩
  | 102 => ⟨S_, .i32⟩
  | 103 => ⟨S900000, .i32⟩
  | 104 => ⟨S900000, .i32⟩
  | 105 => ⟨S900000, .i32⟩
  | 106 => ⟨S900000x1, .i32⟩
  | 107 => ⟨S900000x120, .f32⟩
  | 108 => ⟨S900000x1, .f32⟩
  | 109 => ⟨S900000x120, .f32⟩
  | 110 => ⟨S900000x120, .f32⟩
  | 111 => ⟨S_, .f32⟩
  | 112 => ⟨S100000x120, .f32⟩
  | 113 => ⟨S900000x1, .i32⟩
  | 114 => ⟨S100000x120, .f32⟩
  | 115 => ⟨S1x120, .f32⟩
  | 116 => ⟨S100000x120, .f32⟩
  | 117 => ⟨S100000x120, .f32⟩
  | 118 => ⟨S_, .f32⟩
  | 119 => ⟨S_, .f32⟩
  | 120 => ⟨S100000x120, .f32⟩
  | 121 => ⟨S100000x120, .i1⟩
  | 122 => ⟨S_, .f32⟩
  | 123 => ⟨S100000x120, .f32⟩
  | 124 => ⟨S100000x120, .f32⟩
  | 125 => ⟨S100000x120, .f32⟩
  | 126 => ⟨S100000x16, .f32⟩
  | 127 => ⟨S1x16, .f32⟩
  | _ => ⟨S100000x128, .f32⟩

abbrev hbmTy0_1 (i : Nat) : BufTy := match i % 128 with
  | 0 => ⟨S100000x16, .f32⟩
  | 1 => ⟨S100000x16, .f32⟩
  | 2 => ⟨S_, .f32⟩
  | 3 => ⟨S100000, .f32⟩
  | 4 => ⟨S_, .f32⟩
  | 5 => ⟨S100000, .f32⟩
  | 6 => ⟨S100000, .f32⟩
  | 7 => ⟨S100000x1, .f32⟩
  | 8 => ⟨S100000x16, .f32⟩
  | 9 => ⟨S100000x16, .f32⟩
  | 10 => ⟨S100000x16, .f32⟩
  | 11 => ⟨S_, .f32⟩
  | 12 => ⟨S100000, .f32⟩
  | 13 => ⟨S100000x1, .f32⟩
  | 14 => ⟨S100000x1, .f32⟩
  | 15 => ⟨S100000x16, .f32⟩
  | 16 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_12 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_14 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_16 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_17 : Ref sig .tc := ⟨.hbm, 118, rfl⟩
abbrev main_call1_cst : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_call1_v3 : Ref sig .tc := ⟨.hbm, 123, rfl⟩
abbrev main_call1_v4 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_call2_cst : Ref sig .tc := ⟨.hbm, 130, rfl⟩
abbrev main_call2_v0 : Ref sig .tc := ⟨.hbm, 131, rfl⟩
abbrev main_call2_cst_0 : Ref sig .tc := ⟨.hbm, 132, rfl⟩
abbrev main_call2_v1 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_call2_v5 : Ref sig .tc := ⟨.hbm, 137, rfl⟩
abbrev main_call2_v6 : Ref sig .tc := ⟨.hbm, 138, rfl⟩
abbrev main_call2_cst_1 : Ref sig .tc := ⟨.hbm, 139, rfl⟩
abbrev main_call2_v7 : Ref sig .tc := ⟨.hbm, 140, rfl⟩
abbrev main_call2_v8 : Ref sig .tc := ⟨.hbm, 141, rfl⟩
abbrev main_call2_v9 : Ref sig .tc := ⟨.hbm, 142, rfl⟩
abbrev main_call2_v10 : Ref sig .tc := ⟨.hbm, 143, rfl⟩
abbrev main_v90 : Ref sig .tc := ⟨.hbm, 144, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x180_0_1 : S900000x1.BroadcastsInDim S900000x180 (![0, 1] : Fin 2 → Fin S900000x180.rank)
  bcast_S_S100000x180 : S_.BroadcastsInDim S100000x180 (![] : Fin 0 → Fin S100000x180.rank)
  bcast_S180_S1x180_1 : S180.BroadcastsInDim S1x180 (![1] : Fin 1 → Fin S1x180.rank)
  bcast_S1x180_S100000x180_0_1 : S1x180.BroadcastsInDim S100000x180 (![0, 1] : Fin 2 → Fin S100000x180.rank)
  bcast_S900000x1_S900000x120_0_1 : S900000x1.BroadcastsInDim S900000x120 (![0, 1] : Fin 2 → Fin S900000x120.rank)
  bcast_S_S100000x120 : S_.BroadcastsInDim S100000x120 (![] : Fin 0 → Fin S100000x120.rank)
  bcast_S120_S1x120_1 : S120.BroadcastsInDim S1x120 (![1] : Fin 1 → Fin S1x120.rank)
  bcast_S1x120_S100000x120_0_1 : S1x120.BroadcastsInDim S100000x120 (![0, 1] : Fin 2 → Fin S100000x120.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x128_S128x180_S100000x180_1_0_0_1_n_n_wf : DotDims.WF S100000x128 S128x180 S100000x180 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x180_S900000x1_S900000x180_1_0_n_n_0_1_1180_wf : GatherDims.WF S100000x180 S900000x1 S900000x180 [1] [0] [] [0] [] 1 ![1, 180]
  scatter_S100000x180_S900000x1_S900000x180_1_0_0_1_wf : ScatterDims.WF S100000x180 S900000x1 S900000x180 [1] [0] [0] 1
  dot_S100000x180_S180x120_S100000x120_1_0_0_1_n_n_wf : DotDims.WF S100000x180 S180x120 S100000x120 [1] [0] [0] [1] [] []
  gather_S100000x120_S900000x1_S900000x120_1_0_n_n_0_1_1120_wf : GatherDims.WF S100000x120 S900000x1 S900000x120 [1] [0] [] [0] [] 1 ![1, 120]
  scatter_S100000x120_S900000x1_S900000x120_1_0_0_1_wf : ScatterDims.WF S100000x120 S900000x1 S900000x120 [1] [0] [0] 1
  dot_S100000x120_S120x16_S100000x16_1_0_0_1_n_n_wf : DotDims.WF S100000x120 S120x16 S100000x16 [1] [0] [0] [1] [] []

variable [Facts₀]

def dot_S100000x128_S128x180_S100000x180_1_0_0_1_n_n : DotDims S100000x128 S128x180 S100000x180 where
  lhsContracting := [1]
  rhsContracting := [0]
  lhsNonContracting := [0]
  rhsNonContracting := [1]
  lhsBatch := []
  rhsBatch := []
  wf := dot_S100000x128_S128x180_S100000x180_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x180_S900000x1_S900000x180_1_0_n_n_0_1_1180 : GatherDims S100000x180 S900000x1 S900000x180 where
  offsetDims := [1]
  collapsedSliceDims := [0]
  operandBatchingDims := []
  startIndicesBatchingDims := []
  startIndexMap := [0]
  indexVectorDim := 1
  sliceSizes := ![1, 180]
  wf := gather_S100000x180_S900000x1_S900000x180_1_0_n_n_0_1_1180_wf
def scatter_S100000x180_S900000x1_S900000x180_1_0_0_1 : ScatterDims S100000x180 S900000x1 S900000x180 where
  updateWindowDims := [1]
  insertedWindowDims := [0]
  scatterDimsToOperandDims := [0]
  indexVectorDim := 1
  wf := scatter_S100000x180_S900000x1_S900000x180_1_0_0_1_wf
def dot_S100000x180_S180x120_S100000x120_1_0_0_1_n_n : DotDims S100000x180 S180x120 S100000x120 where
  lhsContracting := [1]
  rhsContracting := [0]
  lhsNonContracting := [0]
  rhsNonContracting := [1]
  lhsBatch := []
  rhsBatch := []
  wf := dot_S100000x180_S180x120_S100000x120_1_0_0_1_n_n_wf
def gather_S100000x120_S900000x1_S900000x120_1_0_n_n_0_1_1120 : GatherDims S100000x120 S900000x1 S900000x120 where
  offsetDims := [1]
  collapsedSliceDims := [0]
  operandBatchingDims := []
  startIndicesBatchingDims := []
  startIndexMap := [0]
  indexVectorDim := 1
  sliceSizes := ![1, 120]
  wf := gather_S100000x120_S900000x1_S900000x120_1_0_n_n_0_1_1120_wf
def scatter_S100000x120_S900000x1_S900000x120_1_0_0_1 : ScatterDims S100000x120 S900000x1 S900000x120 where
  updateWindowDims := [1]
  insertedWindowDims := [0]
  scatterDimsToOperandDims := [0]
  indexVectorDim := 1
  wf := scatter_S100000x120_S900000x1_S900000x120_1_0_0_1_wf
def dot_S100000x120_S120x16_S100000x16_1_0_0_1_n_n : DotDims S100000x120 S120x16 S100000x16 where
  lhsContracting := [1]
  rhsContracting := [0]
  lhsNonContracting := [0]
  rhsNonContracting := [1]
  lhsBatch := []
  rhsBatch := []
  wf := dot_S100000x120_S120x16_S100000x16_1_0_0_1_n_n_wf

class Facts : Prop extends Facts₀ where

variable [Facts]
-- ==== Proof.KRun.lean ====
/-
  The idealized kernel's run with its result named.  The program is four pipelined regions among stretches of host
  operations; the contents of every unscoped buffer at each boundary are a fold from the launch memory, and the last
  boundary's contents are what the final state holds.  Here the run is stated with the result buffer read at the last
  boundary's contents, beside the eight argument arrays, which end as launched.
-/
import proofs.«126286_j81570018886156_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument array as launched. -/
theorem run : θ_run defs (onTc (τ := τ) (main (F := F))) ⟨m, fun _ => 0, ρ⟩ (fun r => ∀ c : Dev nD,
      r.2.mem ((c.tc : Thread nD τ).loc main_v39) = W7 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v39 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Named

end
-- ==== Proof.KHost.lean ====
/-
  The host side of the idealized kernel's program, at the exact instance: what the stretches of host operations
  between the four regions leave in the buffers the regions read.

  * The two rows of the edge list, each flattened and followed by the node numbers 0 … 99999 (one self-loop per node):
    the source words and the target words of 900000 edges.
  * The degree of a node: 0 plus the one-word for every edge whose target word is the node; its inverse square root,
    as a vector and as a column.
  * An aggregation: rows of a table gathered at the wrapped source words and added into a zero table at the target
    words.
  * A bias vector laid as a row.
  Each buffer written before a region keeps its contents until a later operation or region writes it; the facts
  named `W…_v…` / `W…_arg…` walk a buffer back through the boundaries to where it was written.
-/
import proofs.«126286_j81570018886156_2_alg».proof.Proof.Gen.KernelIdeal.Frame
import Idealize.ShloMosaic.Lib.StableHlo.Run
import Idealize.ShloMosaic.PureOps.Ideal

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo
open Idealize.ShloMosaic.Pipeline (Dat)

/-! ## The host stages as functions of whole arrays -/

/-- The source words: row 0 of the edge list, then one word per node. -/
def srcK (e : IVec S2x800000 32) : IVec S900000 32 :=
  concatenate S900000 0
    [⟨S800000, shapeCast S800000 (extractStridedSlice S1x800000 ![0, 0] e slices_S2x800000_S1x800000_0_0) shapeCasts_S1x800000_S800000⟩,
     ⟨S100000, iotaInDim S100000 32 0⟩] concatenates_S800000_S100000_S900000_d0

/-- The target words: row 1 of the edge list, then one word per node. -/
def dstK (e : IVec S2x800000 32) : IVec S900000 32 :=
  concatenate S900000 0
    [⟨S800000, shapeCast S800000 (extractStridedSlice S1x800000 ![1, 0] e slices_S2x800000_S1x800000_1_0) shapeCasts_S1x800000_S800000⟩,
     ⟨S100000, iotaInDim S100000 32 0⟩] concatenates_S800000_S100000_S900000_d0

/-- The degree of every node: the one-word added at the target word of every edge, into zeros. -/
def degK (d : IVec S900000 32) : FVec Ideal S100000 .f32 :=
  Host.scatterAdd (F := Ideal) scatter_S100000_S900000x1_S900000_n_0_0_1
    (broadcastInDim S100000 ![] bcast_S_S100000 (constant (F := Ideal) S_ .f32 0x00000000#32))
    (broadcastInDim S900000x1 ![0] bcast_S900000_S900000x1_0 d)
    (broadcastInDim S900000 ![] bcast_S_S900000 (constant (F := Ideal) S_ .f32 0x3F800000#32))

/-- The inverse square root of the degrees, as a column. -/
def dvcK (d : IVec S900000 32) : FVec Ideal S100000x1 .f32 :=
  shapeCast S100000x1 (Host.rsqrt (F := Ideal) (degK d)) shapeCasts_S100000_S100000x1

/-- A word wrapped from the end where it is negative. -/
def wrapK (v : IVec S900000 32) : IVec S900000 32 :=
  select (cmpi .slt v (broadcastInDim S900000 ![] bcast_S_S900000 (constantI S_ 32 0#32)))
    (addi v (broadcastInDim S900000 ![] bcast_S_S900000 (constantI S_ 32 100000#32))) v

/-- Rows of a 128-column table gathered at the source words and added at the target words. -/
def aggK128 (t : FVec Ideal S100000x128 .f32) (s d : IVec S900000 32) : FVec Ideal S100000x128 .f32 :=
  Host.scatterAdd (F := Ideal) scatter_S100000x128_S900000x1_S900000x128_1_0_0_1
    (broadcastInDim S100000x128 ![] bcast_S_S100000x128 (constant (F := Ideal) S_ .f32 0x00000000#32))
    (broadcastInDim S900000x1 ![0] bcast_S900000_S900000x1_0 d)
    (Host.gather gather_S100000x128_S900000x1_S900000x128_1_0_n_n_0_1_1128 t
      (broadcastInDim S900000x1 ![0] bcast_S900000_S900000x1_0 (wrapK s)))

/-- Rows of a 120-column table gathered at the source words and added at the target words. -/
def aggK120 (t : FVec Ideal S100000x120 .f32) (s d : IVec S900000 32) : FVec Ideal S100000x120 .f32 :=
  Host.scatterAdd (F := Ideal) scatter_S100000x120_S900000x1_S900000x120_1_0_0_1
    (broadcastInDim S100000x120 ![] bcast_S_S100000x120 (constant (F := Ideal) S_ .f32 0x00000000#32))
    (broadcastInDim S900000x1 ![0] bcast_S900000_S900000x1_0 d)
    (Host.gather gather_S100000x120_S900000x1_S900000x120_1_0_n_n_0_1_1120 t
      (broadcastInDim S900000x1 ![0] bcast_S900000_S900000x1_0 (wrapK s)))

variable (m : (ℓ : Loc nD τ sig) → Buf (Elt Ideal) ℓ) (ρ : Dev nD → PrngReg) (c : Dev nD)

/-- A buffer none of a stretch's operations writes keeps its contents through the stretch. -/
macro "keep_through " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Before region 0 -/

theorem W1_v5 : (W1 (F := Ideal) m ρ c (Proc.devRef .tc main_v5) : S900000.Idx → BitVec 32)
    = srcK (m ((c : Thread nD τ).loc main_arg7)) := by
  dsimp only [W1, hostOps0]; after_results; rfl

theorem W1_v6 : (W1 (F := Ideal) m ρ c (Proc.devRef .tc main_v6) : S900000.Idx → BitVec 32)
    = dstK (m ((c : Thread nD τ).loc main_arg7)) := by
  dsimp only [W1, hostOps0]; after_results; rfl

theorem W1_v12 : (W1 (F := Ideal) m ρ c (Proc.devRef .tc main_v12) : S100000x1.Idx → EReal)
    = dvcK (dstK (m ((c : Thread nD τ).loc main_arg7))) := by
  dsimp only [W1, hostOps0]; after_results; rfl

theorem W1_arg (b : Ref sig .tc) (hb : b = main_arg0 ∨ b = main_arg1 ∨ b = main_arg2 ∨ b = main_arg3 ∨ b = main_arg4 ∨ b = main_arg5 ∨ b = main_arg6) :
    W1 (F := Ideal) m ρ c (Proc.devRef .tc b) = m ((c : Thread nD τ).loc b) := by
  rcases hb with rfl | rfl | rfl | rfl | rfl | rfl | rfl <;>
  · show StableHlo.after hostOps0 (W0 m ρ c) _ = W0 m ρ c _
    keep_through hostOps0

/-! ## Through region 0 (it writes main_v13 only) -/

theorem W2_v5 : W2 (F := Ideal) m ρ c (Proc.devRef .tc main_v5) = W1 m ρ c (Proc.devRef .tc main_v5) :=
  W2_of_ne m ρ c main_v5 (by decide)
theorem W2_v6 : W2 (F := Ideal) m ρ c (Proc.devRef .tc main_v6) = W1 m ρ c (Proc.devRef .tc main_v6) :=
  W2_of_ne m ρ c main_v6 (by decide)
theorem W2_v12 : W2 (F := Ideal) m ρ c (Proc.devRef .tc main_v12) = W1 m ρ c (Proc.devRef .tc main_v12) :=
  (W2_arr m ρ c 1).trans (((dat0 (V1 m ρ) c).arrAt_in 1 rfl _).trans (A_eq0 (V1 m ρ) c 1))
theorem W2_arg (b : Ref sig .tc) (hb : b = main_arg1 ∨ b = main_arg2 ∨ b = main_arg3 ∨ b = main_arg4 ∨ b = main_arg5 ∨ b = main_arg6) :
    W2 (F := Ideal) m ρ c (Proc.devRef .tc b) = m ((c : Thread nD τ).loc b) := by
  rcases hb with rfl | rfl | rfl | rfl | rfl | rfl
  · exact (W2_of_ne m ρ c _ (by decide)).trans (W1_arg m ρ c _ (by simp))
  · exact (W2_of_ne m ρ c _ (by decide)).trans (W1_arg m ρ c _ (by simp))
  · exact (W2_of_ne m ρ c _ (by decide)).trans (W1_arg m ρ c _ (by simp))
  · exact (W2_of_ne m ρ c _ (by decide)).trans (W1_arg m ρ c _ (by simp))
  · exact (W2_of_ne m ρ c _ (by decide)).trans (W1_arg m ρ c _ (by simp))
  · exact (W2_of_ne m ρ c _ (by decide)).trans (W1_arg m ρ c _ (by simp))

/-! ## Before region 1 -/

theorem W3_v23 : (W3 (F := Ideal) m ρ c (Proc.devRef .tc main_v23) : S100000x128.Idx → EReal)
    = aggK128 (W2 m ρ c (Proc.devRef .tc main_v13)) (W2 m ρ c (Proc.devRef .tc main_v5)) (W2 m ρ c (Proc.devRef .tc main_v6)) := by
  dsimp only [W3, hostOps1]; after_results; rfl

theorem W3_v24 : (W3 (F := Ideal) m ρ c (Proc.devRef .tc main_v24) : S1x180.Idx → EReal)
    = shapeCast S1x180 (W2 m ρ c (Proc.devRef .tc main_arg2) : S180.Idx → EReal) shapeCasts_S180_S1x180 := by
  dsimp only [W3, hostOps1]; after_results; rfl

theorem W3_keep (b : Ref sig .tc) (hb : b = main_v5 ∨ b = main_v6 ∨ b = main_v12 ∨ b = main_arg1 ∨ b = main_arg3 ∨ b = main_arg4 ∨ b = main_arg5 ∨ b = main_arg6) :
    W3 (F := Ideal) m ρ c (Proc.devRef .tc b) = W2 m ρ c (Proc.devRef .tc b) := by
  rcases hb with rfl | rfl | rfl | rfl | rfl | rfl | rfl | rfl <;>
  · show StableHlo.after hostOps1 (W2 m ρ c) _ = W2 m ρ c _
    keep_through hostOps1

/-! ## Through regions 1 (it writes main_v25 only) and 2 (main_v26 only) -/

theorem W4_v12 : W4 (F := Ideal) m ρ c (Proc.devRef .tc main_v12) = W3 m ρ c (Proc.devRef .tc main_v12) :=
  (W4_arr m ρ c 1).trans (((dat1 (V3 m ρ) c).arrAt_in 1 rfl _).trans (A_eq1 (V3 m ρ) c 1))
theorem W4_keep (b : Ref sig .tc) (hb : b = main_v5 ∨ b = main_v6 ∨ b = main_arg3 ∨ b = main_arg4 ∨ b = main_arg5 ∨ b = main_arg6) :
    W4 (F := Ideal) m ρ c (Proc.devRef .tc b) = W3 m ρ c (Proc.devRef .tc b) := by
  rcases hb with rfl | rfl | rfl | rfl | rfl | rfl <;> exact W4_of_ne m ρ c _ (by decide)
theorem W5_v12 : W5 (F := Ideal) m ρ c (Proc.devRef .tc main_v12) = W4 m ρ c (Proc.devRef .tc main_v12) :=
  (W5_arr m ρ c 2).trans (((dat2 (V4 m ρ) c).arrAt_in 2 rfl _).trans (A_eq2 (V4 m ρ) c 2))
theorem W5_keep (b : Ref sig .tc) (hb : b = main_v5 ∨ b = main_v6 ∨ b = main_arg4 ∨ b = main_arg5 ∨ b = main_arg6) :
    W5 (F := Ideal) m ρ c (Proc.devRef .tc b) = W4 m ρ c (Proc.devRef .tc b) := by
  rcases hb with rfl | rfl | rfl | rfl | rfl <;> exact W5_of_ne m ρ c _ (by decide)

/-! ## Before region 3 -/

theorem W6_v36 : (W6 (F := Ideal) m ρ c (Proc.devRef .tc main_v36) : S100000x120.Idx → EReal)
    = aggK120 (W5 m ρ c (Proc.devRef .tc main_v26)) (W5 m ρ c (Proc.devRef .tc main_v5)) (W5 m ρ c (Proc.devRef .tc main_v6)) := by
  dsimp only [W6, hostOps3]; after_results; rfl

theorem W6_v37 : (W6 (F := Ideal) m ρ c (Proc.devRef .tc main_v37) : S1x120.Idx → EReal)
    = shapeCast S1x120 (W5 m ρ c (Proc.devRef .tc main_arg4) : S120.Idx → EReal) shapeCasts_S120_S1x120 := by
  dsimp only [W6, hostOps3]; after_results; rfl

theorem W6_v38 : (W6 (F := Ideal) m ρ c (Proc.devRef .tc main_v38) : S1x16.Idx → EReal)
    = shapeCast S1x16 (W5 m ρ c (Proc.devRef .tc main_arg6) : S16.Idx → EReal) shapeCasts_S16_S1x16 := by
  dsimp only [W6, hostOps3]; after_results; rfl

theorem W6_keep (b : Ref sig .tc) (hb : b = main_v12 ∨ b = main_arg5) :
    W6 (F := Ideal) m ρ c (Proc.devRef .tc b) = W5 m ρ c (Proc.devRef .tc b) := by
  rcases hb with rfl | rfl <;>
  · show StableHlo.after hostOps3 (W5 m ρ c) _ = W5 m ρ c _
    keep_through hostOps3

/-! ## The buffers the regions read, walked back to where they were written -/

/-- The degree column, unchanged from where the first stretch wrote it to the last region's entry. -/
theorem dvc_at_3 : W3 (F := Ideal) m ρ c (Proc.devRef .tc main_v12) = W1 m ρ c (Proc.devRef .tc main_v12) :=
  (W3_keep m ρ c _ (by simp)).trans (W2_v12 m ρ c)
theorem dvc_at_4 : W4 (F := Ideal) m ρ c (Proc.devRef .tc main_v12) = W1 m ρ c (Proc.devRef .tc main_v12) :=
  (W4_v12 m ρ c).trans (dvc_at_3 m ρ c)
theorem dvc_at_6 : W6 (F := Ideal) m ρ c (Proc.devRef .tc main_v12) = W1 m ρ c (Proc.devRef .tc main_v12) :=
  (W6_keep m ρ c _ (by simp)).trans ((W5_v12 m ρ c).trans (dvc_at_4 m ρ c))

/-- The edge words at the second aggregation are those of the first. -/
theorem v5_at_5 : W5 (F := Ideal) m ρ c (Proc.devRef .tc main_v5) = W1 m ρ c (Proc.devRef .tc main_v5) :=
  (W5_keep m ρ c _ (by simp)).trans ((W4_keep m ρ c _ (by simp)).trans ((W3_keep m ρ c _ (by simp)).trans (W2_v5 m ρ c)))
theorem v6_at_5 : W5 (F := Ideal) m ρ c (Proc.devRef .tc main_v6) = W1 m ρ c (Proc.devRef .tc main_v6) :=
  (W5_keep m ρ c _ (by simp)).trans ((W4_keep m ρ c _ (by simp)).trans ((W3_keep m ρ c _ (by simp)).trans (W2_v6 m ρ c)))

/-- The arguments where they are read. -/
theorem arg1_at_3 : W3 (F := Ideal) m ρ c (Proc.devRef .tc main_arg1) = m ((c : Thread nD τ).loc main_arg1) :=
  (W3_keep m ρ c _ (by simp)).trans (W2_arg m ρ c _ (by simp))
theorem arg3_at_4 : W4 (F := Ideal) m ρ c (Proc.devRef .tc main_arg3) = m ((c : Thread nD τ).loc main_arg3) :=
  (W4_keep m ρ c _ (by simp)).trans ((W3_keep m ρ c _ (by simp)).trans (W2_arg m ρ c _ (by simp)))
theorem arg4_at_5 : W5 (F := Ideal) m ρ c (Proc.devRef .tc main_arg4) = m ((c : Thread nD τ).loc main_arg4) :=
  (W5_keep m ρ c _ (by simp)).trans ((W4_keep m ρ c _ (by simp)).trans ((W3_keep m ρ c _ (by simp)).trans (W2_arg m ρ c _ (by simp))))
theorem arg6_at_5 : W5 (F := Ideal) m ρ c (Proc.devRef .tc main_arg6) = m ((c : Thread nD τ).loc main_arg6) :=
  (W5_keep m ρ c _ (by simp)).trans ((W4_keep m ρ c _ (by simp)).trans ((W3_keep m ρ c _ (by simp)).trans (W2_arg m ρ c _ (by simp))))
theorem arg5_at_6 : W6 (F := Ideal) m ρ c (Proc.devRef .tc main_arg5) = m ((c : Thread nD τ).loc main_arg5) :=
  (W6_keep m ρ c _ (by simp)).trans ((W5_keep m ρ c _ (by simp)).trans ((W4_keep m ρ c _ (by simp)).trans ((W3_keep m ρ c _ (by simp)).trans (W2_arg m ρ c _ (by simp)))))

end Cert.KernelIdeal.Host

end
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.Region0.lean ====
/-
  The first kernel launch (a scaling of each row), read as ONE function of its input arrays.

  The launch walks 50 row blocks of 2000 rows.  At each block it multiplies row r of the block of X by the entry r of the
  column D (a 2000 x 1 column repeated along the 128 columns).  So entry (n, k) of the 100000 x 128 result is

      X(n, k) · D(n, 0).

  The payload of one block at an entry (p, k) is read first, over variables of the block shapes; then what grid point t
  writes back is identified with block t of the whole-array function: row p of the block at point t is row 2000 t + p
  of X, of D and of the result; the 50 blocks cover all 100000 rows (row r lies in block r / 2000), so the array after
  the launch is that function.
-/
import proofs.«126286_j81570018886156_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws
import proofs.«126286_j81570018886156_2_alg».proof.Proof.LibRowOps

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## The whole-array function -/

/-- Entry (n, k) of the result: entry (n, k) of X scaled by entry n of the column D. -/
def entry (X : FVec Ideal S100000x128 .f32) (D : FVec Ideal S100000x1 .f32) (n : Fin 100000) (k : Fin 128) : Ideal .f32 :=
  X (ix2 n k) * D (ix2 n (0 : Fin 1))

/-- The result array as one function of the two input arrays, index by index. -/
def G (X : FVec Ideal S100000x128 .f32) (D : FVec Ideal S100000x1 .f32) : FVec Ideal S100000x128 .f32 :=
  fun i => entry X D (i 0) (i 1)

theorem G_apply (X : FVec Ideal S100000x128 .f32) (D : FVec Ideal S100000x1 .f32) (n : Fin 100000) (k : Fin 128) :
    G X D (ix2 n k) = X (ix2 n k) * D (ix2 n (0 : Fin 1)) := rfl

/-! ## One block's payload at an entry -/

/-- The block's payload at (p, k): entry (p, k) of the first block scaled by entry p of the column block. -/
theorem pay_apply (x0 : Vec Ideal S2000x128 .f32) (x1 : Vec Ideal S2000x1 .f32) (p : Fin 2000) (k : Fin 128) :
    k0_pay1 (F := Ideal) x0 x1 (ix2 p k) = x0 (ix2 p k) * x1 (ix2 p (0 : Fin 1)) := by
  unfold k0_pay1
  refine (mulf_apply _ _ (ix2 p k)).trans ?_
  refine congrArg (x0 (ix2 p k) * ·) ?_
  refine (Cert.LibRowOps.broadcastTo_a1_ab_apply _ _ p k).trans ?_
  rw [shapeCast_self]

/-! ## From blocks to the array -/

theorem hz : (![0, 0] : Fin 2 → Nat) = fun _ => 0 := funext fun a => by fin_cases a <;> rfl

/-- The printed index maps, decided over the 50 grid points: all three windows sit at block (t, 0) at point t. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Row p of the block of X at point t is row 2000 t + p of X. -/
theorem read_X (c : Dev nD) (t : Fin cfg0.N) (p : Fin 2000) (k : Fin 128) (n : Fin 100000)
    (hn : n.val = t.val * 2000 + p.val) :
    (iblk0 V c 0 t : Vec Ideal S2000x128 .f32) (ix2 p k)
      = (V c (Pipeline.arrRef spec0 0) : FVec Ideal S100000x128 .f32) (ix2 n k) := by
  show V c (Pipeline.arrRef spec0 0) (((cfg0.win 0).blk t).view.emb (ix2 p k)) = V c (Pipeline.arrRef spec0 0) (ix2 n k)
  refine congrArg _ (funext fun a => Fin.ext ?_)
  obtain ⟨e0, e1, -⟩ := idx_facts t
  match a with
  | ⟨0, _⟩ => show win0_0.index t (0 : Fin 2) * 2000 + 1 * p.val = n.val; rw [e0, hn]; omega
  | ⟨1, _⟩ => show win0_0.index t (1 : Fin 2) * 128 + 1 * k.val = k.val; rw [e1]; omega

/-- Entry p of the block of the column D at point t is entry 2000 t + p of D. -/
theorem read_D (c : Dev nD) (t : Fin cfg0.N) (p : Fin 2000) (n : Fin 100000)
    (hn : n.val = t.val * 2000 + p.val) :
    (iblk0 V c 1 t : Vec Ideal S2000x1 .f32) (ix2 p (0 : Fin 1))
      = (V c (Pipeline.arrRef spec0 1) : FVec Ideal S100000x1 .f32) (ix2 n (0 : Fin 1)) := by
  show V c (Pipeline.arrRef spec0 1) (((cfg0.win 1).blk t).view.emb (ix2 p (0 : Fin 1))) = V c (Pipeline.arrRef spec0 1) (ix2 n (0 : Fin 1))
  refine congrArg _ (funext fun a => Fin.ext ?_)
  obtain ⟨-, -, e0, e1, -⟩ := idx_facts t
  match a with
  | ⟨0, _⟩ => show win0_1.index t (0 : Fin 2) * 2000 + 1 * p.val = n.val; rw [e0, hn]; omega
  | ⟨1, _⟩ => show win0_1.index t (1 : Fin 2) * 1 + 1 * 0 = 0; rw [e1]

/-- Entry (p, k) of the result's block at point t sits at (2000 t + p, k) in the result array. -/
theorem emb_out (t : Fin cfg0.N) (p : Fin 2000) (k : Fin 128) (n : Fin 100000)
    (hn : n.val = t.val * 2000 + p.val) :
    ((cfg0.win 2).blk t).view.emb (ix2 p k) = (ix2 n k : S100000x128.Idx) := by
  refine funext fun a => Fin.ext ?_
  obtain ⟨-, -, -, -, e0, e1⟩ := idx_facts t
  match a with
  | ⟨0, _⟩ => show win0_2.index t (0 : Fin 2) * 2000 + 1 * p.val = n.val; rw [e0, hn]; omega
  | ⟨1, _⟩ => show win0_2.index t (1 : Fin 2) * 128 + 1 * k.val = k.val; rw [e1]; omega

/-- WHAT POINT t WRITES BACK is block t of the whole-array function of the arrays as the launch finds them. -/
theorem flushed_eq (c : Dev nD) (t : Fin cfg0.N) :
    (dat0 (F := Ideal) V c).flushed 2 t
      = ((cfg0.win 2).blk t).view.read (Elt Ideal) (G (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz]
  simp only [View.ld_unit_zero (S := S2000x128) hz, View.ld_unit_zero (S := S2000x1) hz]
  funext j
  obtain ⟨p, k, rfl⟩ : ∃ (p : Fin 2000) (k : Fin 128), j = ix2 p k := ⟨j 0, j 1, eq_ix2 j⟩
  have ht : t.val < 50 := lt_of_lt_of_eq t.isLt (N_0 : cfg0.N = 50)
  have hp : p.val < 2000 := p.isLt
  obtain ⟨n, hn⟩ : ∃ n : Fin 100000, n.val = t.val * 2000 + p.val := ⟨⟨t.val * 2000 + p.val, by omega⟩, rfl⟩
  show k0_pay1 (F := Ideal) (iblk0 V c 0 t) (iblk0 V c 1 t) (ix2 p k)
    = G (V c (Pipeline.arrRef spec0 0)) (V c (Pipeline.arrRef spec0 1)) (((cfg0.win 2).blk t).view.emb (ix2 p k))
  rw [emb_out t p k n hn, G_apply]
  refine (pay_apply _ _ p k).trans ?_
  exact congrArg₂ (· * ·) (read_X V c t p k n hn) (read_D V c t p n hn)

/-- An index of the result array is in point t's block iff each coordinate is in the block's range on its axis. -/
theorem mem_blk (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v13).slice (win0_2.rect t)).set ↔ _
  rw [View.set_slice_whole, Rect.mem_set_unit]
  exact Iff.rfl

/-- Every index of the result array lies in some point's block: row r lies in block r / 2000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 50 := N_0
  obtain ⟨t, ht⟩ : ∃ t : Fin cfg0.N, t.val = (i 0).val / 2000 :=
    ⟨⟨(i 0).val / 2000, by show _ < grid0.N; rw [hN]; omega⟩, rfl⟩
  refine ⟨t, flush0_2 t, ?_⟩
  rw [mem_blk]
  obtain ⟨-, -, -, -, e0, e1⟩ := idx_facts t
  intro a
  match a with
  | ⟨0, _⟩ =>
    show win0_2.index t (0 : Fin 2) * 2000 ≤ (i 0).val ∧ (i 0).val < win0_2.index t (0 : Fin 2) * 2000 + 2000
    rw [e0, ht]; omega
  | ⟨1, _⟩ =>
    show win0_2.index t (1 : Fin 2) * 128 ≤ (i 1).val ∧ (i 1).val < win0_2.index t (1 : Fin 2) * 128 + 128
    rw [e1]; omega

/-- THE RESULT ARRAY after the launch is the whole-array function of the arrays as the launch finds them. -/
theorem arr_eq_G (c : Dev nD) :
    (dat0 (F := Ideal) V c).arrAt 2 cfg0.N = G (V c (Pipeline.arrRef spec0 0)) (V c (Pipeline.arrRef spec0 1)) :=
  (dat0 (F := Ideal) V c).arrAt_eq_of_cover 2 _ (fun t _ => flushed_eq V c t) cover

/-- The two arrays the launch reads, as it finds them, at their literal shapes: X and the column D. -/
abbrev arrX (c : Dev nD) : FVec Ideal S100000x128 .f32 := V c (Pipeline.arrRef spec0 0)
abbrev arrD (c : Dev nD) : FVec Ideal S100000x1 .f32 := V c (Pipeline.arrRef spec0 1)

/-- Entry (n, k) of the result array after the launch. -/
theorem arr_eq (c : Dev nD) (n : Fin 100000) (k : Fin 128) :
    (dat0 (F := Ideal) V c).arrAt 2 cfg0.N (ix2 n k) = arrX V c (ix2 n k) * arrD V c (ix2 n (0 : Fin 1)) := by
  rw [arr_eq_G]; rfl

end Cert.KernelIdeal.Region0

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.Region1.lean ====
/-
  The second kernel launch (a scaling of each row, a matrix product, a bias row, a leaky rectifier), read as ONE function
  of its input arrays.

  The launch walks 50 row blocks of 2000 rows.  At each block it multiplies row r of the block of A by the entry r of the
  column D, multiplies the scaled 2000 x 128 block by the whole 128 x 180 matrix W (both operands are first narrowed to
  the 16-bit format, which is the identity on the extended reals; the accumulator starts at zero), adds the 1 x 180 bias
  row B to every row, and keeps each value v that compares greater than the zero word's value, replacing every other v
  by v times the value of the word 0x3C23D70A.  So with

      v(n, q) = (Σ_{k < 128} (A(n, k) · D(n, 0)) · W(k, q)) + B(0, q)

  entry (n, q) of the 100000 x 180 result is  select (v > 0) v (v · c).  The two words are kept as words: nothing here
  depends on their values.

  The payload of one block at an entry (p, q) is read first, over variables of the block shapes; then what grid point t
  writes back is identified with block t of the whole-array function: row p of the block at point t is row 2000 t + p
  of the arrays that move with the grid (A, D, the result), and W and B are read whole at every point; the 50 blocks
  cover all 100000 rows (row r lies in block r / 2000), so the array after the launch is that function.
-/
import proofs.«126286_j81570018886156_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws
import proofs.«126286_j81570018886156_2_alg».proof.Proof.LibMatmulZero
import proofs.«126286_j81570018886156_2_alg».proof.Proof.LibRowOps

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-! ## The whole-array function -/

/-- The leaky rectifier as the body prints it: a value that compares greater than the zero word's value is kept, any
    other is multiplied by the value of the word 0x3C23D70A. -/
def leaky (v : Ideal .f32) : Ideal .f32 :=
  Scalar.select (Ideal.cmp .ogt v (Ideal.ofBits .f32 0x00000000#32)) v (v * Ideal.ofBits .f32 0x3C23D70A#32)

theorem leaky_def (v : Ideal .f32) :
    leaky v = Scalar.select (Ideal.cmp .ogt v (Ideal.ofBits .f32 0x00000000#32)) v (v * Ideal.ofBits .f32 0x3C23D70A#32) := rfl

/-- The value before the rectifier at (n, q): row n of A scaled by entry n of D, times column q of W, plus entry q of
    the bias row. -/
def pre (A : FVec Ideal S100000x128 .f32) (D : FVec Ideal S100000x1 .f32) (Wm : FVec Ideal S128x180 .f32)
    (B : FVec Ideal S1x180 .f32) (n : Fin 100000) (q : Fin 180) : Ideal .f32 :=
  (∑ k : Fin 128, (A (ix2 n k) * D (ix2 n (0 : Fin 1))) * Wm (ix2 k q)) + B (ix2 (0 : Fin 1) q)

/-- The result array as one function of the four input arrays, index by index. -/
def G (A : FVec Ideal S100000x128 .f32) (D : FVec Ideal S100000x1 .f32) (Wm : FVec Ideal S128x180 .f32)
    (B : FVec Ideal S1x180 .f32) : FVec Ideal S100000x180 .f32 :=
  fun i => leaky (pre A D Wm B (i 0) (i 1))

theorem G_apply (A : FVec Ideal S100000x128 .f32) (D : FVec Ideal S100000x1 .f32) (Wm : FVec Ideal S128x180 .f32)
    (B : FVec Ideal S1x180 .f32) (n : Fin 100000) (q : Fin 180) :
    G A D Wm B (ix2 n q)
      = leaky ((∑ k : Fin 128, (A (ix2 n k) * D (ix2 n (0 : Fin 1))) * Wm (ix2 k q)) + B (ix2 (0 : Fin 1) q)) := rfl

/-! ## One block's payload at an entry -/

/-- The product's dimension numbers carry the left operand's axis 0 to the result's axis 0 … -/
theorem dot_lhs0 (i : S2000x180.Idx) (c : dot_S2000x128_S128x180_S2000x180_1_0_0_1_n_n.contr.Idx) :
    (dot_S2000x128_S128x180_S2000x180_1_0_0_1_n_n.lhsIdx i c 0).val = (i 0).val := by
  unfold DotDims.lhsIdx
  rw [dif_neg (show ¬(0 : Fin _) ∈ dot_S2000x128_S128x180_S2000x180_1_0_0_1_n_n.lhsBatch by decide),
    dif_pos (show (0 : Fin _) ∈ dot_S2000x128_S128x180_S2000x180_1_0_0_1_n_n.lhsNonContracting by decide)]
  rfl

/-- … and the right operand's axis 1 to the result's axis 1. -/
theorem dot_rhs1 (i : S2000x180.Idx) (c : dot_S2000x128_S128x180_S2000x180_1_0_0_1_n_n.contr.Idx) :
    (dot_S2000x128_S128x180_S2000x180_1_0_0_1_n_n.rhsIdx i c 1).val = (i 1).val := by
  unfold DotDims.rhsIdx
  rw [dif_neg (show ¬(1 : Fin _) ∈ dot_S2000x128_S128x180_S2000x180_1_0_0_1_n_n.rhsBatch by decide),
    dif_pos (show (1 : Fin _) ∈ dot_S2000x128_S128x180_S2000x180_1_0_0_1_n_n.rhsNonContracting by decide)]
  rfl

/-- The value the body adds the bias to and rectifies, at (p, q), over the block shapes. -/
def prePay (x0 : Vec Ideal S2000x128 .f32) (x1 : Vec Ideal S2000x1 .f32) (x2 : Vec Ideal S128x180 .f32)
    (x3 : Vec Ideal S1x180 .f32) : FVec Ideal S2000x180 .f32 :=
  addf (matmul dot_S2000x128_S128x180_S2000x180_1_0_0_1_n_n none
      (truncf .bf16 (mulf (shapeCast S2000x128 x0 shapeCasts_S2000x128_S2000x128)
        (broadcastTo S2000x128 (shapeCast S2000x1 x1 shapeCasts_S2000x1_S2000x1) broadcasts_S2000x1_S2000x128)) bitsLt_bf16_f32)
      (truncf .bf16 x2 bitsLt_bf16_f32) (constant S2000x180 .f32 0x00000000#32))
    (broadcastTo S2000x180 (shapeCast S1x180 x3 shapeCasts_S1x180_S1x180) broadcasts_S1x180_S2000x180)

/-- That value at (p, q): row p of the first block scaled by entry p of the column block, times column q of the matrix,
    plus entry q of the bias row. -/
theorem prePay_apply (x0 : Vec Ideal S2000x128 .f32) (x1 : Vec Ideal S2000x1 .f32) (x2 : Vec Ideal S128x180 .f32)
    (x3 : Vec Ideal S1x180 .f32) (p : Fin 2000) (q : Fin 180) :
    prePay x0 x1 x2 x3 (ix2 p q)
      = (∑ k : Fin 128, (x0 (ix2 p k) * x1 (ix2 p (0 : Fin 1))) * x2 (ix2 k q)) + x3 (ix2 (0 : Fin 1) q) := by
  unfold prePay
  refine (addf_apply _ _ (ix2 p q)).trans ?_
  refine congrArg₂ (· + ·) ?_ ?_
  · refine (Cert.LibMatmulZero.matmul_zero_ix2 dot_S2000x128_S128x180_S2000x180_1_0_0_1_n_n rfl rfl rfl rfl
      dot_lhs0 dot_rhs1 none _ _ p q).trans ?_
    refine Finset.sum_congr rfl fun k _ => ?_
    rw [truncf_apply, truncf_apply, mulf_apply, shapeCast_self]
    refine congrArg (fun z => x0 (ix2 p k) * z * x2 (ix2 k q)) ?_
    refine (Cert.LibRowOps.broadcastTo_a1_ab_apply _ _ p k).trans ?_
    rw [shapeCast_self]
  · refine (broadcastTo_1b_ab_apply _ _ p q).trans ?_
    rw [shapeCast_self]

/-- The block's payload at (p, q) is the rectifier of that value. -/
theorem pay_apply (x0 : Vec Ideal S2000x128 .f32) (x1 : Vec Ideal S2000x1 .f32) (x2 : Vec Ideal S128x180 .f32)
    (x3 : Vec Ideal S1x180 .f32) (p : Fin 2000) (q : Fin 180) :
    k1_pay1 (F := Ideal) x0 x1 x2 x3 (ix2 p q)
      = leaky ((∑ k : Fin 128, (x0 (ix2 p k) * x1 (ix2 p (0 : Fin 1))) * x2 (ix2 k q)) + x3 (ix2 (0 : Fin 1) q)) := by
  have e : k1_pay1 (F := Ideal) x0 x1 x2 x3 (ix2 p q) = leaky (prePay x0 x1 x2 x3 (ix2 p q)) := rfl
  rw [e, prePay_apply]

/-! ## From blocks to the array -/

theorem hz : (![0, 0] : Fin 2 → Nat) = fun _ => 0 := funext fun a => by fin_cases a <;> rfl

/-- The printed index maps, decided over the 50 grid points: the windows over A, D and the result sit at block
    (t, 0) at point t; the windows over W and B sit at block (0, 0) at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Row p of the block of A at point t is row 2000 t + p of A. -/
theorem read_A (c : Dev nD) (t : Fin cfg1.N) (p : Fin 2000) (k : Fin 128) (n : Fin 100000)
    (hn : n.val = t.val * 2000 + p.val) :
    (iblk1 V c 0 t : Vec Ideal S2000x128 .f32) (ix2 p k)
      = (V c (Pipeline.arrRef spec1 0) : FVec Ideal S100000x128 .f32) (ix2 n k) := by
  show V c (Pipeline.arrRef spec1 0) (((cfg1.win 0).blk t).view.emb (ix2 p k)) = V c (Pipeline.arrRef spec1 0) (ix2 n k)
  refine congrArg _ (funext fun a => Fin.ext ?_)
  obtain ⟨e0, e1, -⟩ := idx_facts t
  match a with
  | ⟨0, _⟩ => show win1_0.index t (0 : Fin 2) * 2000 + 1 * p.val = n.val; rw [e0, hn]; omega
  | ⟨1, _⟩ => show win1_0.index t (1 : Fin 2) * 128 + 1 * k.val = k.val; rw [e1]; omega

/-- Entry p of the block of the column D at point t is entry 2000 t + p of D. -/
theorem read_D (c : Dev nD) (t : Fin cfg1.N) (p : Fin 2000) (n : Fin 100000)
    (hn : n.val = t.val * 2000 + p.val) :
    (iblk1 V c 1 t : Vec Ideal S2000x1 .f32) (ix2 p (0 : Fin 1))
      = (V c (Pipeline.arrRef spec1 1) : FVec Ideal S100000x1 .f32) (ix2 n (0 : Fin 1)) := by
  show V c (Pipeline.arrRef spec1 1) (((cfg1.win 1).blk t).view.emb (ix2 p (0 : Fin 1))) = V c (Pipeline.arrRef spec1 1) (ix2 n (0 : Fin 1))
  refine congrArg _ (funext fun a => Fin.ext ?_)
  obtain ⟨-, -, e0, e1, -⟩ := idx_facts t
  match a with
  | ⟨0, _⟩ => show win1_1.index t (0 : Fin 2) * 2000 + 1 * p.val = n.val; rw [e0, hn]; omega
  | ⟨1, _⟩ => show win1_1.index t (1 : Fin 2) * 1 + 1 * 0 = 0; rw [e1]

/-- The block of W at any point is W. -/
theorem read_W (c : Dev nD) (t : Fin cfg1.N) (k : Fin 128) (q : Fin 180) :
    (iblk1 V c 2 t : Vec Ideal S128x180 .f32) (ix2 k q)
      = (V c (Pipeline.arrRef spec1 2) : FVec Ideal S128x180 .f32) (ix2 k q) := by
  show V c (Pipeline.arrRef spec1 2) (((cfg1.win 2).blk t).view.emb (ix2 k q)) = V c (Pipeline.arrRef spec1 2) (ix2 k q)
  refine congrArg _ (funext fun a => Fin.ext ?_)
  obtain ⟨-, -, -, -, e0, e1, -⟩ := idx_facts t
  match a with
  | ⟨0, _⟩ => show win1_2.index t (0 : Fin 2) * 128 + 1 * k.val = k.val; rw [e0]; omega
  | ⟨1, _⟩ => show win1_2.index t (1 : Fin 2) * 180 + 1 * q.val = q.val; rw [e1]; omega

/-- The block of the bias row B at any point is B. -/
theorem read_B (c : Dev nD) (t : Fin cfg1.N) (q : Fin 180) :
    (iblk1 V c 3 t : Vec Ideal S1x180 .f32) (ix2 (0 : Fin 1) q)
      = (V c (Pipeline.arrRef spec1 3) : FVec Ideal S1x180 .f32) (ix2 (0 : Fin 1) q) := by
  show V c (Pipeline.arrRef spec1 3) (((cfg1.win 3).blk t).view.emb (ix2 (0 : Fin 1) q)) = V c (Pipeline.arrRef spec1 3) (ix2 (0 : Fin 1) q)
  refine congrArg _ (funext fun a => Fin.ext ?_)
  obtain ⟨-, -, -, -, -, -, e0, e1, -⟩ := idx_facts t
  match a with
  | ⟨0, _⟩ => show win1_3.index t (0 : Fin 2) * 1 + 1 * 0 = 0; rw [e0]
  | ⟨1, _⟩ => show win1_3.index t (1 : Fin 2) * 180 + 1 * q.val = q.val; rw [e1]; omega

/-- Entry (p, q) of the result's block at point t sits at (2000 t + p, q) in the result array. -/
theorem emb_out (t : Fin cfg1.N) (p : Fin 2000) (q : Fin 180) (n : Fin 100000)
    (hn : n.val = t.val * 2000 + p.val) :
    ((cfg1.win 4).blk t).view.emb (ix2 p q) = (ix2 n q : S100000x180.Idx) := by
  refine funext fun a => Fin.ext ?_
  obtain ⟨-, -, -, -, -, -, -, -, e0, e1⟩ := idx_facts t
  match a with
  | ⟨0, _⟩ => show win1_4.index t (0 : Fin 2) * 2000 + 1 * p.val = n.val; rw [e0, hn]; omega
  | ⟨1, _⟩ => show win1_4.index t (1 : Fin 2) * 180 + 1 * q.val = q.val; rw [e1]; omega

/-- WHAT POINT t WRITES BACK is block t of the whole-array function of the arrays as the launch finds them. -/
theorem flushed_eq (c : Dev nD) (t : Fin cfg1.N) :
    (dat1 (F := Ideal) V c).flushed 4 t
      = ((cfg1.win 4).blk t).view.read (Elt Ideal)
          (G (V c (Pipeline.arrRef spec1 0)) (V c (Pipeline.arrRef spec1 1)) (V c (Pipeline.arrRef spec1 2))
            (V c (Pipeline.arrRef spec1 3))) := by
  show (cfg1.win 4).cut (grid1.coords t) ((dat1 (F := Ideal) V c).after 4 t) = _
  rw [after1_4]
  unfold out1_4
  rw [View.canon_unit_zero hz]
  simp only [View.ld_unit_zero (S := S2000x128) hz, View.ld_unit_zero (S := S2000x1) hz,
    View.ld_unit_zero (S := S128x180) hz, View.ld_unit_zero (S := S1x180) hz]
  funext j
  obtain ⟨p, q, rfl⟩ : ∃ (p : Fin 2000) (q : Fin 180), j = ix2 p q := ⟨j 0, j 1, eq_ix2 j⟩
  have ht : t.val < 50 := lt_of_lt_of_eq t.isLt (N_1 : cfg1.N = 50)
  have hp : p.val < 2000 := p.isLt
  obtain ⟨n, hn⟩ : ∃ n : Fin 100000, n.val = t.val * 2000 + p.val := ⟨⟨t.val * 2000 + p.val, by omega⟩, rfl⟩
  show k1_pay1 (F := Ideal) (iblk1 V c 0 t) (iblk1 V c 1 t) (iblk1 V c 2 t) (iblk1 V c 3 t) (ix2 p q)
    = G (V c (Pipeline.arrRef spec1 0)) (V c (Pipeline.arrRef spec1 1)) (V c (Pipeline.arrRef spec1 2))
        (V c (Pipeline.arrRef spec1 3)) (((cfg1.win 4).blk t).view.emb (ix2 p q))
  rw [emb_out t p q n hn, G_apply]
  refine (pay_apply _ _ _ _ p q).trans ?_
  refine congrArg leaky ?_
  refine congrArg₂ (· + ·) (Finset.sum_congr rfl fun k _ =>
    congrArg₂ (· * ·) (congrArg₂ (· * ·) (read_A V c t p k n hn) (read_D V c t p n hn)) (read_W V c t k q))
    (read_B V c t q)

/-- An index of the result array is in point t's block iff each coordinate is in the block's range on its axis. -/
theorem mem_blk (t : Fin cfg1.N) (i : S100000x180.Idx) :
    i ∈ ((cfg1.win 4).blk t).view.set ↔ ∀ a : Fin 2, win1_4.index t a * S2000x180.size a ≤ (i a).val
      ∧ (i a).val < win1_4.index t a * S2000x180.size a + S2000x180.size a := by
  show i ∈ ((View.whole main_v25).slice (win1_4.rect t)).set ↔ _
  rw [View.set_slice_whole, Rect.mem_set_unit]
  exact Iff.rfl

/-- Every index of the result array lies in some point's block: row r lies in block r / 2000. -/
theorem cover (i : S100000x180.Idx) :
    ∃ t : Fin cfg1.N, (cfg1.win 4).flush t = true ∧ i ∈ ((cfg1.win 4).blk t).view.set := by
  have hi0 : (i 0).val < 100000 := (i 0).isLt
  have hi1 : (i 1).val < 180 := (i 1).isLt
  have hN : grid1.N = 50 := N_1
  obtain ⟨t, ht⟩ : ∃ t : Fin cfg1.N, t.val = (i 0).val / 2000 :=
    ⟨⟨(i 0).val / 2000, by show _ < grid1.N; rw [hN]; omega⟩, rfl⟩
  refine ⟨t, flush1_4 t, ?_⟩
  rw [mem_blk]
  obtain ⟨-, -, -, -, -, -, -, -, e0, e1⟩ := idx_facts t
  intro a
  match a with
  | ⟨0, _⟩ =>
    show win1_4.index t (0 : Fin 2) * 2000 ≤ (i 0).val ∧ (i 0).val < win1_4.index t (0 : Fin 2) * 2000 + 2000
    rw [e0, ht]; omega
  | ⟨1, _⟩ =>
    show win1_4.index t (1 : Fin 2) * 180 ≤ (i 1).val ∧ (i 1).val < win1_4.index t (1 : Fin 2) * 180 + 180
    rw [e1]; omega

/-- THE RESULT ARRAY after the launch is the whole-array function of the arrays as the launch finds them. -/
theorem arr_eq_G (c : Dev nD) :
    (dat1 (F := Ideal) V c).arrAt 4 cfg1.N
      = G (V c (Pipeline.arrRef spec1 0)) (V c (Pipeline.arrRef spec1 1)) (V c (Pipeline.arrRef spec1 2))
          (V c (Pipeline.arrRef spec1 3)) :=
  (dat1 (F := Ideal) V c).arrAt_eq_of_cover 4 _ (fun t _ => flushed_eq V c t) cover

/-- The four arrays the launch reads, as it finds them, at their literal shapes: A, the column D, W and the bias row B. -/
abbrev arrA (c : Dev nD) : FVec Ideal S100000x128 .f32 := V c (Pipeline.arrRef spec1 0)
abbrev arrD (c : Dev nD) : FVec Ideal S100000x1 .f32 := V c (Pipeline.arrRef spec1 1)
abbrev arrW (c : Dev nD) : FVec Ideal S128x180 .f32 := V c (Pipeline.arrRef spec1 2)
abbrev arrB (c : Dev nD) : FVec Ideal S1x180 .f32 := V c (Pipeline.arrRef spec1 3)

/-- Entry (n, q) of the result array after the launch. -/
theorem arr_eq (c : Dev nD) (n : Fin 100000) (q : Fin 180) :
    (dat1 (F := Ideal) V c).arrAt 4 cfg1.N (ix2 n q)
      = leaky ((∑ k : Fin 128, (arrA V c (ix2 n k) * arrD V c (ix2 n (0 : Fin 1))) * arrW V c (ix2 k q))
          + arrB V c (ix2 (0 : Fin 1) q)) := by
  rw [arr_eq_G]; rfl

end Cert.KernelIdeal.Region1

end
-- ==== Proof.Region2.lean ====
/-
  The third kernel launch (a matrix product, then a scaling of each row), read as ONE function of its input arrays.

  The launch walks 50 row blocks of 2000 rows.  At each block it multiplies the block's 2000 x 180 rows of H by the whole
  180 x 120 matrix W (both operands are first narrowed to the 16-bit format, which is the identity on the extended
  reals; the accumulator starts at zero), and scales row r of the product by the entry r of the column D (a 2000 x 1
  column repeated along the 120 columns).  So entry (n, q) of the 100000 x 120 result is

      (Σ_{k < 180} H(n, k) · W(k, q)) · D(n, 0).

  The payload of one block at an entry (p, q) is read first, over variables of the block shapes; then what grid point t
  writes back is identified with block t of the whole-array function: row p of the block at point t is row 2000 t + p
  of the arrays that move with the grid (H, D, the result), and W is read whole at every point; the 50 blocks cover all
  100000 rows (row r lies in block r / 2000), so the array after the launch is that function.
-/
import proofs.«126286_j81570018886156_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws
import proofs.«126286_j81570018886156_2_alg».proof.Proof.LibMatmulZero
import proofs.«126286_j81570018886156_2_alg».proof.Proof.LibRowOps

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-! ## The whole-array function -/

/-- Entry (n, q) of the result: row n of H times column q of W, scaled by entry n of the column D. -/
def entry (H : FVec Ideal S100000x180 .f32) (Wm : FVec Ideal S180x120 .f32) (D : FVec Ideal S100000x1 .f32)
    (n : Fin 100000) (q : Fin 120) : Ideal .f32 :=
  (∑ k : Fin 180, H (ix2 n k) * Wm (ix2 k q)) * D (ix2 n (0 : Fin 1))

/-- The result array as one function of the three input arrays, index by index. -/
def G (H : FVec Ideal S100000x180 .f32) (Wm : FVec Ideal S180x120 .f32) (D : FVec Ideal S100000x1 .f32) :
    FVec Ideal S100000x120 .f32 :=
  fun i => entry H Wm D (i 0) (i 1)

theorem G_apply (H : FVec Ideal S100000x180 .f32) (Wm : FVec Ideal S180x120 .f32) (D : FVec Ideal S100000x1 .f32)
    (n : Fin 100000) (q : Fin 120) :
    G H Wm D (ix2 n q) = (∑ k : Fin 180, H (ix2 n k) * Wm (ix2 k q)) * D (ix2 n (0 : Fin 1)) := rfl

/-! ## One block's payload at an entry -/

/-- The product's dimension numbers carry the left operand's axis 0 to the result's axis 0 … -/
theorem dot_lhs0 (i : S2000x120.Idx) (c : dot_S2000x180_S180x120_S2000x120_1_0_0_1_n_n.contr.Idx) :
    (dot_S2000x180_S180x120_S2000x120_1_0_0_1_n_n.lhsIdx i c 0).val = (i 0).val := by
  unfold DotDims.lhsIdx
  rw [dif_neg (show ¬(0 : Fin _) ∈ dot_S2000x180_S180x120_S2000x120_1_0_0_1_n_n.lhsBatch by decide),
    dif_pos (show (0 : Fin _) ∈ dot_S2000x180_S180x120_S2000x120_1_0_0_1_n_n.lhsNonContracting by decide)]
  rfl

/-- … and the right operand's axis 1 to the result's axis 1. -/
theorem dot_rhs1 (i : S2000x120.Idx) (c : dot_S2000x180_S180x120_S2000x120_1_0_0_1_n_n.contr.Idx) :
    (dot_S2000x180_S180x120_S2000x120_1_0_0_1_n_n.rhsIdx i c 1).val = (i 1).val := by
  unfold DotDims.rhsIdx
  rw [dif_neg (show ¬(1 : Fin _) ∈ dot_S2000x180_S180x120_S2000x120_1_0_0_1_n_n.rhsBatch by decide),
    dif_pos (show (1 : Fin _) ∈ dot_S2000x180_S180x120_S2000x120_1_0_0_1_n_n.rhsNonContracting by decide)]
  rfl

/-- The block's payload at (p, q): row p of the first block times column q of the matrix, scaled by entry p of the
    column block. -/
theorem pay_apply (x0 : Vec Ideal S2000x180 .f32) (x1 : Vec Ideal S180x120 .f32) (x2 : Vec Ideal S2000x1 .f32)
    (p : Fin 2000) (q : Fin 120) :
    k2_pay1 (F := Ideal) x0 x1 x2 (ix2 p q)
      = (∑ k : Fin 180, x0 (ix2 p k) * x1 (ix2 k q)) * x2 (ix2 p (0 : Fin 1)) := by
  unfold k2_pay1
  refine (mulf_apply _ _ (ix2 p q)).trans ?_
  refine congrArg₂ (· * ·) ?_ ?_
  · refine (Cert.LibMatmulZero.matmul_zero_ix2 dot_S2000x180_S180x120_S2000x120_1_0_0_1_n_n rfl rfl rfl rfl
      dot_lhs0 dot_rhs1 none _ _ p q).trans ?_
    refine Finset.sum_congr rfl fun k _ => ?_
    rw [truncf_apply, truncf_apply, shapeCast_self]
  · refine (Cert.LibRowOps.broadcastTo_a1_ab_apply _ _ p q).trans ?_
    rw [shapeCast_self]

/-! ## From blocks to the array -/

theorem hz : (![0, 0] : Fin 2 → Nat) = fun _ => 0 := funext fun a => by fin_cases a <;> rfl

/-- The printed index maps, decided over the 50 grid points: the windows over H, D and the result sit at block
    (t, 0) at point t; the window over W sits at block (0, 0) at every point. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- Row p of the block of H at point t is row 2000 t + p of H. -/
theorem read_H (c : Dev nD) (t : Fin cfg2.N) (p : Fin 2000) (k : Fin 180) (n : Fin 100000)
    (hn : n.val = t.val * 2000 + p.val) :
    (iblk2 V c 0 t : Vec Ideal S2000x180 .f32) (ix2 p k)
      = (V c (Pipeline.arrRef spec2 0) : FVec Ideal S100000x180 .f32) (ix2 n k) := by
  show V c (Pipeline.arrRef spec2 0) (((cfg2.win 0).blk t).view.emb (ix2 p k)) = V c (Pipeline.arrRef spec2 0) (ix2 n k)
  refine congrArg _ (funext fun a => Fin.ext ?_)
  obtain ⟨e0, e1, -⟩ := idx_facts t
  match a with
  | ⟨0, _⟩ => show win2_0.index t (0 : Fin 2) * 2000 + 1 * p.val = n.val; rw [e0, hn]; omega
  | ⟨1, _⟩ => show win2_0.index t (1 : Fin 2) * 180 + 1 * k.val = k.val; rw [e1]; omega

/-- The block of W at any point is W. -/
theorem read_W (c : Dev nD) (t : Fin cfg2.N) (k : Fin 180) (q : Fin 120) :
    (iblk2 V c 1 t : Vec Ideal S180x120 .f32) (ix2 k q)
      = (V c (Pipeline.arrRef spec2 1) : FVec Ideal S180x120 .f32) (ix2 k q) := by
  show V c (Pipeline.arrRef spec2 1) (((cfg2.win 1).blk t).view.emb (ix2 k q)) = V c (Pipeline.arrRef spec2 1) (ix2 k q)
  refine congrArg _ (funext fun a => Fin.ext ?_)
  obtain ⟨-, -, e0, e1, -⟩ := idx_facts t
  match a with
  | ⟨0, _⟩ => show win2_1.index t (0 : Fin 2) * 180 + 1 * k.val = k.val; rw [e0]; omega
  | ⟨1, _⟩ => show win2_1.index t (1 : Fin 2) * 120 + 1 * q.val = q.val; rw [e1]; omega

/-- Entry p of the block of the column D at point t is entry 2000 t + p of D. -/
theorem read_D (c : Dev nD) (t : Fin cfg2.N) (p : Fin 2000) (n : Fin 100000)
    (hn : n.val = t.val * 2000 + p.val) :
    (iblk2 V c 2 t : Vec Ideal S2000x1 .f32) (ix2 p (0 : Fin 1))
      = (V c (Pipeline.arrRef spec2 2) : FVec Ideal S100000x1 .f32) (ix2 n (0 : Fin 1)) := by
  show V c (Pipeline.arrRef spec2 2) (((cfg2.win 2).blk t).view.emb (ix2 p (0 : Fin 1))) = V c (Pipeline.arrRef spec2 2) (ix2 n (0 : Fin 1))
  refine congrArg _ (funext fun a => Fin.ext ?_)
  obtain ⟨-, -, -, -, e0, e1, -⟩ := idx_facts t
  match a with
  | ⟨0, _⟩ => show win2_2.index t (0 : Fin 2) * 2000 + 1 * p.val = n.val; rw [e0, hn]; omega
  | ⟨1, _⟩ => show win2_2.index t (1 : Fin 2) * 1 + 1 * 0 = 0; rw [e1]

/-- Entry (p, q) of the result's block at point t sits at (2000 t + p, q) in the result array. -/
theorem emb_out (t : Fin cfg2.N) (p : Fin 2000) (q : Fin 120) (n : Fin 100000)
    (hn : n.val = t.val * 2000 + p.val) :
    ((cfg2.win 3).blk t).view.emb (ix2 p q) = (ix2 n q : S100000x120.Idx) := by
  refine funext fun a => Fin.ext ?_
  obtain ⟨-, -, -, -, -, -, e0, e1⟩ := idx_facts t
  match a with
  | ⟨0, _⟩ => show win2_3.index t (0 : Fin 2) * 2000 + 1 * p.val = n.val; rw [e0, hn]; omega
  | ⟨1, _⟩ => show win2_3.index t (1 : Fin 2) * 120 + 1 * q.val = q.val; rw [e1]; omega

/-- WHAT POINT t WRITES BACK is block t of the whole-array function of the arrays as the launch finds them. -/
theorem flushed_eq (c : Dev nD) (t : Fin cfg2.N) :
    (dat2 (F := Ideal) V c).flushed 3 t
      = ((cfg2.win 3).blk t).view.read (Elt Ideal)
          (G (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  unfold out2_3
  rw [View.canon_unit_zero hz]
  simp only [View.ld_unit_zero (S := S2000x180) hz, View.ld_unit_zero (S := S180x120) hz,
    View.ld_unit_zero (S := S2000x1) hz]
  funext j
  obtain ⟨p, q, rfl⟩ : ∃ (p : Fin 2000) (q : Fin 120), j = ix2 p q := ⟨j 0, j 1, eq_ix2 j⟩
  have hN : grid2.N = 50 := N_2
  have ht : t.val < 50 := lt_of_lt_of_eq t.isLt (N_2 : cfg2.N = 50)
  have hp : p.val < 2000 := p.isLt
  obtain ⟨n, hn⟩ : ∃ n : Fin 100000, n.val = t.val * 2000 + p.val := ⟨⟨t.val * 2000 + p.val, by omega⟩, rfl⟩
  show k2_pay1 (F := Ideal) (iblk2 V c 0 t) (iblk2 V c 1 t) (iblk2 V c 2 t) (ix2 p q)
    = G (V c (Pipeline.arrRef spec2 0)) (V c (Pipeline.arrRef spec2 1)) (V c (Pipeline.arrRef spec2 2))
        (((cfg2.win 3).blk t).view.emb (ix2 p q))
  rw [emb_out t p q n hn, G_apply]
  refine (pay_apply _ _ _ p q).trans ?_
  refine congrArg₂ (· * ·) (Finset.sum_congr rfl fun k _ => congrArg₂ (· * ·) (read_H V c t p k n hn) (read_W V c t k q))
    (read_D V c t p n hn)

/-- An index of the result array is in point t's block iff each coordinate is in the block's range on its axis. -/
theorem mem_blk (t : Fin cfg2.N) (i : S100000x120.Idx) :
    i ∈ ((cfg2.win 3).blk t).view.set ↔ ∀ a : Fin 2, win2_3.index t a * S2000x120.size a ≤ (i a).val
      ∧ (i a).val < win2_3.index t a * S2000x120.size a + S2000x120.size a := by
  show i ∈ ((View.whole main_v26).slice (win2_3.rect t)).set ↔ _
  rw [View.set_slice_whole, Rect.mem_set_unit]
  exact Iff.rfl

/-- Every index of the result array lies in some point's block: row r lies in block r / 2000. -/
theorem cover (i : S100000x120.Idx) :
    ∃ t : Fin cfg2.N, (cfg2.win 3).flush t = true ∧ i ∈ ((cfg2.win 3).blk t).view.set := by
  have hi0 : (i 0).val < 100000 := (i 0).isLt
  have hi1 : (i 1).val < 120 := (i 1).isLt
  have hN : grid2.N = 50 := N_2
  obtain ⟨t, ht⟩ : ∃ t : Fin cfg2.N, t.val = (i 0).val / 2000 :=
    ⟨⟨(i 0).val / 2000, by show _ < grid2.N; rw [hN]; omega⟩, rfl⟩
  refine ⟨t, flush2_3 t, ?_⟩
  rw [mem_blk]
  obtain ⟨-, -, -, -, -, -, e0, e1⟩ := idx_facts t
  intro a
  match a with
  | ⟨0, _⟩ =>
    show win2_3.index t (0 : Fin 2) * 2000 ≤ (i 0).val ∧ (i 0).val < win2_3.index t (0 : Fin 2) * 2000 + 2000
    rw [e0, ht]; omega
  | ⟨1, _⟩ =>
    show win2_3.index t (1 : Fin 2) * 120 ≤ (i 1).val ∧ (i 1).val < win2_3.index t (1 : Fin 2) * 120 + 120
    rw [e1]; omega

/-- THE RESULT ARRAY after the launch is the whole-array function of the arrays as the launch finds them. -/
theorem arr_eq_G (c : Dev nD) :
    (dat2 (F := Ideal) V c).arrAt 3 cfg2.N
      = G (V c (Pipeline.arrRef spec2 0)) (V c (Pipeline.arrRef spec2 1)) (V c (Pipeline.arrRef spec2 2)) :=
  (dat2 (F := Ideal) V c).arrAt_eq_of_cover 3 _ (fun t _ => flushed_eq V c t) cover

/-- The three arrays the launch reads, as it finds them, at their literal shapes: H, W and the column D. -/
abbrev arrH (c : Dev nD) : FVec Ideal S100000x180 .f32 := V c (Pipeline.arrRef spec2 0)
abbrev arrW (c : Dev nD) : FVec Ideal S180x120 .f32 := V c (Pipeline.arrRef spec2 1)
abbrev arrD (c : Dev nD) : FVec Ideal S100000x1 .f32 := V c (Pipeline.arrRef spec2 2)

/-- Entry (n, q) of the result array after the launch. -/
theorem arr_eq (c : Dev nD) (n : Fin 100000) (q : Fin 120) :
    (dat2 (F := Ideal) V c).arrAt 3 cfg2.N (ix2 n q)
      = (∑ k : Fin 180, arrH V c (ix2 n k) * arrW V c (ix2 k q)) * arrD V c (ix2 n (0 : Fin 1)) := by
  rw [arr_eq_G]; rfl

end Cert.KernelIdeal.Region2

end
-- ==== Proof.LibRowOpsK.lean ====
/-
  Row-wise operations of a matrix at the ideal values, read at explicit coordinates.

  For an [R, C] f32 matrix: the sum along the lanes at row n is the sum over the columns of the entries of that row; the
  maximum along the lanes at row n is the fold of max, from the starting word's value, over the columns; a vector of R
  entries recast as an [R, 1] column and broadcast to [R, C] has at (n, c) the vector's entry n.  For an [R, K] × [C, K]
  product into the zero accumulator that contracts axis 1 of both operands (a product with the second operand
  transposed), entry (p, q) is Σ_k l(p, k) · r(q, k).  All hold at any extents; indices are written by coordinates.
-/
import Idealize.ShloMosaic.PureOps.Ideal.Laws
import Idealize.ShloMosaic.Lib.ValueIdx
import Idealize.ShloMosaic.Lib.Pipeline.Value

noncomputable section

open scoped BigOperators

namespace Cert.LibRow

open Idealize.ShloMosaic Idealize.ShloMosaic.ValueIdx

/-- A sum along the lanes of an [R, C] matrix, at row n, is the sum over the columns of the entries of that row. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (n : Fin R) :
    multiReduction .add [1] ⟨1, ![R]⟩ src 0x00000000#32 h hφ hacc (ix1 n) = ∑ a : Fin C, src (ix2 n a) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum along the lanes of an [R, C] matrix, at row n, is the fold of max, from the starting word's value, over
    the columns of the entries of that row. -/
theorem rowMax_apply {R C : Nat} (src : FVec Ideal ⟨2, ![R, C]⟩ .f32) (acc : BitVec 32)
    (h : Shape.Reduces (⟨2, ![R, C]⟩ : Shape) [1] ⟨1, ![R]⟩) (hφ : FKind.Formats .f32)
    (hacc : acc = FKind.maximumf.neutral .f32 hφ) (n : Fin R) :
    multiReduction .maximumf [1] ⟨1, ![R]⟩ src acc h hφ hacc (ix1 n)
      = (Finset.univ : Finset (Fin C)).fold max (Ideal.ofBits .f32 acc) (fun a => src (ix2 n a)) :=
  (Ideal.multiReduction_maximumf_single src acc h hφ hacc (ix1 n)).trans
    (congrArg (fun f => Finset.fold max (Ideal.ofBits .f32 acc) f (Finset.univ : Finset (Fin C)))
      (funext fun a => congrArg src (funext fun d => Fin.ext (by
        match d with
        | ⟨0, _⟩ => rfl
        | ⟨1, _⟩ => rfl))))

/-- A vector of R entries recast as an [R, 1] column and broadcast to [R, C] has at (n, c) the vector's entry n. -/
theorem colBroadcast_apply {R C : Nat} {α : Type} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (n : Fin R) (c : Fin C) :
    broadcastTo ⟨2, ![R, C]⟩ (shapeCast ⟨2, ![R, 1]⟩ v h1) h2 (ix2 n c) = v (ix1 n) := by
  refine (broadcastTo_apply (shapeCast ⟨2, ![R, 1]⟩ v h1) h2 (ix2 n c) (ix2 n (0 : Fin 1)) fun ax => ?_).trans ?_
  · match ax with
    | ⟨0, _⟩ =>
      show n.val = if R = 1 then 0 else n.val
      split
      · have := n.isLt; omega
      · rfl
    | ⟨1, _⟩ => rfl
  · exact shapeCast_apply v h1 _ _ (by
      rw [Shape.rowMajor_val_one, Shape.rowMajor_val_two]
      show n.val = n.val * 1 + 0
      omega)

/-- `matmul D prec l r 0 (p, q) = Σ_k l(p, k) · r(q, k)` at the ideal values, for an [R, K] × [C, K] → [R, C] product
    contracting axis 1 of both operands. -/
theorem matmul_zero_nt_ix2 {R K C : Nat} {φ₁ φ₂ : FTy} (D : DotDims ⟨2, ![R, K]⟩ ⟨2, ![C, K]⟩ ⟨2, ![R, C]⟩)
    (hlc : D.lhsContracting = [1]) (hrc : D.rhsContracting = [1]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr0 : ∀ (i : (⟨2, ![R, C]⟩ : Shape).Idx) (c : D.contr.Idx), (D.rhsIdx i c 0).val = (i 1).val)
    (prec : Option ContractPrecision)
    (l : FVec Ideal ⟨2, ![R, K]⟩ φ₁) (r : FVec Ideal ⟨2, ![C, K]⟩ φ₂) (p : Fin R) (q : Fin C) :
    matmul D prec l r (constant ⟨2, ![R, C]⟩ .f32 0x00000000#32) (ix2 p q) = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 q k :=
    funext fun a => Fin.ext (by
      match a with
      | ⟨0, _⟩ => exact hr0 _ _
      | ⟨1, _⟩ => exact (D.rhsIdx_val_of_single hrc _ _).trans hk)
  rw [el, er]

end Cert.LibRow

end
-- ==== Proof.LibLogSoftmax.lean ====
/-
  The logarithm of the softmax along the rows of a matrix, as a vector program computes it, read at one entry at the
  ideal values.

  For an [R, C] f32 matrix z the program takes the maximum M(p) of each row (a reduction along the lanes from the word
  of -∞), keeps it as an [R, 1] column, repeats it along the row and subtracts: s = z - M.  It then sums exp(s) along
  each row (a reduction from the zero word), keeps the sum as a column, takes its logarithm, repeats it along the row
  and subtracts again.  At entry (p, q) the result is
      (z(p, q) - M(p)) - log(Σ_c exp(z(p, c) - M(p))),    M(p) = the fold of max over c of z(p, c) from the starting word's value.
  All extents are arbitrary; indices are written by coordinates.
-/
import proofs.«126286_j81570018886156_2_alg».proof.Proof.LibRowOpsK

noncomputable section

open scoped BigOperators

namespace Cert.LibLogSoftmax

open Idealize.ShloMosaic Idealize.ShloMosaic.ValueIdx

/-- An [R, 1] column repeated along the rows of an [R, C] matrix has at (n, c) the column's entry n. -/
theorem colRepeat_apply {R C : Nat} {α : Type} (x : (⟨2, ![R, 1]⟩ : Shape).Idx → α)
    (h2 : (⟨2, ![R, 1]⟩ : Shape).Broadcasts ⟨2, ![R, C]⟩) (n : Fin R) (c : Fin C) :
    broadcastTo ⟨2, ![R, C]⟩ x h2 (ix2 n c) = x (ix2 n (0 : Fin 1)) := by
  refine broadcastTo_apply x h2 (ix2 n c) (ix2 n (0 : Fin 1)) fun ax => ?_
  match ax with
  | ⟨0, _⟩ =>
    show n.val = if R = 1 then 0 else n.val
    split
    · have := n.isLt; omega
    · rfl
  | ⟨1, _⟩ => rfl

/-- A vector of R entries recast as an [R, 1] column has at (n, 0) the vector's entry n. -/
theorem castCol_apply {R : Nat} {α : Type} (v : (⟨1, ![R]⟩ : Shape).Idx → α)
    (h1 : (⟨1, ![R]⟩ : Shape).ShapeCasts ⟨2, ![R, 1]⟩) (n : Fin R) :
    shapeCast ⟨2, ![R, 1]⟩ v h1 (ix2 n (0 : Fin 1)) = v (ix1 n) :=
  shapeCast_apply v h1 _ _ (by
    rw [Shape.rowMajor_val_one, Shape.rowMajor_val_two]
    show n.val = n.val * 1 + 0
    omega)

/-- The row maximum as a fold. -/
def rowMaxOf {C : Nat} (b : EReal) (y : Fin C → EReal) : EReal := (Finset.univ : Finset (Fin C)).fold max b y

/-- z minus its row maximum (kept as a column and repeated along the row), at entry (p, q). -/
theorem shifted_apply {R C : Nat} (z : FVec Ideal ⟨2, ![R, C]⟩ .f32) (acc : BitVec 32)
    (h : Shape.Reduces (⟨2, ![R, C]⟩ : Shape) [1] ⟨1, ![R]⟩) (hφ : FKind.Formats .f32)
    (hacc : acc = FKind.maximumf.neutral .f32 hφ)
    (h1 : (⟨1, ![R]⟩ : Shape).ShapeCasts ⟨2, ![R, 1]⟩) (h2 : (⟨2, ![R, 1]⟩ : Shape).Broadcasts ⟨2, ![R, C]⟩)
    (p : Fin R) (q : Fin C) :
    subf z (broadcastTo ⟨2, ![R, C]⟩ (shapeCast ⟨2, ![R, 1]⟩ (multiReduction .maximumf [1] ⟨1, ![R]⟩ z acc h hφ hacc) h1) h2) (ix2 p q)
      = z (ix2 p q) - rowMaxOf (Ideal.ofBits .f32 acc) (fun a => z (ix2 p a)) := by
  show z (ix2 p q) - broadcastTo ⟨2, ![R, C]⟩ (shapeCast ⟨2, ![R, 1]⟩ (multiReduction .maximumf [1] ⟨1, ![R]⟩ z acc h hφ hacc) h1) h2 (ix2 p q) = _
  rw [Cert.LibRow.colBroadcast_apply, Cert.LibRow.rowMax_apply]
  rfl

/-- s minus the logarithm of its row sum of exponentials (kept as a column and repeated along the row), at entry (p, q). -/
theorem subLogSumExp_apply {R C : Nat} (s : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ)
    (h1 : (⟨1, ![R]⟩ : Shape).ShapeCasts ⟨2, ![R, 1]⟩) (h2 : (⟨2, ![R, 1]⟩ : Shape).Broadcasts ⟨2, ![R, C]⟩)
    (p : Fin R) (q : Fin C) :
    subf s (broadcastTo ⟨2, ![R, C]⟩ (log (shapeCast ⟨2, ![R, 1]⟩ (multiReduction .add [1] ⟨1, ![R]⟩ (exp s) 0x00000000#32 h hφ hacc) h1)) h2) (ix2 p q)
      = s (ix2 p q) - Ideal.log (∑ a : Fin C, Ideal.exp (s (ix2 p a))) := by
  show s (ix2 p q) - broadcastTo ⟨2, ![R, C]⟩ (log (shapeCast ⟨2, ![R, 1]⟩ (multiReduction .add [1] ⟨1, ![R]⟩ (exp s) 0x00000000#32 h hφ hacc) h1)) h2 (ix2 p q) = _
  rw [colRepeat_apply]
  show s (ix2 p q) - Ideal.log (shapeCast ⟨2, ![R, 1]⟩ (multiReduction .add [1] ⟨1, ![R]⟩ (exp s) 0x00000000#32 h hφ hacc) h1 (ix2 p (0 : Fin 1))) = _
  rw [castCol_apply, Cert.LibRow.rowAdd_apply]
  rfl

/-- The whole chain at entry (p, q): (z(p, q) - M) - log Σ_c exp(z(p, c) - M), M the row maximum of z. -/
theorem logSoftmax_apply {R C : Nat} (z : FVec Ideal ⟨2, ![R, C]⟩ .f32) (acc : BitVec 32)
    (h : Shape.Reduces (⟨2, ![R, C]⟩ : Shape) [1] ⟨1, ![R]⟩) (hφ : FKind.Formats .f32)
    (haccM : acc = FKind.maximumf.neutral .f32 hφ) (haccA : (0x00000000#32 : BitVec 32) = FKind.add.neutral .f32 hφ)
    (h1 : (⟨1, ![R]⟩ : Shape).ShapeCasts ⟨2, ![R, 1]⟩) (h2 : (⟨2, ![R, 1]⟩ : Shape).Broadcasts ⟨2, ![R, C]⟩)
    (p : Fin R) (q : Fin C) :
    subf (subf z (broadcastTo ⟨2, ![R, C]⟩ (shapeCast ⟨2, ![R, 1]⟩ (multiReduction .maximumf [1] ⟨1, ![R]⟩ z acc h hφ haccM) h1) h2))
        (broadcastTo ⟨2, ![R, C]⟩ (log (shapeCast ⟨2, ![R, 1]⟩ (multiReduction .add [1] ⟨1, ![R]⟩
          (exp (subf z (broadcastTo ⟨2, ![R, C]⟩ (shapeCast ⟨2, ![R, 1]⟩ (multiReduction .maximumf [1] ⟨1, ![R]⟩ z acc h hφ haccM) h1) h2)))
          0x00000000#32 h hφ haccA) h1)) h2) (ix2 p q)
      = (z (ix2 p q) - rowMaxOf (Ideal.ofBits .f32 acc) (fun a => z (ix2 p a)))
        - Ideal.log (∑ c : Fin C, Ideal.exp (z (ix2 p c) - rowMaxOf (Ideal.ofBits .f32 acc) (fun a => z (ix2 p a)))) := by
  rw [subLogSumExp_apply, shifted_apply]
  refine congrArg (fun t => _ - Ideal.log t) (Finset.sum_congr rfl fun c _ => ?_)
  rw [shifted_apply]

end Cert.LibLogSoftmax

end
-- ==== Proof.Region3.lean ====
/-
  The last of the four grid computations: from the aggregated features to the logarithm of the softmax of the class
  logits, read off the whole output array entry by entry.

  The computation runs over 50 row blocks of 2000 rows of a 100000-row problem.  Its operands are the aggregate
  A [100000, 120] and the column D [100000, 1], both cut into row blocks, and three operands taken whole at every
  point: the bias row B2 [1, 120], the weights Wl [120, 16] and the bias row Bl [1, 16].  For a row n it forms
      a(n, k)      = A(n, k) · D(n, 0) + B2(0, k),
      h(n, k)      = a(n, k) where a(n, k) exceeds the zero word's value, a(n, k) times the slope word's value elsewhere,
      logits(n, j) = Σ_{k < 120} h(n, k) · Wl(k, j) + Bl(0, j)
  (the product is a matrix product into the zero accumulator, and the two changes of float format in front of it are
  the identity on the extended reals), and then, along each row, the maximum M(n) of the 16 logits (a fold of max from
  the word of -∞) and
      out(n, q)    = (logits(n, q) - M(n)) - log Σ_{j < 16} exp(logits(n, j) - M(n)).

  First the body's one stored value is read at an entry (p, q) of a block as that formula of the five loaded blocks
  (`pay_apply`).  Then the blocks are put together: the block of a row-blocked operand at point t holds rows
  2000·t … 2000·t + 1999 of its array, the block of a whole operand is its array, what point t writes back is block t of
  one function `G` of the five arrays, and every row r lies in the block of point r / 2000; so after the last point the
  output array is `G` (`final`), entry by entry `arr_eq`.  Everything is stated for arbitrary contents `V` of the
  arrays when the computation is entered.
-/
import proofs.«126286_j81570018886156_2_alg».proof.Proof.Gen.KernelIdeal.Frame
import proofs.«126286_j81570018886156_2_alg».proof.Proof.LibMatmulZero
import proofs.«126286_j81570018886156_2_alg».proof.Proof.LibRowOps
import proofs.«126286_j81570018886156_2_alg».proof.Proof.LibLogSoftmax
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Region3

open Idealize.ShloMosaic Idealize.ShloMosaic.ValueIdx
open Cert.KernelIdeal Cert.KernelIdeal.Gen
open Cert.LibLogSoftmax (rowMaxOf)

/-! ## The mathematics of one row -/

/-- The leaky rectifier as the body computes it: where a exceeds the zero word's value it is a, elsewhere a times the
    slope word's value. -/
def leaky (a : Ideal .f32) : Ideal .f32 :=
  Scalar.select (FloatOps.cmpf CmpFPredicate.ogt a (Ideal.ofBits .f32 0x00000000#32)) a (a * Ideal.ofBits .f32 0x3C23D70A#32)

/-- Entry j of the logits of row n: the rectified, rescaled and shifted row n of A times column j of Wl, plus the
    bias.  The row count R is arbitrary, so that the same function reads a block and the whole array. -/
def logit {R : Nat} (A : (⟨2, ![R, 120]⟩ : Shape).Idx → EReal) (D : (⟨2, ![R, 1]⟩ : Shape).Idx → EReal)
    (B2 : S1x120.Idx → EReal) (Wl : S120x16.Idx → EReal) (Bl : S1x16.Idx → EReal) (n : Fin R) (j : Fin 16) : EReal :=
  (∑ k : Fin 120, leaky (A (ix2 n k) * D (ix2 n (0 : Fin 1)) + B2 (ix2 (0 : Fin 1) k)) * Wl (ix2 k j)) + Bl (ix2 (0 : Fin 1) j)

/-- The logarithm of the softmax of one row z of 16 entries, at entry q, with the row maximum folded from the word
    of -∞. -/
def rowLogSoftmax (z : Fin 16 → EReal) (q : Fin 16) : EReal :=
  (z q - rowMaxOf (Ideal.ofBits .f32 0xFF800000#32) z)
    - Ideal.log (∑ c : Fin 16, Ideal.exp (z c - rowMaxOf (Ideal.ofBits .f32 0xFF800000#32) z))

/-- The logits of a row depend only on that row of A and D. -/
theorem logit_congr {R R' : Nat} (A : (⟨2, ![R, 120]⟩ : Shape).Idx → EReal) (D : (⟨2, ![R, 1]⟩ : Shape).Idx → EReal)
    (A' : (⟨2, ![R', 120]⟩ : Shape).Idx → EReal) (D' : (⟨2, ![R', 1]⟩ : Shape).Idx → EReal)
    (B2 B2' : S1x120.Idx → EReal) (Wl Wl' : S120x16.Idx → EReal) (Bl Bl' : S1x16.Idx → EReal) (n : Fin R) (n' : Fin R')
    (hA : ∀ k : Fin 120, A (ix2 n k) = A' (ix2 n' k)) (hD : D (ix2 n (0 : Fin 1)) = D' (ix2 n' (0 : Fin 1)))
    (hB : B2 = B2') (hW : Wl = Wl') (hb : Bl = Bl') :
    logit A D B2 Wl Bl n = logit A' D' B2' Wl' Bl' n' := by
  subst hB hW hb
  funext j
  unfold logit
  rw [hD]
  refine congrArg (· + Bl (ix2 (0 : Fin 1) j)) (Finset.sum_congr rfl fun k _ => ?_)
  rw [hA k]

/-! ## The payload at an index -/

/-- The result's axis 0 is the left operand's axis 0. -/
theorem dot_lhs0 (i : S2000x16.Idx) (c : dot_S2000x120_S120x16_S2000x16_1_0_0_1_n_n.contr.Idx) :
    (dot_S2000x120_S120x16_S2000x16_1_0_0_1_n_n.lhsIdx i c 0).val = (i 0).val := by
  unfold DotDims.lhsIdx
  rw [dif_neg (show ¬(0 : Fin _) ∈ dot_S2000x120_S120x16_S2000x16_1_0_0_1_n_n.lhsBatch by decide),
    dif_pos (show (0 : Fin _) ∈ dot_S2000x120_S120x16_S2000x16_1_0_0_1_n_n.lhsNonContracting by decide)]
  rfl

/-- The result's axis 1 is the right operand's axis 1. -/
theorem dot_rhs1 (i : S2000x16.Idx) (c : dot_S2000x120_S120x16_S2000x16_1_0_0_1_n_n.contr.Idx) :
    (dot_S2000x120_S120x16_S2000x16_1_0_0_1_n_n.rhsIdx i c 1).val = (i 1).val := by
  unfold DotDims.rhsIdx
  rw [dif_neg (show ¬(1 : Fin _) ∈ dot_S2000x120_S120x16_S2000x16_1_0_0_1_n_n.rhsBatch by decide),
    dif_pos (show (1 : Fin _) ∈ dot_S2000x120_S120x16_S2000x16_1_0_0_1_n_n.rhsNonContracting by decide)]
  rfl

/-- The row-wise chain over a matrix Z whose row p is z. -/
theorem rowLogSoftmax_of_row (Z : FVec Ideal S2000x16 .f32) (z : Fin 16 → EReal) (p : Fin 2000) (q : Fin 16)
    (h : ∀ j : Fin 16, Z (ix2 p j) = z j) :
    (Z (ix2 p q) - rowMaxOf (Ideal.ofBits .f32 0xFF800000#32) (fun a => Z (ix2 p a)))
      - Ideal.log (∑ c : Fin 16, Ideal.exp (Z (ix2 p c) - rowMaxOf (Ideal.ofBits .f32 0xFF800000#32) (fun a => Z (ix2 p a))))
      = rowLogSoftmax z q := by
  have e : (fun a => Z (ix2 p a)) = z := funext h
  rw [e, h q]
  unfold rowLogSoftmax
  refine congrArg (fun s => _ - Ideal.log s) (Finset.sum_congr rfl fun c _ => ?_)
  rw [h c]

/-- The pre-activation at (p, k): row p of the first operand scaled by the column entry of that row, plus the bias. -/
theorem preact_apply (x0 : Vec Ideal S2000x120 .f32) (x1 : Vec Ideal S2000x1 .f32) (x2 : Vec Ideal S1x120 .f32)
    (p : Fin 2000) (k : Fin 120) :
    addf (F := Ideal) (φ := .f32) (mulf (F := Ideal) (φ := .f32) (shapeCast S2000x120 x0 shapeCasts_S2000x120_S2000x120)
        (broadcastTo S2000x120 (shapeCast S2000x1 x1 shapeCasts_S2000x1_S2000x1) broadcasts_S2000x1_S2000x120))
      (broadcastTo S2000x120 (shapeCast S1x120 x2 shapeCasts_S1x120_S1x120) broadcasts_S1x120_S2000x120) (ix2 p k)
      = x0 (ix2 p k) * x1 (ix2 p (0 : Fin 1)) + x2 (ix2 (0 : Fin 1) k) := by
  rw [shapeCast_self, shapeCast_self, shapeCast_self]
  show x0 (ix2 p k) * broadcastTo S2000x120 x1 broadcasts_S2000x1_S2000x120 (ix2 p k)
    + broadcastTo S2000x120 x2 broadcasts_S1x120_S2000x120 (ix2 p k) = _
  rw [Cert.LibRowOps.broadcastTo_a1_ab_apply, broadcastTo_1b_ab_apply]

/-- The rectifier's vector form (compare, scale, select, then the change of format, which is the identity on the
    extended reals) at an index. -/
theorem leaky_apply (v : FVec Ideal S2000x120 .f32) (h : FTy.bf16.bits < FTy.f32.bits) (i : S2000x120.Idx) :
    (truncf (F := Ideal) .bf16 (select (cmpf .ogt v (broadcast S2000x120 (Scalar.ofBits .f32 0x00000000#32))) v
      (mulf v (broadcast S2000x120 (Scalar.ofBits .f32 0x3C23D70A#32)))) h : FVec Ideal S2000x120 .bf16) i = leaky (v i) := rfl

/-- THE PAYLOAD AT (p, q): the logarithm of the softmax of row p's logits, at q. -/
theorem pay_apply (x0 : Vec Ideal S2000x120 .f32) (x1 : Vec Ideal S2000x1 .f32) (x2 : Vec Ideal S1x120 .f32)
    (x3 : Vec Ideal S120x16 .f32) (x4 : Vec Ideal S1x16 .f32) (p : Fin 2000) (q : Fin 16) :
    k3_pay1 (F := Ideal) x0 x1 x2 x3 x4 (ix2 p q) = rowLogSoftmax (logit x0 x1 x2 x3 x4 p) q := by
  unfold k3_pay1
  dsimp only
  refine (Cert.LibLogSoftmax.logSoftmax_apply _ _ _ _ _ _ _ _ p q).trans
    (rowLogSoftmax_of_row _ _ p q fun j => ?_)
  refine (addf_apply _ _ _).trans ?_
  unfold logit
  refine congrArg₂ (· + ·) ?_ ?_
  · refine (Cert.LibMatmulZero.matmul_zero_ix2 dot_S2000x120_S120x16_S2000x16_1_0_0_1_n_n rfl rfl rfl rfl
      dot_lhs0 dot_rhs1 none _ _ p j).trans (Finset.sum_congr rfl fun k _ => ?_)
    refine congrArg₂ (· * ·) ?_ rfl
    exact (leaky_apply _ _ _).trans (congrArg leaky (preact_apply x0 x1 x2 p k))
  · rw [shapeCast_self]
    exact broadcastTo_1b_ab_apply _ _ p j

/-! ## From blocks to the array -/

section Array

open Idealize.ShloMosaic.TcCoe
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The whole output array as one function of the five entry arrays: row n is the logarithm of the softmax of the
    logits of row n. -/
def G (A : S100000x120.Idx → EReal) (D : S100000x1.Idx → EReal) (B2 : S1x120.Idx → EReal) (Wl : S120x16.Idx → EReal)
    (Bl : S1x16.Idx → EReal) : S100000x16.Idx → EReal :=
  fun i => rowLogSoftmax (logit A D B2 Wl Bl (i 0)) (i 1)

/-- The printed index maps over the grid: the three row-blocked windows sit at block row t, column block 0; the three
    whole windows at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Window 0's block at point t, at (p, k), is the array at row 2000·t + p. -/
theorem blk0_apply (c : Dev nD) (t : Fin cfg3.N) (p : Fin 2000) (k : Fin 120) (n : Fin 100000)
    (hn : n.val = t.val * 2000 + p.val) :
    (iblk3 V c 0 t : Vec Ideal S2000x120 .f32) (ix2 p k)
      = (V c (Pipeline.arrRef spec3 0) : S100000x120.Idx → EReal) (ix2 n k) := by
  obtain ⟨e0, e1, -⟩ := idx_facts t
  unfold iblk3
  rw [View.read_apply]
  show V c (Pipeline.arrRef spec3 0) (((cfg3.win 0).blk t).view.emb (ix2 p k)) = _
  refine congrArg _ (funext fun a => Fin.ext ?_)
  match a with
  | ⟨0, _⟩ => show win3_0.index t (0 : Fin 2) * 2000 + 1 * p.val = n.val; omega
  | ⟨1, _⟩ => show win3_0.index t (1 : Fin 2) * 120 + 1 * k.val = k.val; omega

/-- Window 1's block at point t, at (p, 0), is the column array at row 2000·t + p. -/
theorem blk1_apply (c : Dev nD) (t : Fin cfg3.N) (p : Fin 2000) (n : Fin 100000)
    (hn : n.val = t.val * 2000 + p.val) :
    (iblk3 V c 1 t : Vec Ideal S2000x1 .f32) (ix2 p (0 : Fin 1))
      = (V c (Pipeline.arrRef spec3 1) : S100000x1.Idx → EReal) (ix2 n (0 : Fin 1)) := by
  obtain ⟨-, -, e0, e1, -⟩ := idx_facts t
  unfold iblk3
  rw [View.read_apply]
  show V c (Pipeline.arrRef spec3 1) (((cfg3.win 1).blk t).view.emb (ix2 p (0 : Fin 1))) = _
  refine congrArg _ (funext fun a => Fin.ext ?_)
  match a with
  | ⟨0, _⟩ => show win3_1.index t (0 : Fin 2) * 2000 + 1 * p.val = n.val; omega
  | ⟨1, _⟩ => show win3_1.index t (1 : Fin 2) * 1 + 1 * 0 = 0; omega

/-- Window 2's block at every point is its whole array. -/
theorem blk2_eq (c : Dev nD) (t : Fin cfg3.N) :
    (iblk3 V c 2 t : Vec Ideal S1x120 .f32) = (V c (Pipeline.arrRef spec3 2) : S1x120.Idx → EReal) := by
  obtain ⟨-, -, -, -, e0, e1, -⟩ := idx_facts t
  funext y
  unfold iblk3
  rw [View.read_apply]
  show V c (Pipeline.arrRef spec3 2) (((cfg3.win 2).blk t).view.emb y) = _
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 120 + 1 * (y 1).val = (y 1).val; omega

/-- Window 3's block at every point is its whole array. -/
theorem blk3_eq (c : Dev nD) (t : Fin cfg3.N) :
    (iblk3 V c 3 t : Vec Ideal S120x16 .f32) = (V c (Pipeline.arrRef spec3 3) : S120x16.Idx → EReal) := by
  obtain ⟨-, -, -, -, -, -, e0, e1, -⟩ := idx_facts t
  funext y
  unfold iblk3
  rw [View.read_apply]
  show V c (Pipeline.arrRef spec3 3) (((cfg3.win 3).blk t).view.emb y) = _
  refine congrArg _ (funext fun a => Fin.ext ?_)
  match a with
  | ⟨0, _⟩ => show win3_3.index t (0 : Fin 2) * 120 + 1 * (y 0).val = (y 0).val; omega
  | ⟨1, _⟩ => show win3_3.index t (1 : Fin 2) * 16 + 1 * (y 1).val = (y 1).val; omega

/-- Window 4's block at every point is its whole array. -/
theorem blk4_eq (c : Dev nD) (t : Fin cfg3.N) :
    (iblk3 V c 4 t : Vec Ideal S1x16 .f32) = (V c (Pipeline.arrRef spec3 4) : S1x16.Idx → EReal) := by
  obtain ⟨-, -, -, -, -, -, -, -, e0, e1, -⟩ := idx_facts t
  funext y
  unfold iblk3
  rw [View.read_apply]
  show V c (Pipeline.arrRef spec3 4) (((cfg3.win 4).blk t).view.emb y) = _
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 16 + 1 * (y 1).val = (y 1).val; omega

/-- WHAT POINT t WRITES BACK is block t of G of the entry arrays. -/
theorem flushed_eq (c : Dev nD) (t : Fin cfg3.N) :
    (dat3 V c).flushed 5 t = ((cfg3.win 5).blk t).view.read (Elt Ideal)
      (G (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero offsets_zero]
  simp only [View.ld_unit_zero (S := S2000x120) offsets_zero, View.ld_unit_zero (S := S2000x1) offsets_zero,
    View.ld_unit_zero (S := S1x120) offsets_zero, View.ld_unit_zero (S := S120x16) offsets_zero,
    View.ld_unit_zero (S := S1x16) offsets_zero]
  funext j
  obtain ⟨p, q, rfl⟩ : ∃ (p : Fin 2000) (q : Fin 16), j = ix2 p q := ⟨j 0, j 1, eq_ix2 j⟩
  refine (pay_apply (iblk3 V c 0 t) (iblk3 V c 1 t) (iblk3 V c 2 t) (iblk3 V c 3 t) (iblk3 V c 4 t) p q).trans ?_
  have hN : cfg3.N = 50 := N_3
  have ht : t.val < 50 := by have := t.isLt; omega
  obtain ⟨-, -, -, -, -, -, -, -, -, -, e0, e1⟩ := idx_facts t
  have hemb : ((cfg3.win 5).blk t).view.emb (ix2 p q) = ix2 (⟨t.val * 2000 + p.val, by omega⟩ : Fin 100000) q := by
    funext a
    apply Fin.ext
    match a with
    | ⟨0, _⟩ => show win3_5.index t (0 : Fin 2) * 2000 + 1 * p.val = t.val * 2000 + p.val; omega
    | ⟨1, _⟩ => show win3_5.index t (1 : Fin 2) * 16 + 1 * q.val = q.val; omega
  show _ = G (V c (Pipeline.arrRef spec3 0)) (V c (Pipeline.arrRef spec3 1)) (V c (Pipeline.arrRef spec3 2))
      (V c (Pipeline.arrRef spec3 3)) (V c (Pipeline.arrRef spec3 4)) (((cfg3.win 5).blk t).view.emb (ix2 p q))
  rw [hemb]
  show _ = rowLogSoftmax (logit (V c (Pipeline.arrRef spec3 0)) (V c (Pipeline.arrRef spec3 1)) (V c (Pipeline.arrRef spec3 2))
      (V c (Pipeline.arrRef spec3 3)) (V c (Pipeline.arrRef spec3 4)) (⟨t.val * 2000 + p.val, by omega⟩ : Fin 100000)) q
  exact congrArg (fun z => rowLogSoftmax z q)
    (logit_congr (iblk3 V c 0 t) (iblk3 V c 1 t) (V c (Pipeline.arrRef spec3 0)) (V c (Pipeline.arrRef spec3 1))
      (iblk3 V c 2 t) (V c (Pipeline.arrRef spec3 2)) (iblk3 V c 3 t) (V c (Pipeline.arrRef spec3 3))
      (iblk3 V c 4 t) (V c (Pipeline.arrRef spec3 4)) p (⟨t.val * 2000 + p.val, by omega⟩ : Fin 100000)
      (fun k => blk0_apply V c t p k _ rfl) (blk1_apply V c t p _ rfl) (blk2_eq V c t) (blk3_eq V c t) (blk4_eq V c t))

/-- An index of the array is in point t's block iff each coordinate is in the block's range on its axis. -/
theorem mem_blk (t : Fin cfg3.N) (i : S100000x16.Idx) :
    i ∈ ((cfg3.win 5).blk t).view.set ↔ ∀ a : Fin 2, win3_5.index t a * S2000x16.size a ≤ (i a).val
      ∧ (i a).val < win3_5.index t a * S2000x16.size a + S2000x16.size a := by
  show i ∈ ((View.whole main_v39).slice (win3_5.rect t)).set ↔ _
  rw [View.set_slice_whole, Rect.mem_set_unit]
  exact Iff.rfl

/-- Every index of the output array is in the block of the point its row falls in: row r belongs to point r / 2000. -/
theorem cover (i : S100000x16.Idx) :
    ∃ t : Fin cfg3.N, (cfg3.win 5).flush t = true ∧ i ∈ ((cfg3.win 5).blk t).view.set := by
  have hN : cfg3.N = 50 := N_3
  have hi0 : (i 0).val < 100000 := (i 0).isLt
  have hi1 : (i 1).val < 16 := (i 1).isLt
  obtain ⟨t, ht⟩ : ∃ t : Fin cfg3.N, t.val = (i 0).val / 2000 := ⟨⟨(i 0).val / 2000, by omega⟩, rfl⟩
  obtain ⟨-, -, -, -, -, -, -, -, -, -, e0, e1⟩ := idx_facts t
  refine ⟨t, flush3_5 t, ?_⟩
  rw [mem_blk]
  intro a
  match a with
  | ⟨0, _⟩ =>
    show win3_5.index t (0 : Fin 2) * 2000 ≤ (i 0).val ∧ (i 0).val < win3_5.index t (0 : Fin 2) * 2000 + 2000
    omega
  | ⟨1, _⟩ =>
    show win3_5.index t (1 : Fin 2) * 16 ≤ (i 1).val ∧ (i 1).val < win3_5.index t (1 : Fin 2) * 16 + 16
    omega

/-- THE OUTPUT ARRAY after the region is G of the entry arrays. -/
theorem final (c : Dev nD) :
    (dat3 V c).arrAt 5 cfg3.N = G (V c (Pipeline.arrRef spec3 0)) (V c (Pipeline.arrRef spec3 1))
      (V c (Pipeline.arrRef spec3 2)) (V c (Pipeline.arrRef spec3 3)) (V c (Pipeline.arrRef spec3 4)) :=
  (dat3 V c).arrAt_eq_of_cover 5
    (G (V c (Pipeline.arrRef spec3 0)) (V c (Pipeline.arrRef spec3 1)) (V c (Pipeline.arrRef spec3 2))
      (V c (Pipeline.arrRef spec3 3)) (V c (Pipeline.arrRef spec3 4)))
    (fun t _ => flushed_eq V c t) cover

/-- THE OUTPUT ARRAY AT (n, q): the logarithm of the softmax of row n's logits, at q. -/
theorem arr_eq (c : Dev nD) (n : Fin 100000) (q : Fin 16) :
    (dat3 V c).arrAt 5 cfg3.N (ix2 n q)
      = rowLogSoftmax (logit (V c (Pipeline.arrRef spec3 0)) (V c (Pipeline.arrRef spec3 1)) (V c (Pipeline.arrRef spec3 2))
          (V c (Pipeline.arrRef spec3 3)) (V c (Pipeline.arrRef spec3 4)) n) q :=
  congrFun (final V c) (ix2 n q)

end Array

end Cert.KernelIdeal.Region3

end
-- ==== Proof.KValue.lean ====
/-
  The value the idealized kernel's program leaves in its result array, as one composed function of the program's
  arguments.

  The program alternates stretches of host operations with four grid computations.  Each grid computation leaves in
  its output array one function of the arrays it reads (the row scaling X·D, the first layer with its rectifier, the
  second product scaled by D, and the last layer with the logarithm of the softmax); each host stretch leaves the edge
  words, the degree column, an aggregation of a table along the edges, or a bias vector laid as a row.  A buffer that
  nothing writes in between keeps its contents.  Walking back from the result array through these facts, one
  equation at a time, gives
      result = last (agg120 (second (first (agg128 (scale X dvc) s d) dvc W1 B1row) W2 dvc) s d) dvc B2row Wl Blrow,
  with s, d the source and target words of the edge list with one self-loop per node, and dvc the column of the
  inverse square roots of the degrees.
-/
import proofs.«126286_j81570018886156_2_alg».proof.Proof.KHost
import proofs.«126286_j81570018886156_2_alg».proof.Proof.Region0
import proofs.«126286_j81570018886156_2_alg».proof.Proof.Region1
import proofs.«126286_j81570018886156_2_alg».proof.Proof.Region2
import proofs.«126286_j81570018886156_2_alg».proof.Proof.Region3

noncomputable section

namespace Cert.KernelIdeal.KValue

open Cert.KernelIdeal Cert.KernelIdeal.Gen Cert.KernelIdeal.Host
open Idealize.ShloMosaic Idealize.ShloMosaic.TcCoe Idealize.SL.Sem

/-- A function of three arguments respects equality in each. -/
theorem congr3 {α β γ δ : Sort _} (f : α → β → γ → δ) {a a' : α} {b b' : β} {c c' : γ}
    (ha : a = a') (hb : b = b') (hc : c = c') : f a b c = f a' b' c' := by
  subst ha hb hc; rfl

/-- A function of four arguments respects equality in each. -/
theorem congr4 {α β γ δ ε : Sort _} (f : α → β → γ → δ → ε) {a a' : α} {b b' : β} {c c' : γ} {d d' : δ}
    (ha : a = a') (hb : b = b') (hc : c = c') (hd : d = d') : f a b c d = f a' b' c' d' := by
  subst ha hb hc hd; rfl

/-- A function of five arguments respects equality in each. -/
theorem congr5 {α β γ δ ε ζ : Sort _} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

/-! ## The composed function -/

/-- The result as a function of the eight arguments: features X, the two layers' weights and biases, the last
    layer's weights and bias, and the edge list E. -/
def kernelValue (X : FVec Ideal S100000x128 .f32) (W1 : FVec Ideal S128x180 .f32) (B1 : FVec Ideal S180 .f32)
    (W2 : FVec Ideal S180x120 .f32) (B2 : FVec Ideal S120 .f32) (Wl : FVec Ideal S120x16 .f32) (Bl : FVec Ideal S16 .f32)
    (E : IVec S2x800000 32) : S100000x16.Idx → EReal :=
  Region3.G
    (aggK120
      (Region2.G
        (Region1.G (aggK128 (Region0.G X (dvcK (dstK E))) (srcK E) (dstK E)) (dvcK (dstK E)) W1
          (shapeCast S1x180 B1 shapeCasts_S180_S1x180))
        W2 (dvcK (dstK E)))
      (srcK E) (dstK E))
    (dvcK (dstK E)) (shapeCast S1x120 B2 shapeCasts_S120_S1x120) Wl (shapeCast S1x16 Bl shapeCasts_S16_S1x16)

variable (m : (ℓ : Loc nD τ sig) → Buf (Elt Ideal) ℓ) (ρ : Dev nD → PrngReg) (c : Dev nD)

/-- The arguments as the launch finds them, at their literal shapes. -/
abbrev argX : FVec Ideal S100000x128 .f32 := m ((c : Thread nD τ).loc main_arg0)
abbrev argW1 : FVec Ideal S128x180 .f32 := m ((c : Thread nD τ).loc main_arg1)
abbrev argB1 : FVec Ideal S180 .f32 := m ((c : Thread nD τ).loc main_arg2)
abbrev argW2 : FVec Ideal S180x120 .f32 := m ((c : Thread nD τ).loc main_arg3)
abbrev argB2 : FVec Ideal S120 .f32 := m ((c : Thread nD τ).loc main_arg4)
abbrev argWl : FVec Ideal S120x16 .f32 := m ((c : Thread nD τ).loc main_arg5)
abbrev argBl : FVec Ideal S16 .f32 := m ((c : Thread nD τ).loc main_arg6)
abbrev argE : IVec S2x800000 32 := m ((c : Thread nD τ).loc main_arg7)

/-- The source words, the target words and the degree column of the edge list. -/
abbrev srcW : IVec S900000 32 := srcK (argE m c)
abbrev dstW : IVec S900000 32 := dstK (argE m c)
abbrev dvc : FVec Ideal S100000x1 .f32 := dvcK (dstK (argE m c))

/-! ## The edge words and the degree column where they are read -/

theorem src_at_2 : (W2 (F := Ideal) m ρ c (Proc.devRef .tc main_v5) : S900000.Idx → BitVec 32) = srcW m c :=
  (W2_v5 m ρ c).trans (W1_v5 m ρ c)
theorem dst_at_2 : (W2 (F := Ideal) m ρ c (Proc.devRef .tc main_v6) : S900000.Idx → BitVec 32) = dstW m c :=
  (W2_v6 m ρ c).trans (W1_v6 m ρ c)
theorem src_at_5 : (W5 (F := Ideal) m ρ c (Proc.devRef .tc main_v5) : S900000.Idx → BitVec 32) = srcW m c :=
  (v5_at_5 m ρ c).trans (W1_v5 m ρ c)
theorem dst_at_5 : (W5 (F := Ideal) m ρ c (Proc.devRef .tc main_v6) : S900000.Idx → BitVec 32) = dstW m c :=
  (v6_at_5 m ρ c).trans (W1_v6 m ρ c)

/-! ## The four output arrays, in the program's order -/

/-- After the first grid computation: X scaled row by row by the degree column. -/
theorem value0 : (W2 (F := Ideal) m ρ c (Proc.devRef .tc main_v13) : S100000x128.Idx → EReal)
    = Region0.G (argX m c) (dvc m c) :=
  (W2_arr m ρ c 2).trans ((Region0.arr_eq_G (V1 m ρ) c).trans
    (congrArg₂ Region0.G (W1_arg m ρ c main_arg0 (Or.inl rfl)) (W1_v12 m ρ c)))

/-- After the second: the first layer of the aggregated, scaled features. -/
theorem value1 : (W4 (F := Ideal) m ρ c (Proc.devRef .tc main_v25) : S100000x180.Idx → EReal)
    = Region1.G (aggK128 (Region0.G (argX m c) (dvc m c)) (srcW m c) (dstW m c)) (dvc m c) (argW1 m c)
        (shapeCast S1x180 (argB1 m c) shapeCasts_S180_S1x180) :=
  (W4_arr m ρ c 4).trans ((Region1.arr_eq_G (V3 m ρ) c).trans
    (congr4 Region1.G
      ((W3_v23 m ρ c).trans (congr3 aggK128 (value0 m ρ c) (src_at_2 m ρ c) (dst_at_2 m ρ c)))
      ((dvc_at_3 m ρ c).trans (W1_v12 m ρ c))
      (arg1_at_3 m ρ c)
      ((W3_v24 m ρ c).trans (congrArg (fun x : S180.Idx → EReal => shapeCast S1x180 x shapeCasts_S180_S1x180)
        (W2_arg m ρ c main_arg2 (Or.inr (Or.inl rfl)))))))

/-- After the third: the second product, scaled by the degree column. -/
theorem value2 : (W5 (F := Ideal) m ρ c (Proc.devRef .tc main_v26) : S100000x120.Idx → EReal)
    = Region2.G
        (Region1.G (aggK128 (Region0.G (argX m c) (dvc m c)) (srcW m c) (dstW m c)) (dvc m c) (argW1 m c)
          (shapeCast S1x180 (argB1 m c) shapeCasts_S180_S1x180))
        (argW2 m c) (dvc m c) :=
  (W5_arr m ρ c 3).trans ((Region2.arr_eq_G (V4 m ρ) c).trans
    (congr3 Region2.G (value1 m ρ c) (arg3_at_4 m ρ c) ((dvc_at_4 m ρ c).trans (W1_v12 m ρ c))))

/-- THE RESULT ARRAY after the last grid computation. -/
theorem value : (W7 (F := Ideal) m ρ c (Proc.devRef .tc main_v39) : S100000x16.Idx → EReal)
    = Region3.G
        (aggK120
          (Region2.G
            (Region1.G (aggK128 (Region0.G (argX m c) (dvc m c)) (srcW m c) (dstW m c)) (dvc m c) (argW1 m c)
              (shapeCast S1x180 (argB1 m c) shapeCasts_S180_S1x180))
            (argW2 m c) (dvc m c))
          (srcW m c) (dstW m c))
        (dvc m c) (shapeCast S1x120 (argB2 m c) shapeCasts_S120_S1x120) (argWl m c)
        (shapeCast S1x16 (argBl m c) shapeCasts_S16_S1x16) :=
  (W7_arr m ρ c 5).trans ((Region3.final (V6 m ρ) c).trans
    (congr5 Region3.G
      ((W6_v36 m ρ c).trans (congr3 aggK120 (value2 m ρ c) (src_at_5 m ρ c) (dst_at_5 m ρ c)))
      ((dvc_at_6 m ρ c).trans (W1_v12 m ρ c))
      ((W6_v37 m ρ c).trans (congrArg (fun x : S120.Idx → EReal => shapeCast S1x120 x shapeCasts_S120_S1x120)
        (arg4_at_5 m ρ c)))
      (arg5_at_6 m ρ c)
      ((W6_v38 m ρ c).trans (congrArg (fun x : S16.Idx → EReal => shapeCast S1x16 x shapeCasts_S16_S1x16)
        (arg6_at_5 m ρ c)))))

/-- The same, with the composed function named. -/
theorem value_eq : (W7 (F := Ideal) m ρ c (Proc.devRef .tc main_v39) : S100000x16.Idx → EReal)
    = kernelValue (argX m c) (argW1 m c) (argB1 m c) (argW2 m c) (argB2 m c) (argWl m c) (argBl m c) (argE m c) :=
  value m ρ c

end Cert.KernelIdeal.KValue

end
-- ==== Proof.RefOps.lean ====
/-
  The reference program's entry function as a list of whole-array operations.
  The entry function is printed in two consecutive windows. Once the three outlined functions (the two leaky
  rectifiers, each with the selection it calls, and the log-softmax) are substituted at their call sites — every value
  of a callee's body being a buffer of its own — the first window is a line of 66 operations and the second a line of
  71, each operation writing one buffer that no other writes. The lists below spell them in program order.
-/
import proofs.«126286_j81570018886156_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window's 66 operations: 54 of its own, the first leaky rectifier's seven (its selection last) where it is called, then five more. -/
abbrev ops0 : List (HloOp τ sig (Elt F)) :=
  [
    StableHlo.unary main_arg7 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg7 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg1 main_v4 ((fun l r => Host.dotGeneral dot_S100000x128_S128x180_S100000x180_1_0_0_1_n_n none l r) : (⟨S100000x128, .f32⟩ : BufTy).Contents (Elt F) → (⟨S128x180, .f32⟩ : BufTy).Contents (Elt F) → (⟨S100000x180, .f32⟩ : BufTy).Contents (Elt F)),
    StableHlo.nullary main_v5 (iotaInDim S100000 32 0),
    StableHlo.binary main_v1 main_v5 main_v6 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.binary main_v3 main_v5 main_v7 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.nullary main_cst (constant S_ .f32 0x3F800000#32),
    StableHlo.unary main_cst main_v8 (broadcastInDim S900000 ![] bcast_S_S900000 : (⟨S_, .f32⟩ : BufTy).Contents (Elt F) → (⟨S900000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S900000x1 ![0] bcast_S900000_S900000x1_0 : (⟨S900000, .i32⟩ : BufTy).Contents (Elt F) → (⟨S900000x1, .i32⟩ : BufTy).Contents (Elt F)),
    StableHlo.ternary main_v9 main_v10 main_v8 main_v11 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    StableHlo.unary main_v11 main_v12 (Host.rsqrt : (⟨S100000, .f32⟩ : BufTy).Contents (Elt F) → (⟨S100000, .f32⟩ : BufTy).Contents (Elt F)),
    StableHlo.nullary main_c (constantI S_ 32 0#32),
    StableHlo.unary main_c main_v13 (broadcastInDim S900000 ![] bcast_S_S900000 : (⟨S_, .i32⟩ : BufTy).Contents (Elt F) → (⟨S900000, .i32⟩ : BufTy).Contents (Elt F)),
    StableHlo.binary main_v6 main_v13 main_v14 (cmpi .slt : (⟨S900000, .i32⟩ : BufTy).Contents (Elt F) → (⟨S900000, .i32⟩ : BufTy).Contents (Elt F) → (⟨S900000, .i1⟩ : BufTy).Contents (Elt F)),
    StableHlo.nullary main_c_1 (constantI S_ 32 100000#32),
    StableHlo.unary main_c_1 main_v15 (broadcastInDim S900000 ![] bcast_S_S900000 : (⟨S_, .i32⟩ : BufTy).Contents (Elt F) → (⟨S900000, .i32⟩ : BufTy).Contents (Elt F)),
    StableHlo.binary main_v6 main_v15 main_v16 (addi : (⟨S900000, .i32⟩ : BufTy).Contents (Elt F) → (⟨S900000, .i32⟩ : BufTy).Contents (Elt F) → (⟨S900000, .i32⟩ : BufTy).Contents (Elt F)),
    StableHlo.ternary main_v14 main_v16 main_v6 main_v17 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v17 main_v18 (broadcastInDim S900000x1 ![0] bcast_S900000_S900000x1_0 : (⟨S900000, .i32⟩ : BufTy).Contents (Elt F) → (⟨S900000x1, .i32⟩ : BufTy).Contents (Elt F)),
    StableHlo.binary main_v12 main_v18 main_v19 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.nullary main_c_2 (constantI S_ 32 0#32),
    StableHlo.unary main_c_2 main_v20 (broadcastInDim S900000 ![] bcast_S_S900000 : (⟨S_, .i32⟩ : BufTy).Contents (Elt F) → (⟨S900000, .i32⟩ : BufTy).Contents (Elt F)),
    StableHlo.binary main_v7 main_v20 main_v21 (cmpi .slt : (⟨S900000, .i32⟩ : BufTy).Contents (Elt F) → (⟨S900000, .i32⟩ : BufTy).Contents (Elt F) → (⟨S900000, .i1⟩ : BufTy).Contents (Elt F)),
    StableHlo.nullary main_c_3 (constantI S_ 32 100000#32),
    StableHlo.unary main_c_3 main_v22 (broadcastInDim S900000 ![] bcast_S_S900000 : (⟨S_, .i32⟩ : BufTy).Contents (Elt F) → (⟨S900000, .i32⟩ : BufTy).Contents (Elt F)),
    StableHlo.binary main_v7 main_v22 main_v23 (addi : (⟨S900000, .i32⟩ : BufTy).Contents (Elt F) → (⟨S900000, .i32⟩ : BufTy).Contents (Elt F) → (⟨S900000, .i32⟩ : BufTy).Contents (Elt F)),
    StableHlo.ternary main_v21 main_v23 main_v7 main_v24 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v24 main_v25 (broadcastInDim S900000x1 ![0] bcast_S900000_S900000x1_0 : (⟨S900000, .i32⟩ : BufTy).Contents (Elt F) → (⟨S900000x1, .i32⟩ : BufTy).Contents (Elt F)),
    StableHlo.binary main_v12 main_v25 main_v26 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.binary main_v19 main_v26 main_v27 (mulf : (⟨S900000, .f32⟩ : BufTy).Contents (Elt F) → (⟨S900000, .f32⟩ : BufTy).Contents (Elt F) → (⟨S900000, .f32⟩ : BufTy).Contents (Elt F)),
    StableHlo.nullary main_c_4 (constantI S_ 32 0#32),
    StableHlo.unary main_c_4 main_v28 (broadcastInDim S900000 ![] bcast_S_S900000 : (⟨S_, .i32⟩ : BufTy).Contents (Elt F) → (⟨S900000, .i32⟩ : BufTy).Contents (Elt F)),
    StableHlo.binary main_v6 main_v28 main_v29 (cmpi .slt : (⟨S900000, .i32⟩ : BufTy).Contents (Elt F) → (⟨S900000, .i32⟩ : BufTy).Contents (Elt F) → (⟨S900000, .i1⟩ : BufTy).Contents (Elt F)),
    StableHlo.nullary main_c_5 (constantI S_ 32 100000#32),
    StableHlo.unary main_c_5 main_v30 (broadcastInDim S900000 ![] bcast_S_S900000 : (⟨S_, .i32⟩ : BufTy).Contents (Elt F) → (⟨S900000, .i32⟩ : BufTy).Contents (Elt F)),
    StableHlo.binary main_v6 main_v30 main_v31 (addi : (⟨S900000, .i32⟩ : BufTy).Contents (Elt F) → (⟨S900000, .i32⟩ : BufTy).Contents (Elt F) → (⟨S900000, .i32⟩ : BufTy).Contents (Elt F)),
    StableHlo.ternary main_v29 main_v31 main_v6 main_v32 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v32 main_v33 (broadcastInDim S900000x1 ![0] bcast_S900000_S900000x1_0 : (⟨S900000, .i32⟩ : BufTy).Contents (Elt F) → (⟨S900000x1, .i32⟩ : BufTy).Contents (Elt F)),
    StableHlo.binary main_v4 main_v33 main_v34 ((fun x i => Host.gather gather_S100000x180_S900000x1_S900000x180_1_0_n_n_0_1_1180 x i) : (⟨S100000x180, .f32⟩ : BufTy).Contents (Elt F) → (⟨S900000x1, .i32⟩ : BufTy).Contents (Elt F) → (⟨S900000x180, .f32⟩ : BufTy).Contents (Elt F)),
    StableHlo.unary main_v27 main_v35 (broadcastInDim S900000x1 ![0] bcast_S900000_S900000x1_0 : (⟨S900000, .f32⟩ : BufTy).Contents (Elt F) → (⟨S900000x1, .f32⟩ : BufTy).Contents (Elt F)),
    StableHlo.unary main_v35 main_v36 (broadcastInDim S900000x180 ![0, 1] bcast_S900000x1_S900000x180_0_1 : (⟨S900000x1, .f32⟩ : BufTy).Contents (Elt F) → (⟨S900000x180, .f32⟩ : BufTy).Contents (Elt F)),
    StableHlo.binary main_v34 main_v36 main_v37 (mulf : (⟨S900000x180, .f32⟩ : BufTy).Contents (Elt F) → (⟨S900000x180, .f32⟩ : BufTy).Contents (Elt F) → (⟨S900000x180, .f32⟩ : BufTy).Contents (Elt F)),
    StableHlo.nullary main_cst_6 (constant S_ .f32 0x00000000#32),
    StableHlo.unary main_cst_6 main_v38 (broadcastInDim S100000x180 ![] bcast_S_S100000x180 : (⟨S_, .f32⟩ : BufTy).Contents (Elt F) → (⟨S100000x180, .f32⟩ : BufTy).Contents (Elt F)),
    StableHlo.unary main_v7 main_v39 (broadcastInDim S900000x1 ![0] bcast_S900000_S900000x1_0 : (⟨S900000, .i32⟩ : BufTy).Contents (Elt F) → (⟨S900000x1, .i32⟩ : BufTy).Contents (Elt F)),
    StableHlo.ternary main_v38 main_v39 main_v37 main_v40 ((fun x i u => Host.scatterAdd scatter_S100000x180_S900000x1_S900000x180_1_0_0_1 x i u) : (⟨S100000x180, .f32⟩ : BufTy).Contents (Elt F) → (⟨S900000x1, .i32⟩ : BufTy).Contents (Elt F) → (⟨S900000x180, .f32⟩ : BufTy).Contents (Elt F) → (⟨S100000x180, .f32⟩ : BufTy).Contents (Elt F)),
    StableHlo.unary main_arg2 main_v41 (broadcastInDim S1x180 ![1] bcast_S180_S1x180_1 : (⟨S180, .f32⟩ : BufTy).Contents (Elt F) → (⟨S1x180, .f32⟩ : BufTy).Contents (Elt F)),
    StableHlo.unary main_v41 main_v42 (broadcastInDim S100000x180 ![0, 1] bcast_S1x180_S100000x180_0_1 : (⟨S1x180, .f32⟩ : BufTy).Contents (Elt F) → (⟨S100000x180, .f32⟩ : BufTy).Contents (Elt F)),
    StableHlo.binary main_v40 main_v42 main_v43 (addf : (⟨S100000x180, .f32⟩ : BufTy).Contents (Elt F) → (⟨S100000x180, .f32⟩ : BufTy).Contents (Elt F) → (⟨S100000x180, .f32⟩ : BufTy).Contents (Elt F)),
    StableHlo.nullary main_cst_7 (constant S_ .f32 0x3C23D70A#32),
    StableHlo.nullary main_call0_cst (constant S_ .f32 0x00000000#32),
    StableHlo.unary main_call0_cst main_call0_v0 (broadcastInDim S100000x180 ![] bcast_S_S100000x180 : (⟨S_, .f32⟩ : BufTy).Contents (Elt F) → (⟨S100000x180, .f32⟩ : BufTy).Contents (Elt F)),
    StableHlo.binary main_v43 main_call0_v0 main_call0_v1 (cmpf .oge : (⟨S100000x180, .f32⟩ : BufTy).Contents (Elt F) → (⟨S100000x180, .f32⟩ : BufTy).Contents (Elt F) → (⟨S100000x180, .i1⟩ : BufTy).Contents (Elt F)),
    StableHlo.unary main_cst_7 main_call0_v2 (id : (⟨S_, .f32⟩ : BufTy).Contents (Elt F) → (⟨S_, .f32⟩ : BufTy).Contents (Elt F)),
    StableHlo.unary main_call0_v2 main_call0_v3 (broadcastInDim S100000x180 ![] bcast_S_S100000x180 : (⟨S_, .f32⟩ : BufTy).Contents (Elt F) → (⟨S100000x180, .f32⟩ : BufTy).Contents (Elt F)),
    StableHlo.binary main_call0_v3 main_v43 main_call0_v4 (mulf : (⟨S100000x180, .f32⟩ : BufTy).Contents (Elt F) → (⟨S100000x180, .f32⟩ : BufTy).Contents (Elt F) → (⟨S100000x180, .f32⟩ : BufTy).Contents (Elt F)),
    StableHlo.ternary main_call0_v1 main_v43 main_call0_v4 main_v44 (select : (⟨S100000x180, .i1⟩ : BufTy).Contents (Elt F) → (⟨S100000x180, .f32⟩ : BufTy).Contents (Elt F) → (⟨S100000x180, .f32⟩ : BufTy).Contents (Elt F) → (⟨S100000x180, .f32⟩ : BufTy).Contents (Elt F)),
    StableHlo.binary main_v44 main_arg3 main_v45 ((fun l r => Host.dotGeneral dot_S100000x180_S180x120_S100000x120_1_0_0_1_n_n none l r) : (⟨S100000x180, .f32⟩ : BufTy).Contents (Elt F) → (⟨S180x120, .f32⟩ : BufTy).Contents (Elt F) → (⟨S100000x120, .f32⟩ : BufTy).Contents (Elt F)),
    StableHlo.nullary main_v46 (iotaInDim S100000 32 0),
    StableHlo.binary main_v1 main_v46 main_v47 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.binary main_v3 main_v46 main_v48 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.nullary main_cst_8 (constant S_ .f32 0x3F800000#32) ]

/-- The second window's 71 operations: 45 of its own, the second leaky rectifier's seven, four more, then the log-softmax's fifteen. -/
abbrev ops1 : List (HloOp τ sig (Elt F)) :=
  [
    StableHlo.unary main_cst_8 main_v49 (broadcastInDim S900000 ![] bcast_S_S900000 : (⟨S_, .f32⟩ : BufTy).Contents (Elt F) → (⟨S900000, .f32⟩ : BufTy).Contents (Elt F)),
    StableHlo.nullary main_cst_9 (constant S_ .f32 0x00000000#32),
    StableHlo.unary main_cst_9 main_v50 (broadcastInDim S100000 ![] bcast_S_S100000 : (⟨S_, .f32⟩ : BufTy).Contents (Elt F) → (⟨S100000, .f32⟩ : BufTy).Contents (Elt F)),
    StableHlo.unary main_v48 main_v51 (broadcastInDim S900000x1 ![0] bcast_S900000_S900000x1_0 : (⟨S900000, .i32⟩ : BufTy).Contents (Elt F) → (⟨S900000x1, .i32⟩ : BufTy).Contents (Elt F)),
    StableHlo.ternary main_v50 main_v51 main_v49 main_v52 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    StableHlo.unary main_v52 main_v53 (Host.rsqrt : (⟨S100000, .f32⟩ : BufTy).Contents (Elt F) → (⟨S100000, .f32⟩ : BufTy).Contents (Elt F)),
    StableHlo.nullary main_c_10 (constantI S_ 32 0#32),
    StableHlo.unary main_c_10 main_v54 (broadcastInDim S900000 ![] bcast_S_S900000 : (⟨S_, .i32⟩ : BufTy).Contents (Elt F) → (⟨S900000, .i32⟩ : BufTy).Contents (Elt F)),
    StableHlo.binary main_v47 main_v54 main_v55 (cmpi .slt : (⟨S900000, .i32⟩ : BufTy).Contents (Elt F) → (⟨S900000, .i32⟩ : BufTy).Contents (Elt F) → (⟨S900000, .i1⟩ : BufTy).Contents (Elt F)),
    StableHlo.nullary main_c_11 (constantI S_ 32 100000#32),
    StableHlo.unary main_c_11 main_v56 (broadcastInDim S900000 ![] bcast_S_S900000 : (⟨S_, .i32⟩ : BufTy).Contents (Elt F) → (⟨S900000, .i32⟩ : BufTy).Contents (Elt F)),
    StableHlo.binary main_v47 main_v56 main_v57 (addi : (⟨S900000, .i32⟩ : BufTy).Contents (Elt F) → (⟨S900000, .i32⟩ : BufTy).Contents (Elt F) → (⟨S900000, .i32⟩ : BufTy).Contents (Elt F)),
    StableHlo.ternary main_v55 main_v57 main_v47 main_v58 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v58 main_v59 (broadcastInDim S900000x1 ![0] bcast_S900000_S900000x1_0 : (⟨S900000, .i32⟩ : BufTy).Contents (Elt F) → (⟨S900000x1, .i32⟩ : BufTy).Contents (Elt F)),
    StableHlo.binary main_v53 main_v59 main_v60 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.nullary main_c_12 (constantI S_ 32 0#32),
    StableHlo.unary main_c_12 main_v61 (broadcastInDim S900000 ![] bcast_S_S900000 : (⟨S_, .i32⟩ : BufTy).Contents (Elt F) → (⟨S900000, .i32⟩ : BufTy).Contents (Elt F)),
    StableHlo.binary main_v48 main_v61 main_v62 (cmpi .slt : (⟨S900000, .i32⟩ : BufTy).Contents (Elt F) → (⟨S900000, .i32⟩ : BufTy).Contents (Elt F) → (⟨S900000, .i1⟩ : BufTy).Contents (Elt F)),
    StableHlo.nullary main_c_13 (constantI S_ 32 100000#32),
    StableHlo.unary main_c_13 main_v63 (broadcastInDim S900000 ![] bcast_S_S900000 : (⟨S_, .i32⟩ : BufTy).Contents (Elt F) → (⟨S900000, .i32⟩ : BufTy).Contents (Elt F)),
    StableHlo.binary main_v48 main_v63 main_v64 (addi : (⟨S900000, .i32⟩ : BufTy).Contents (Elt F) → (⟨S900000, .i32⟩ : BufTy).Contents (Elt F) → (⟨S900000, .i32⟩ : BufTy).Contents (Elt F)),
    StableHlo.ternary main_v62 main_v64 main_v48 main_v65 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v65 main_v66 (broadcastInDim S900000x1 ![0] bcast_S900000_S900000x1_0 : (⟨S900000, .i32⟩ : BufTy).Contents (Elt F) → (⟨S900000x1, .i32⟩ : BufTy).Contents (Elt F)),
    StableHlo.binary main_v53 main_v66 main_v67 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.binary main_v60 main_v67 main_v68 (mulf : (⟨S900000, .f32⟩ : BufTy).Contents (Elt F) → (⟨S900000, .f32⟩ : BufTy).Contents (Elt F) → (⟨S900000, .f32⟩ : BufTy).Contents (Elt F)),
    StableHlo.nullary main_c_14 (constantI S_ 32 0#32),
    StableHlo.unary main_c_14 main_v69 (broadcastInDim S900000 ![] bcast_S_S900000 : (⟨S_, .i32⟩ : BufTy).Contents (Elt F) → (⟨S900000, .i32⟩ : BufTy).Contents (Elt F)),
    StableHlo.binary main_v47 main_v69 main_v70 (cmpi .slt : (⟨S900000, .i32⟩ : BufTy).Contents (Elt F) → (⟨S900000, .i32⟩ : BufTy).Contents (Elt F) → (⟨S900000, .i1⟩ : BufTy).Contents (Elt F)),
    StableHlo.nullary main_c_15 (constantI S_ 32 100000#32),
    StableHlo.unary main_c_15 main_v71 (broadcastInDim S900000 ![] bcast_S_S900000 : (⟨S_, .i32⟩ : BufTy).Contents (Elt F) → (⟨S900000, .i32⟩ : BufTy).Contents (Elt F)),
    StableHlo.binary main_v47 main_v71 main_v72 (addi : (⟨S900000, .i32⟩ : BufTy).Contents (Elt F) → (⟨S900000, .i32⟩ : BufTy).Contents (Elt F) → (⟨S900000, .i32⟩ : BufTy).Contents (Elt F)),
    StableHlo.ternary main_v70 main_v72 main_v47 main_v73 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v73 main_v74 (broadcastInDim S900000x1 ![0] bcast_S900000_S900000x1_0 : (⟨S900000, .i32⟩ : BufTy).Contents (Elt F) → (⟨S900000x1, .i32⟩ : BufTy).Contents (Elt F)),
    StableHlo.binary main_v45 main_v74 main_v75 ((fun x i => Host.gather gather_S100000x120_S900000x1_S900000x120_1_0_n_n_0_1_1120 x i) : (⟨S100000x120, .f32⟩ : BufTy).Contents (Elt F) → (⟨S900000x1, .i32⟩ : BufTy).Contents (Elt F) → (⟨S900000x120, .f32⟩ : BufTy).Contents (Elt F)),
    StableHlo.unary main_v68 main_v76 (broadcastInDim S900000x1 ![0] bcast_S900000_S900000x1_0 : (⟨S900000, .f32⟩ : BufTy).Contents (Elt F) → (⟨S900000x1, .f32⟩ : BufTy).Contents (Elt F)),
    StableHlo.unary main_v76 main_v77 (broadcastInDim S900000x120 ![0, 1] bcast_S900000x1_S900000x120_0_1 : (⟨S900000x1, .f32⟩ : BufTy).Contents (Elt F) → (⟨S900000x120, .f32⟩ : BufTy).Contents (Elt F)),
    StableHlo.binary main_v75 main_v77 main_v78 (mulf : (⟨S900000x120, .f32⟩ : BufTy).Contents (Elt F) → (⟨S900000x120, .f32⟩ : BufTy).Contents (Elt F) → (⟨S900000x120, .f32⟩ : BufTy).Contents (Elt F)),
    StableHlo.nullary main_cst_16 (constant S_ .f32 0x00000000#32),
    StableHlo.unary main_cst_16 main_v79 (broadcastInDim S100000x120 ![] bcast_S_S100000x120 : (⟨S_, .f32⟩ : BufTy).Contents (Elt F) → (⟨S100000x120, .f32⟩ : BufTy).Contents (Elt F)),
    StableHlo.unary main_v48 main_v80 (broadcastInDim S900000x1 ![0] bcast_S900000_S900000x1_0 : (⟨S900000, .i32⟩ : BufTy).Contents (Elt F) → (⟨S900000x1, .i32⟩ : BufTy).Contents (Elt F)),
    StableHlo.ternary main_v79 main_v80 main_v78 main_v81 ((fun x i u => Host.scatterAdd scatter_S100000x120_S900000x1_S900000x120_1_0_0_1 x i u) : (⟨S100000x120, .f32⟩ : BufTy).Contents (Elt F) → (⟨S900000x1, .i32⟩ : BufTy).Contents (Elt F) → (⟨S900000x120, .f32⟩ : BufTy).Contents (Elt F) → (⟨S100000x120, .f32⟩ : BufTy).Contents (Elt F)),
    StableHlo.unary main_arg4 main_v82 (broadcastInDim S1x120 ![1] bcast_S120_S1x120_1 : (⟨S120, .f32⟩ : BufTy).Contents (Elt F) → (⟨S1x120, .f32⟩ : BufTy).Contents (Elt F)),
    StableHlo.unary main_v82 main_v83 (broadcastInDim S100000x120 ![0, 1] bcast_S1x120_S100000x120_0_1 : (⟨S1x120, .f32⟩ : BufTy).Contents (Elt F) → (⟨S100000x120, .f32⟩ : BufTy).Contents (Elt F)),
    StableHlo.binary main_v81 main_v83 main_v84 (addf : (⟨S100000x120, .f32⟩ : BufTy).Contents (Elt F) → (⟨S100000x120, .f32⟩ : BufTy).Contents (Elt F) → (⟨S100000x120, .f32⟩ : BufTy).Contents (Elt F)),
    StableHlo.nullary main_cst_17 (constant S_ .f32 0x3C23D70A#32),
    StableHlo.nullary main_call1_cst (constant S_ .f32 0x00000000#32),
    StableHlo.unary main_call1_cst main_call1_v0 (broadcastInDim S100000x120 ![] bcast_S_S100000x120 : (⟨S_, .f32⟩ : BufTy).Contents (Elt F) → (⟨S100000x120, .f32⟩ : BufTy).Contents (Elt F)),
    StableHlo.binary main_v84 main_call1_v0 main_call1_v1 (cmpf .oge : (⟨S100000x120, .f32⟩ : BufTy).Contents (Elt F) → (⟨S100000x120, .f32⟩ : BufTy).Contents (Elt F) → (⟨S100000x120, .i1⟩ : BufTy).Contents (Elt F)),
    StableHlo.unary main_cst_17 main_call1_v2 (id : (⟨S_, .f32⟩ : BufTy).Contents (Elt F) → (⟨S_, .f32⟩ : BufTy).Contents (Elt F)),
    StableHlo.unary main_call1_v2 main_call1_v3 (broadcastInDim S100000x120 ![] bcast_S_S100000x120 : (⟨S_, .f32⟩ : BufTy).Contents (Elt F) → (⟨S100000x120, .f32⟩ : BufTy).Contents (Elt F)),
    StableHlo.binary main_call1_v3 main_v84 main_call1_v4 (mulf : (⟨S100000x120, .f32⟩ : BufTy).Contents (Elt F) → (⟨S100000x120, .f32⟩ : BufTy).Contents (Elt F) → (⟨S100000x120, .f32⟩ : BufTy).Contents (Elt F)),
    StableHlo.ternary main_call1_v1 main_v84 main_call1_v4 main_v85 (select : (⟨S100000x120, .i1⟩ : BufTy).Contents (Elt F) → (⟨S100000x120, .f32⟩ : BufTy).Contents (Elt F) → (⟨S100000x120, .f32⟩ : BufTy).Contents (Elt F) → (⟨S100000x120, .f32⟩ : BufTy).Contents (Elt F)),
    StableHlo.binary main_v85 main_arg5 main_v86 ((fun l r => Host.dotGeneral dot_S100000x120_S120x16_S100000x16_1_0_0_1_n_n none l r) : (⟨S100000x120, .f32⟩ : BufTy).Contents (Elt F) → (⟨S120x16, .f32⟩ : BufTy).Contents (Elt F) → (⟨S100000x16, .f32⟩ : BufTy).Contents (Elt F)),
    StableHlo.unary main_arg6 main_v87 (broadcastInDim S1x16 ![1] bcast_S16_S1x16_1 : (⟨S16, .f32⟩ : BufTy).Contents (Elt F) → (⟨S1x16, .f32⟩ : BufTy).Contents (Elt F)),
    StableHlo.unary main_v87 main_v88 (broadcastInDim S100000x16 ![0, 1] bcast_S1x16_S100000x16_0_1 : (⟨S1x16, .f32⟩ : BufTy).Contents (Elt F) → (⟨S100000x16, .f32⟩ : BufTy).Contents (Elt F)),
    StableHlo.binary main_v86 main_v88 main_v89 (addf : (⟨S100000x16, .f32⟩ : BufTy).Contents (Elt F) → (⟨S100000x16, .f32⟩ : BufTy).Contents (Elt F) → (⟨S100000x16, .f32⟩ : BufTy).Contents (Elt F)),
    StableHlo.nullary main_call2_cst (constant S_ .f32 0xFF800000#32),
    StableHlo.binary main_v89 main_call2_cst main_call2_v0 (fun x v => Host.reduce FloatOps.maximumf x v reducesTo_S100000x16_S100000_d1 h_S_ : (⟨S100000x16, .f32⟩ : BufTy).Contents (Elt F) → (⟨S_, .f32⟩ : BufTy).Contents (Elt F) → (⟨S100000, .f32⟩ : BufTy).Contents (Elt F)),
    StableHlo.nullary main_call2_cst_0 (constant S_ .f32 0xFF800000#32),
    StableHlo.unary main_call2_cst_0 main_call2_v1 (broadcastInDim S100000 ![] bcast_S_S100000 : (⟨S_, .f32⟩ : BufTy).Contents (Elt F) → (⟨S100000, .f32⟩ : BufTy).Contents (Elt F)),
    StableHlo.binary main_call2_v1 main_call2_v0 main_call2_v2 (maximumf : (⟨S100000, .f32⟩ : BufTy).Contents (Elt F) → (⟨S100000, .f32⟩ : BufTy).Contents (Elt F) → (⟨S100000, .f32⟩ : BufTy).Contents (Elt F)),
    StableHlo.unary main_call2_v2 main_call2_v3 (broadcastInDim S100000x1 ![0] bcast_S100000_S100000x1_0 : (⟨S100000, .f32⟩ : BufTy).Contents (Elt F) → (⟨S100000x1, .f32⟩ : BufTy).Contents (Elt F)),
    StableHlo.unary main_call2_v3 main_call2_v4 (broadcastInDim S100000x16 ![0, 1] bcast_S100000x1_S100000x16_0_1 : (⟨S100000x1, .f32⟩ : BufTy).Contents (Elt F) → (⟨S100000x16, .f32⟩ : BufTy).Contents (Elt F)),
    StableHlo.binary main_v89 main_call2_v4 main_call2_v5 (subf : (⟨S100000x16, .f32⟩ : BufTy).Contents (Elt F) → (⟨S100000x16, .f32⟩ : BufTy).Contents (Elt F) → (⟨S100000x16, .f32⟩ : BufTy).Contents (Elt F)),
    StableHlo.unary main_call2_v5 main_call2_v6 (Host.exp : (⟨S100000x16, .f32⟩ : BufTy).Contents (Elt F) → (⟨S100000x16, .f32⟩ : BufTy).Contents (Elt F)),
    StableHlo.nullary main_call2_cst_1 (constant S_ .f32 0x00000000#32),
    StableHlo.binary main_call2_v6 main_call2_cst_1 main_call2_v7 (fun x v => Host.reduceAdd x v reducesTo_S100000x16_S100000_d1 h_S_ : (⟨S100000x16, .f32⟩ : BufTy).Contents (Elt F) → (⟨S_, .f32⟩ : BufTy).Contents (Elt F) → (⟨S100000, .f32⟩ : BufTy).Contents (Elt F)),
    StableHlo.unary main_call2_v7 main_call2_v8 (broadcastInDim S100000x1 ![0] bcast_S100000_S100000x1_0 : (⟨S100000, .f32⟩ : BufTy).Contents (Elt F) → (⟨S100000x1, .f32⟩ : BufTy).Contents (Elt F)),
    StableHlo.unary main_call2_v8 main_call2_v9 (Host.log : (⟨S100000x1, .f32⟩ : BufTy).Contents (Elt F) → (⟨S100000x1, .f32⟩ : BufTy).Contents (Elt F)),
    StableHlo.unary main_call2_v9 main_call2_v10 (broadcastInDim S100000x16 ![0, 1] bcast_S100000x1_S100000x16_0_1 : (⟨S100000x1, .f32⟩ : BufTy).Contents (Elt F) → (⟨S100000x16, .f32⟩ : BufTy).Contents (Elt F)),
    StableHlo.binary main_call2_v5 main_call2_v10 main_v90 (subf : (⟨S100000x16, .f32⟩ : BufTy).Contents (Elt F) → (⟨S100000x16, .f32⟩ : BufTy).Contents (Elt F) → (⟨S100000x16, .f32⟩ : BufTy).Contents (Elt F)) ]

/-- The 137 operations, in program order. -/
abbrev ops : List (HloOp τ sig (Elt F)) := ops0 ++ ops1

end Cert.ReferenceIdeal.RefRun

end
-- ==== Proof.RefRun.lean ====
/-
  The reference program's run, as one straight line.
  The entry function runs its two windows in order. The first window is its own 54 operations, then the first leaky
  rectifier — seven operations over that call's buffers, the selection it calls last —, then five more; the second is
  45 operations, the second leaky rectifier's seven, four more, and the log-softmax's fifteen. Each piece is the line
  of its operations, a line run after a line is their concatenation run as one, and so the entry function is the line
  of all 137. Read back: every weakly fair execution terminates, with every buffer at the fold of the operations over
  the launch contents.
-/
import proofs.«126286_j81570018886156_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The pieces of the two windows -/

/-- The first window before its call. -/
abbrev opsA0 : List (HloOp τ sig (Elt F)) := [
    StableHlo.unary main_arg7 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg7 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg1 main_v4 ((fun l r => Host.dotGeneral dot_S100000x128_S128x180_S100000x180_1_0_0_1_n_n none l r) : (⟨S100000x128, .f32⟩ : BufTy).Contents (Elt F) → (⟨S128x180, .f32⟩ : BufTy).Contents (Elt F) → (⟨S100000x180, .f32⟩ : BufTy).Contents (Elt F)),
    StableHlo.nullary main_v5 (iotaInDim S100000 32 0),
    StableHlo.binary main_v1 main_v5 main_v6 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.binary main_v3 main_v5 main_v7 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.nullary main_cst (constant S_ .f32 0x3F800000#32),
    StableHlo.unary main_cst main_v8 (broadcastInDim S900000 ![] bcast_S_S900000 : (⟨S_, .f32⟩ : BufTy).Contents (Elt F) → (⟨S900000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S900000x1 ![0] bcast_S900000_S900000x1_0 : (⟨S900000, .i32⟩ : BufTy).Contents (Elt F) → (⟨S900000x1, .i32⟩ : BufTy).Contents (Elt F)),
    StableHlo.ternary main_v9 main_v10 main_v8 main_v11 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    StableHlo.unary main_v11 main_v12 (Host.rsqrt : (⟨S100000, .f32⟩ : BufTy).Contents (Elt F) → (⟨S100000, .f32⟩ : BufTy).Contents (Elt F)),
    StableHlo.nullary main_c (constantI S_ 32 0#32),
    StableHlo.unary main_c main_v13 (broadcastInDim S900000 ![] bcast_S_S900000 : (⟨S_, .i32⟩ : BufTy).Contents (Elt F) → (⟨S900000, .i32⟩ : BufTy).Contents (Elt F)),
    StableHlo.binary main_v6 main_v13 main_v14 (cmpi .slt : (⟨S900000, .i32⟩ : BufTy).Contents (Elt F) → (⟨S900000, .i32⟩ : BufTy).Contents (Elt F) → (⟨S900000, .i1⟩ : BufTy).Contents (Elt F)),
    StableHlo.nullary main_c_1 (constantI S_ 32 100000#32),
    StableHlo.unary main_c_1 main_v15 (broadcastInDim S900000 ![] bcast_S_S900000 : (⟨S_, .i32⟩ : BufTy).Contents (Elt F) → (⟨S900000, .i32⟩ : BufTy).Contents (Elt F)),
    StableHlo.binary main_v6 main_v15 main_v16 (addi : (⟨S900000, .i32⟩ : BufTy).Contents (Elt F) → (⟨S900000, .i32⟩ : BufTy).Contents (Elt F) → (⟨S900000, .i32⟩ : BufTy).Contents (Elt F)),
    StableHlo.ternary main_v14 main_v16 main_v6 main_v17 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v17 main_v18 (broadcastInDim S900000x1 ![0] bcast_S900000_S900000x1_0 : (⟨S900000, .i32⟩ : BufTy).Contents (Elt F) → (⟨S900000x1, .i32⟩ : BufTy).Contents (Elt F)),
    StableHlo.binary main_v12 main_v18 main_v19 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.nullary main_c_2 (constantI S_ 32 0#32),
    StableHlo.unary main_c_2 main_v20 (broadcastInDim S900000 ![] bcast_S_S900000 : (⟨S_, .i32⟩ : BufTy).Contents (Elt F) → (⟨S900000, .i32⟩ : BufTy).Contents (Elt F)),
    StableHlo.binary main_v7 main_v20 main_v21 (cmpi .slt : (⟨S900000, .i32⟩ : BufTy).Contents (Elt F) → (⟨S900000, .i32⟩ : BufTy).Contents (Elt F) → (⟨S900000, .i1⟩ : BufTy).Contents (Elt F)),
    StableHlo.nullary main_c_3 (constantI S_ 32 100000#32),
    StableHlo.unary main_c_3 main_v22 (broadcastInDim S900000 ![] bcast_S_S900000 : (⟨S_, .i32⟩ : BufTy).Contents (Elt F) → (⟨S900000, .i32⟩ : BufTy).Contents (Elt F)),
    StableHlo.binary main_v7 main_v22 main_v23 (addi : (⟨S900000, .i32⟩ : BufTy).Contents (Elt F) → (⟨S900000, .i32⟩ : BufTy).Contents (Elt F) → (⟨S900000, .i32⟩ : BufTy).Contents (Elt F)),
    StableHlo.ternary main_v21 main_v23 main_v7 main_v24 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v24 main_v25 (broadcastInDim S900000x1 ![0] bcast_S900000_S900000x1_0 : (⟨S900000, .i32⟩ : BufTy).Contents (Elt F) → (⟨S900000x1, .i32⟩ : BufTy).Contents (Elt F)),
    StableHlo.binary main_v12 main_v25 main_v26 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.binary main_v19 main_v26 main_v27 (mulf : (⟨S900000, .f32⟩ : BufTy).Contents (Elt F) → (⟨S900000, .f32⟩ : BufTy).Contents (Elt F) → (⟨S900000, .f32⟩ : BufTy).Contents (Elt F)),
    StableHlo.nullary main_c_4 (constantI S_ 32 0#32),
    StableHlo.unary main_c_4 main_v28 (broadcastInDim S900000 ![] bcast_S_S900000 : (⟨S_, .i32⟩ : BufTy).Contents (Elt F) → (⟨S900000, .i32⟩ : BufTy).Contents (Elt F)),
    StableHlo.binary main_v6 main_v28 main_v29 (cmpi .slt : (⟨S900000, .i32⟩ : BufTy).Contents (Elt F) → (⟨S900000, .i32⟩ : BufTy).Contents (Elt F) → (⟨S900000, .i1⟩ : BufTy).Contents (Elt F)),
    StableHlo.nullary main_c_5 (constantI S_ 32 100000#32),
    StableHlo.unary main_c_5 main_v30 (broadcastInDim S900000 ![] bcast_S_S900000 : (⟨S_, .i32⟩ : BufTy).Contents (Elt F) → (⟨S900000, .i32⟩ : BufTy).Contents (Elt F)),
    StableHlo.binary main_v6 main_v30 main_v31 (addi : (⟨S900000, .i32⟩ : BufTy).Contents (Elt F) → (⟨S900000, .i32⟩ : BufTy).Contents (Elt F) → (⟨S900000, .i32⟩ : BufTy).Contents (Elt F)),
    StableHlo.ternary main_v29 main_v31 main_v6 main_v32 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v32 main_v33 (broadcastInDim S900000x1 ![0] bcast_S900000_S900000x1_0 : (⟨S900000, .i32⟩ : BufTy).Contents (Elt F) → (⟨S900000x1, .i32⟩ : BufTy).Contents (Elt F)),
    StableHlo.binary main_v4 main_v33 main_v34 ((fun x i => Host.gather gather_S100000x180_S900000x1_S900000x180_1_0_n_n_0_1_1180 x i) : (⟨S100000x180, .f32⟩ : BufTy).Contents (Elt F) → (⟨S900000x1, .i32⟩ : BufTy).Contents (Elt F) → (⟨S900000x180, .f32⟩ : BufTy).Contents (Elt F)),
    StableHlo.unary main_v27 main_v35 (broadcastInDim S900000x1 ![0] bcast_S900000_S900000x1_0 : (⟨S900000, .f32⟩ : BufTy).Contents (Elt F) → (⟨S900000x1, .f32⟩ : BufTy).Contents (Elt F)),
    StableHlo.unary main_v35 main_v36 (broadcastInDim S900000x180 ![0, 1] bcast_S900000x1_S900000x180_0_1 : (⟨S900000x1, .f32⟩ : BufTy).Contents (Elt F) → (⟨S900000x180, .f32⟩ : BufTy).Contents (Elt F)),
    StableHlo.binary main_v34 main_v36 main_v37 (mulf : (⟨S900000x180, .f32⟩ : BufTy).Contents (Elt F) → (⟨S900000x180, .f32⟩ : BufTy).Contents (Elt F) → (⟨S900000x180, .f32⟩ : BufTy).Contents (Elt F)),
    StableHlo.nullary main_cst_6 (constant S_ .f32 0x00000000#32),
    StableHlo.unary main_cst_6 main_v38 (broadcastInDim S100000x180 ![] bcast_S_S100000x180 : (⟨S_, .f32⟩ : BufTy).Contents (Elt F) → (⟨S100000x180, .f32⟩ : BufTy).Contents (Elt F)),
    StableHlo.unary main_v7 main_v39 (broadcastInDim S900000x1 ![0] bcast_S900000_S900000x1_0 : (⟨S900000, .i32⟩ : BufTy).Contents (Elt F) → (⟨S900000x1, .i32⟩ : BufTy).Contents (Elt F)),
    StableHlo.ternary main_v38 main_v39 main_v37 main_v40 ((fun x i u => Host.scatterAdd scatter_S100000x180_S900000x1_S900000x180_1_0_0_1 x i u) : (⟨S100000x180, .f32⟩ : BufTy).Contents (Elt F) → (⟨S900000x1, .i32⟩ : BufTy).Contents (Elt F) → (⟨S900000x180, .f32⟩ : BufTy).Contents (Elt F) → (⟨S100000x180, .f32⟩ : BufTy).Contents (Elt F)),
    StableHlo.unary main_arg2 main_v41 (broadcastInDim S1x180 ![1] bcast_S180_S1x180_1 : (⟨S180, .f32⟩ : BufTy).Contents (Elt F) → (⟨S1x180, .f32⟩ : BufTy).Contents (Elt F)),
    StableHlo.unary main_v41 main_v42 (broadcastInDim S100000x180 ![0, 1] bcast_S1x180_S100000x180_0_1 : (⟨S1x180, .f32⟩ : BufTy).Contents (Elt F) → (⟨S100000x180, .f32⟩ : BufTy).Contents (Elt F)),
    StableHlo.binary main_v40 main_v42 main_v43 (addf : (⟨S100000x180, .f32⟩ : BufTy).Contents (Elt F) → (⟨S100000x180, .f32⟩ : BufTy).Contents (Elt F) → (⟨S100000x180, .f32⟩ : BufTy).Contents (Elt F)),
    StableHlo.nullary main_cst_7 (constant S_ .f32 0x3C23D70A#32) ]
/-- The first leaky rectifier over its call's buffers: the zero, its broadcast, the comparison, the slope converted
    and broadcast, the product, and the selection. -/
abbrev opsC0 : List (HloOp τ sig (Elt F)) := [
    StableHlo.nullary main_call0_cst (constant S_ .f32 0x00000000#32),
    StableHlo.unary main_call0_cst main_call0_v0 (broadcastInDim S100000x180 ![] bcast_S_S100000x180 : (⟨S_, .f32⟩ : BufTy).Contents (Elt F) → (⟨S100000x180, .f32⟩ : BufTy).Contents (Elt F)),
    StableHlo.binary main_v43 main_call0_v0 main_call0_v1 (cmpf .oge : (⟨S100000x180, .f32⟩ : BufTy).Contents (Elt F) → (⟨S100000x180, .f32⟩ : BufTy).Contents (Elt F) → (⟨S100000x180, .i1⟩ : BufTy).Contents (Elt F)),
    StableHlo.unary main_cst_7 main_call0_v2 (id : (⟨S_, .f32⟩ : BufTy).Contents (Elt F) → (⟨S_, .f32⟩ : BufTy).Contents (Elt F)),
    StableHlo.unary main_call0_v2 main_call0_v3 (broadcastInDim S100000x180 ![] bcast_S_S100000x180 : (⟨S_, .f32⟩ : BufTy).Contents (Elt F) → (⟨S100000x180, .f32⟩ : BufTy).Contents (Elt F)),
    StableHlo.binary main_call0_v3 main_v43 main_call0_v4 (mulf : (⟨S100000x180, .f32⟩ : BufTy).Contents (Elt F) → (⟨S100000x180, .f32⟩ : BufTy).Contents (Elt F) → (⟨S100000x180, .f32⟩ : BufTy).Contents (Elt F)),
    StableHlo.ternary main_call0_v1 main_v43 main_call0_v4 main_v44 (select : (⟨S100000x180, .i1⟩ : BufTy).Contents (Elt F) → (⟨S100000x180, .f32⟩ : BufTy).Contents (Elt F) → (⟨S100000x180, .f32⟩ : BufTy).Contents (Elt F) → (⟨S100000x180, .f32⟩ : BufTy).Contents (Elt F)) ]
/-- The first window after its call. -/
abbrev opsB0 : List (HloOp τ sig (Elt F)) := [
    StableHlo.binary main_v44 main_arg3 main_v45 ((fun l r => Host.dotGeneral dot_S100000x180_S180x120_S100000x120_1_0_0_1_n_n none l r) : (⟨S100000x180, .f32⟩ : BufTy).Contents (Elt F) → (⟨S180x120, .f32⟩ : BufTy).Contents (Elt F) → (⟨S100000x120, .f32⟩ : BufTy).Contents (Elt F)),
    StableHlo.nullary main_v46 (iotaInDim S100000 32 0),
    StableHlo.binary main_v1 main_v46 main_v47 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.binary main_v3 main_v46 main_v48 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.nullary main_cst_8 (constant S_ .f32 0x3F800000#32) ]
/-- The second window before its first call. -/
abbrev opsA1 : List (HloOp τ sig (Elt F)) := [
    StableHlo.unary main_cst_8 main_v49 (broadcastInDim S900000 ![] bcast_S_S900000 : (⟨S_, .f32⟩ : BufTy).Contents (Elt F) → (⟨S900000, .f32⟩ : BufTy).Contents (Elt F)),
    StableHlo.nullary main_cst_9 (constant S_ .f32 0x00000000#32),
    StableHlo.unary main_cst_9 main_v50 (broadcastInDim S100000 ![] bcast_S_S100000 : (⟨S_, .f32⟩ : BufTy).Contents (Elt F) → (⟨S100000, .f32⟩ : BufTy).Contents (Elt F)),
    StableHlo.unary main_v48 main_v51 (broadcastInDim S900000x1 ![0] bcast_S900000_S900000x1_0 : (⟨S900000, .i32⟩ : BufTy).Contents (Elt F) → (⟨S900000x1, .i32⟩ : BufTy).Contents (Elt F)),
    StableHlo.ternary main_v50 main_v51 main_v49 main_v52 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    StableHlo.unary main_v52 main_v53 (Host.rsqrt : (⟨S100000, .f32⟩ : BufTy).Contents (Elt F) → (⟨S100000, .f32⟩ : BufTy).Contents (Elt F)),
    StableHlo.nullary main_c_10 (constantI S_ 32 0#32),
    StableHlo.unary main_c_10 main_v54 (broadcastInDim S900000 ![] bcast_S_S900000 : (⟨S_, .i32⟩ : BufTy).Contents (Elt F) → (⟨S900000, .i32⟩ : BufTy).Contents (Elt F)),
    StableHlo.binary main_v47 main_v54 main_v55 (cmpi .slt : (⟨S900000, .i32⟩ : BufTy).Contents (Elt F) → (⟨S900000, .i32⟩ : BufTy).Contents (Elt F) → (⟨S900000, .i1⟩ : BufTy).Contents (Elt F)),
    StableHlo.nullary main_c_11 (constantI S_ 32 100000#32),
    StableHlo.unary main_c_11 main_v56 (broadcastInDim S900000 ![] bcast_S_S900000 : (⟨S_, .i32⟩ : BufTy).Contents (Elt F) → (⟨S900000, .i32⟩ : BufTy).Contents (Elt F)),
    StableHlo.binary main_v47 main_v56 main_v57 (addi : (⟨S900000, .i32⟩ : BufTy).Contents (Elt F) → (⟨S900000, .i32⟩ : BufTy).Contents (Elt F) → (⟨S900000, .i32⟩ : BufTy).Contents (Elt F)),
    StableHlo.ternary main_v55 main_v57 main_v47 main_v58 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v58 main_v59 (broadcastInDim S900000x1 ![0] bcast_S900000_S900000x1_0 : (⟨S900000, .i32⟩ : BufTy).Contents (Elt F) → (⟨S900000x1, .i32⟩ : BufTy).Contents (Elt F)),
    StableHlo.binary main_v53 main_v59 main_v60 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.nullary main_c_12 (constantI S_ 32 0#32),
    StableHlo.unary main_c_12 main_v61 (broadcastInDim S900000 ![] bcast_S_S900000 : (⟨S_, .i32⟩ : BufTy).Contents (Elt F) → (⟨S900000, .i32⟩ : BufTy).Contents (Elt F)),
    StableHlo.binary main_v48 main_v61 main_v62 (cmpi .slt : (⟨S900000, .i32⟩ : BufTy).Contents (Elt F) → (⟨S900000, .i32⟩ : BufTy).Contents (Elt F) → (⟨S900000, .i1⟩ : BufTy).Contents (Elt F)),
    StableHlo.nullary main_c_13 (constantI S_ 32 100000#32),
    StableHlo.unary main_c_13 main_v63 (broadcastInDim S900000 ![] bcast_S_S900000 : (⟨S_, .i32⟩ : BufTy).Contents (Elt F) → (⟨S900000, .i32⟩ : BufTy).Contents (Elt F)),
    StableHlo.binary main_v48 main_v63 main_v64 (addi : (⟨S900000, .i32⟩ : BufTy).Contents (Elt F) → (⟨S900000, .i32⟩ : BufTy).Contents (Elt F) → (⟨S900000, .i32⟩ : BufTy).Contents (Elt F)),
    StableHlo.ternary main_v62 main_v64 main_v48 main_v65 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v65 main_v66 (broadcastInDim S900000x1 ![0] bcast_S900000_S900000x1_0 : (⟨S900000, .i32⟩ : BufTy).Contents (Elt F) → (⟨S900000x1, .i32⟩ : BufTy).Contents (Elt F)),
    StableHlo.binary main_v53 main_v66 main_v67 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.binary main_v60 main_v67 main_v68 (mulf : (⟨S900000, .f32⟩ : BufTy).Contents (Elt F) → (⟨S900000, .f32⟩ : BufTy).Contents (Elt F) → (⟨S900000, .f32⟩ : BufTy).Contents (Elt F)),
    StableHlo.nullary main_c_14 (constantI S_ 32 0#32),
    StableHlo.unary main_c_14 main_v69 (broadcastInDim S900000 ![] bcast_S_S900000 : (⟨S_, .i32⟩ : BufTy).Contents (Elt F) → (⟨S900000, .i32⟩ : BufTy).Contents (Elt F)),
    StableHlo.binary main_v47 main_v69 main_v70 (cmpi .slt : (⟨S900000, .i32⟩ : BufTy).Contents (Elt F) → (⟨S900000, .i32⟩ : BufTy).Contents (Elt F) → (⟨S900000, .i1⟩ : BufTy).Contents (Elt F)),
    StableHlo.nullary main_c_15 (constantI S_ 32 100000#32),
    StableHlo.unary main_c_15 main_v71 (broadcastInDim S900000 ![] bcast_S_S900000 : (⟨S_, .i32⟩ : BufTy).Contents (Elt F) → (⟨S900000, .i32⟩ : BufTy).Contents (Elt F)),
    StableHlo.binary main_v47 main_v71 main_v72 (addi : (⟨S900000, .i32⟩ : BufTy).Contents (Elt F) → (⟨S900000, .i32⟩ : BufTy).Contents (Elt F) → (⟨S900000, .i32⟩ : BufTy).Contents (Elt F)),
    StableHlo.ternary main_v70 main_v72 main_v47 main_v73 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v73 main_v74 (broadcastInDim S900000x1 ![0] bcast_S900000_S900000x1_0 : (⟨S900000, .i32⟩ : BufTy).Contents (Elt F) → (⟨S900000x1, .i32⟩ : BufTy).Contents (Elt F)),
    StableHlo.binary main_v45 main_v74 main_v75 ((fun x i => Host.gather gather_S100000x120_S900000x1_S900000x120_1_0_n_n_0_1_1120 x i) : (⟨S100000x120, .f32⟩ : BufTy).Contents (Elt F) → (⟨S900000x1, .i32⟩ : BufTy).Contents (Elt F) → (⟨S900000x120, .f32⟩ : BufTy).Contents (Elt F)),
    StableHlo.unary main_v68 main_v76 (broadcastInDim S900000x1 ![0] bcast_S900000_S900000x1_0 : (⟨S900000, .f32⟩ : BufTy).Contents (Elt F) → (⟨S900000x1, .f32⟩ : BufTy).Contents (Elt F)),
    StableHlo.unary main_v76 main_v77 (broadcastInDim S900000x120 ![0, 1] bcast_S900000x1_S900000x120_0_1 : (⟨S900000x1, .f32⟩ : BufTy).Contents (Elt F) → (⟨S900000x120, .f32⟩ : BufTy).Contents (Elt F)),
    StableHlo.binary main_v75 main_v77 main_v78 (mulf : (⟨S900000x120, .f32⟩ : BufTy).Contents (Elt F) → (⟨S900000x120, .f32⟩ : BufTy).Contents (Elt F) → (⟨S900000x120, .f32⟩ : BufTy).Contents (Elt F)),
    StableHlo.nullary main_cst_16 (constant S_ .f32 0x00000000#32),
    StableHlo.unary main_cst_16 main_v79 (broadcastInDim S100000x120 ![] bcast_S_S100000x120 : (⟨S_, .f32⟩ : BufTy).Contents (Elt F) → (⟨S100000x120, .f32⟩ : BufTy).Contents (Elt F)),
    StableHlo.unary main_v48 main_v80 (broadcastInDim S900000x1 ![0] bcast_S900000_S900000x1_0 : (⟨S900000, .i32⟩ : BufTy).Contents (Elt F) → (⟨S900000x1, .i32⟩ : BufTy).Contents (Elt F)),
    StableHlo.ternary main_v79 main_v80 main_v78 main_v81 ((fun x i u => Host.scatterAdd scatter_S100000x120_S900000x1_S900000x120_1_0_0_1 x i u) : (⟨S100000x120, .f32⟩ : BufTy).Contents (Elt F) → (⟨S900000x1, .i32⟩ : BufTy).Contents (Elt F) → (⟨S900000x120, .f32⟩ : BufTy).Contents (Elt F) → (⟨S100000x120, .f32⟩ : BufTy).Contents (Elt F)),
    StableHlo.unary main_arg4 main_v82 (broadcastInDim S1x120 ![1] bcast_S120_S1x120_1 : (⟨S120, .f32⟩ : BufTy).Contents (Elt F) → (⟨S1x120, .f32⟩ : BufTy).Contents (Elt F)),
    StableHlo.unary main_v82 main_v83 (broadcastInDim S100000x120 ![0, 1] bcast_S1x120_S100000x120_0_1 : (⟨S1x120, .f32⟩ : BufTy).Contents (Elt F) → (⟨S100000x120, .f32⟩ : BufTy).Contents (Elt F)),
    StableHlo.binary main_v81 main_v83 main_v84 (addf : (⟨S100000x120, .f32⟩ : BufTy).Contents (Elt F) → (⟨S100000x120, .f32⟩ : BufTy).Contents (Elt F) → (⟨S100000x120, .f32⟩ : BufTy).Contents (Elt F)),
    StableHlo.nullary main_cst_17 (constant S_ .f32 0x3C23D70A#32) ]
/-- The second leaky rectifier over its call's buffers. -/
abbrev opsC1 : List (HloOp τ sig (Elt F)) := [
    StableHlo.nullary main_call1_cst (constant S_ .f32 0x00000000#32),
    StableHlo.unary main_call1_cst main_call1_v0 (broadcastInDim S100000x120 ![] bcast_S_S100000x120 : (⟨S_, .f32⟩ : BufTy).Contents (Elt F) → (⟨S100000x120, .f32⟩ : BufTy).Contents (Elt F)),
    StableHlo.binary main_v84 main_call1_v0 main_call1_v1 (cmpf .oge : (⟨S100000x120, .f32⟩ : BufTy).Contents (Elt F) → (⟨S100000x120, .f32⟩ : BufTy).Contents (Elt F) → (⟨S100000x120, .i1⟩ : BufTy).Contents (Elt F)),
    StableHlo.unary main_cst_17 main_call1_v2 (id : (⟨S_, .f32⟩ : BufTy).Contents (Elt F) → (⟨S_, .f32⟩ : BufTy).Contents (Elt F)),
    StableHlo.unary main_call1_v2 main_call1_v3 (broadcastInDim S100000x120 ![] bcast_S_S100000x120 : (⟨S_, .f32⟩ : BufTy).Contents (Elt F) → (⟨S100000x120, .f32⟩ : BufTy).Contents (Elt F)),
    StableHlo.binary main_call1_v3 main_v84 main_call1_v4 (mulf : (⟨S100000x120, .f32⟩ : BufTy).Contents (Elt F) → (⟨S100000x120, .f32⟩ : BufTy).Contents (Elt F) → (⟨S100000x120, .f32⟩ : BufTy).Contents (Elt F)),
    StableHlo.ternary main_call1_v1 main_v84 main_call1_v4 main_v85 (select : (⟨S100000x120, .i1⟩ : BufTy).Contents (Elt F) → (⟨S100000x120, .f32⟩ : BufTy).Contents (Elt F) → (⟨S100000x120, .f32⟩ : BufTy).Contents (Elt F) → (⟨S100000x120, .f32⟩ : BufTy).Contents (Elt F)) ]
/-- The second window between its calls. -/
abbrev opsB1 : List (HloOp τ sig (Elt F)) := [
    StableHlo.binary main_v85 main_arg5 main_v86 ((fun l r => Host.dotGeneral dot_S100000x120_S120x16_S100000x16_1_0_0_1_n_n none l r) : (⟨S100000x120, .f32⟩ : BufTy).Contents (Elt F) → (⟨S120x16, .f32⟩ : BufTy).Contents (Elt F) → (⟨S100000x16, .f32⟩ : BufTy).Contents (Elt F)),
    StableHlo.unary main_arg6 main_v87 (broadcastInDim S1x16 ![1] bcast_S16_S1x16_1 : (⟨S16, .f32⟩ : BufTy).Contents (Elt F) → (⟨S1x16, .f32⟩ : BufTy).Contents (Elt F)),
    StableHlo.unary main_v87 main_v88 (broadcastInDim S100000x16 ![0, 1] bcast_S1x16_S100000x16_0_1 : (⟨S1x16, .f32⟩ : BufTy).Contents (Elt F) → (⟨S100000x16, .f32⟩ : BufTy).Contents (Elt F)),
    StableHlo.binary main_v86 main_v88 main_v89 (addf : (⟨S100000x16, .f32⟩ : BufTy).Contents (Elt F) → (⟨S100000x16, .f32⟩ : BufTy).Contents (Elt F) → (⟨S100000x16, .f32⟩ : BufTy).Contents (Elt F)) ]
/-- The log-softmax over its call's buffers: the row maximum (guarded by minus infinity), the shifted entries, their
    exponentials' row sum, its logarithm, and the difference. -/
abbrev opsC2 : List (HloOp τ sig (Elt F)) := [
    StableHlo.nullary main_call2_cst (constant S_ .f32 0xFF800000#32),
    StableHlo.binary main_v89 main_call2_cst main_call2_v0 (fun x v => Host.reduce FloatOps.maximumf x v reducesTo_S100000x16_S100000_d1 h_S_ : (⟨S100000x16, .f32⟩ : BufTy).Contents (Elt F) → (⟨S_, .f32⟩ : BufTy).Contents (Elt F) → (⟨S100000, .f32⟩ : BufTy).Contents (Elt F)),
    StableHlo.nullary main_call2_cst_0 (constant S_ .f32 0xFF800000#32),
    StableHlo.unary main_call2_cst_0 main_call2_v1 (broadcastInDim S100000 ![] bcast_S_S100000 : (⟨S_, .f32⟩ : BufTy).Contents (Elt F) → (⟨S100000, .f32⟩ : BufTy).Contents (Elt F)),
    StableHlo.binary main_call2_v1 main_call2_v0 main_call2_v2 (maximumf : (⟨S100000, .f32⟩ : BufTy).Contents (Elt F) → (⟨S100000, .f32⟩ : BufTy).Contents (Elt F) → (⟨S100000, .f32⟩ : BufTy).Contents (Elt F)),
    StableHlo.unary main_call2_v2 main_call2_v3 (broadcastInDim S100000x1 ![0] bcast_S100000_S100000x1_0 : (⟨S100000, .f32⟩ : BufTy).Contents (Elt F) → (⟨S100000x1, .f32⟩ : BufTy).Contents (Elt F)),
    StableHlo.unary main_call2_v3 main_call2_v4 (broadcastInDim S100000x16 ![0, 1] bcast_S100000x1_S100000x16_0_1 : (⟨S100000x1, .f32⟩ : BufTy).Contents (Elt F) → (⟨S100000x16, .f32⟩ : BufTy).Contents (Elt F)),
    StableHlo.binary main_v89 main_call2_v4 main_call2_v5 (subf : (⟨S100000x16, .f32⟩ : BufTy).Contents (Elt F) → (⟨S100000x16, .f32⟩ : BufTy).Contents (Elt F) → (⟨S100000x16, .f32⟩ : BufTy).Contents (Elt F)),
    StableHlo.unary main_call2_v5 main_call2_v6 (Host.exp : (⟨S100000x16, .f32⟩ : BufTy).Contents (Elt F) → (⟨S100000x16, .f32⟩ : BufTy).Contents (Elt F)),
    StableHlo.nullary main_call2_cst_1 (constant S_ .f32 0x00000000#32),
    StableHlo.binary main_call2_v6 main_call2_cst_1 main_call2_v7 (fun x v => Host.reduceAdd x v reducesTo_S100000x16_S100000_d1 h_S_ : (⟨S100000x16, .f32⟩ : BufTy).Contents (Elt F) → (⟨S_, .f32⟩ : BufTy).Contents (Elt F) → (⟨S100000, .f32⟩ : BufTy).Contents (Elt F)),
    StableHlo.unary main_call2_v7 main_call2_v8 (broadcastInDim S100000x1 ![0] bcast_S100000_S100000x1_0 : (⟨S100000, .f32⟩ : BufTy).Contents (Elt F) → (⟨S100000x1, .f32⟩ : BufTy).Contents (Elt F)),
    StableHlo.unary main_call2_v8 main_call2_v9 (Host.log : (⟨S100000x1, .f32⟩ : BufTy).Contents (Elt F) → (⟨S100000x1, .f32⟩ : BufTy).Contents (Elt F)),
    StableHlo.unary main_call2_v9 main_call2_v10 (broadcastInDim S100000x16 ![0, 1] bcast_S100000x1_S100000x16_0_1 : (⟨S100000x1, .f32⟩ : BufTy).Contents (Elt F) → (⟨S100000x16, .f32⟩ : BufTy).Contents (Elt F)),
    StableHlo.binary main_call2_v5 main_call2_v10 main_v90 (subf : (⟨S100000x16, .f32⟩ : BufTy).Contents (Elt F) → (⟨S100000x16, .f32⟩ : BufTy).Contents (Elt F) → (⟨S100000x16, .f32⟩ : BufTy).Contents (Elt F)) ]

theorem ops0_split : (ops0 : List (HloOp τ sig (Elt F))) = opsA0 ++ (opsC0 ++ opsB0) := rfl
theorem ops1_split : (ops1 : List (HloOp τ sig (Elt F))) = opsA1 ++ (opsC1 ++ (opsB1 ++ opsC2)) := rfl

/-- A call of the first leaky rectifier is the line of its seven operations: the bodies unfolded, a typed reference at a
    literal buffer being that buffer and the transport along its type equation the identity. -/
theorem call0_eq : fn_leaky_relu.body (F := F) (.of main_v43) (.of main_cst_7) main_call0 = seq opsC0 := by
  simp only [fn_leaky_relu.body, fn_where.body, seq, bind_assoc, pure_bind]
  rfl

theorem call1_eq : fn_leaky_relu_0.body (F := F) (.of main_v84) (.of main_cst_17) main_call1 = seq opsC1 := by
  simp only [fn_leaky_relu_0.body, fn_where_1.body, seq, bind_assoc, pure_bind]
  rfl

-- the reductions are kept folded while the two spellings of an operation are compared: their bodies are folds over the
-- operand's elements, and nothing in the comparison looks inside them
attribute [local irreducible] Host.reduce Host.reduceAdd in
theorem call2_eq : fn_log_softmax.body (F := F) (.of main_v89) main_call2 = seq opsC2 := by
  simp only [fn_log_softmax.body, seq, bind_assoc, pure_bind]
  rfl

set_option maxRecDepth 8192 in
set_option maxHeartbeats 4000000 in
/-- The first window is the line of its 66 operations. -/
theorem part0_eq (c : Dev nD) : main_part0 (F := F) c = seq ops0 := by
  rw [ops0_split, seq_append, seq_append, ← call0_eq]
  simp only [main_part0, seq, bind_assoc, pure_bind]
  rfl

set_option maxRecDepth 8192 in
set_option maxHeartbeats 4000000 in
/-- The second window is the line of its 71 operations. -/
theorem part1_eq (c : Dev nD) : main_part1 (F := F) c = seq ops1 := by
  rw [ops1_split, seq_append, seq_append, seq_append, ← call1_eq, ← call2_eq]
  simp only [main_part1, seq, bind_assoc, pure_bind]
  rfl

/-- The entry function is the line of the 137 operations. -/
theorem main_eq (c : Dev nD) : main (F := F) c = seq ops := by
  show (main_part0 (F := F) c >>= fun _ => main_part1 (F := F) c) = seq (ops0 ++ ops1)
  rw [seq_append, part0_eq, part1_eq]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub ..,
    binary_bufs_sub .., binary_bufs_sub .., nullary_bufs_sub .., unary_bufs_sub .., nullary_bufs_sub .., unary_bufs_sub ..,
    unary_bufs_sub .., ternary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., nullary_bufs_sub .., binary_bufs_sub .., binary_bufs_sub .., nullary_bufs_sub ..⟩

set_option maxRecDepth 8192 in
theorem ops1_sub : (ops1 : List (HloOp τ sig (Elt F))).Forall fun op => op.bufs ⊆ tcRefs τ sig :=
  ⟨unary_bufs_sub .., nullary_bufs_sub .., unary_bufs_sub .., unary_bufs_sub .., ternary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., unary_bufs_sub .., binary_bufs_sub ..⟩

/-- Every buffer an operation of the line touches is one of the core's references. -/
theorem ops_sub : (ops : List (HloOp τ sig (Elt F))).Forall fun op => op.bufs ⊆ tcRefs τ sig :=
  List.forall_append.mpr ⟨ops0_sub, ops1_sub⟩

/-- On every device, for any float values, from any memory with zero counters: every weakly fair execution of the
    entry function terminates, and every buffer ends at the fold of the 137 operations over the launch contents. -/
theorem run_after (m : (ℓ : Loc nD τ sig) → Buf (Elt F) ℓ) (ρ : Dev nD → PrngReg) :
    θ_run defs (onTc (τ := τ) (main (F := F))) ⟨m, fun _ => 0, ρ⟩ (fun r => ∀ c : Dev nD, ∀ b : Ref sig .tc,
      r.2.mem ((c.tc : Thread nD τ).loc b) = StableHlo.after ops (fun b => m (c, b)) (Proc.devRef .tc b)) :=
  run_seq scopedRefs_eq scopedSems_eq defs main (fun _ => ops) main_eq (fun _ => ops_sub) m ρ

end Cert.ReferenceIdeal.RefRun

end
-- ==== Proof.LibStage.lean ====
/-
  Reading one buffer of a straight line of operations after the whole line has run.
  A line in single-assignment form writes each buffer once and reads it only later. If the line's operations write,
  in order, the references of a list `wr` (one each), and operation number `k` is `y := f a b`, then after the WHOLE line
  the buffer `y` holds `f` of what `a` and `b` hold after the whole line — provided no later operation writes `y`, and
  neither operation `k` nor a later one writes `a` or `b`. Both conditions are memberships in a suffix of `wr`.
-/
import Idealize.ShloMosaic.Lib.StableHlo.Run

namespace Cert.LibStage

open Idealize.ShloMosaic Idealize.ShloMosaic.StableHlo

variable {τ : Topo} {sig : RefSig} {Val : EltTy → Type}

/-- Running two lines one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Operation number `i` of the line writes exactly the reference number `i` of the list, for every `i`. -/
def Writes : List (HloOp τ sig Val) → List (Ref sig .tc) → Prop
  | [], [] => True
  | op :: ops, r :: wr => op.writes = {Proc.devRef (τ := τ) .tc r} ∧ Writes ops wr
  | [], _ :: _ => False
  | _ :: _, [] => False

/-- A reference outside the list keeps its contents through the line. -/
theorem keep : ∀ (ops : List (HloOp τ sig Val)) (wr : List (Ref sig .tc)), Writes ops wr →
    ∀ (V : Valuation τ sig Val) (r : Ref sig .tc), r ∉ wr → after ops V (Proc.devRef .tc r) = V (Proc.devRef .tc r)
  | [], [], _, _, _, _ => rfl
  | op :: ops, y :: wr, h, V, r, hr => by
    rw [after_cons, keep ops wr h.2 _ r (fun hm => hr (List.mem_cons_of_mem _ hm))]
    refine op.result_of_not_mem V ?_
    rw [h.1, Finset.mem_singleton]
    exact devRef_ne_of_ne (fun e => hr (e ▸ List.mem_cons_self))
  | [], _ :: _, h, _, _, _ => h.elim
  | _ :: _, [], h, _, _, _ => h.elim

/-- A suffix of the line writes the same suffix of the list. -/
theorem Writes.drop : ∀ (k : Nat) (ops : List (HloOp τ sig Val)) (wr : List (Ref sig .tc)), Writes ops wr →
    Writes (ops.drop k) (wr.drop k)
  | 0, _, _, h => h
  | _ + 1, [], [], _ => trivial
  | k + 1, _ :: ops, _ :: wr, h => Writes.drop k ops wr h.2
  | _ + 1, [], _ :: _, h => h.elim
  | _ + 1, _ :: _, [], h => h.elim

variable {ops : List (HloOp τ sig Val)} {wr : List (Ref sig .tc)}

/-- A reference that operation `k` and the later ones do not write holds, after the whole line, what it held after the
    first `k` operations. -/
theorem after_before (hw : Writes ops wr) (k : Nat) (V : Valuation τ sig Val) (r : Ref sig .tc) (hr : r ∉ wr.drop k) :
    after ops V (Proc.devRef .tc r) = after (ops.take k) V (Proc.devRef .tc r) := by
  conv_lhs => rw [← List.take_append_drop k ops]
  rw [after_append]
  exact keep _ _ (hw.drop k) _ r hr

/-- A reference that no operation after number `k` writes holds, after the whole line, what operation `k` left there. -/
theorem after_at (hw : Writes ops wr) (k : Nat) (op : HloOp τ sig Val) (hk : ops[k]? = some op) (V : Valuation τ sig Val)
    (r : Ref sig .tc) (hr : r ∉ wr.drop (k + 1)) :
    after ops V (Proc.devRef .tc r) = op.result (after (ops.take k) V) (Proc.devRef .tc r) := by
  have hlt : k < ops.length := (List.getElem?_eq_some_iff.mp hk).1
  have hop : ops[k] = op := (List.getElem?_eq_some_iff.mp hk).2
  conv_lhs => rw [← List.take_append_drop k ops, List.drop_eq_getElem_cons hlt, hop]
  rw [after_append, after_cons]
  exact keep _ _ (hw.drop (k + 1)) _ r hr

section Kinds

variable {x a b c y : Ref sig .tc}

/-- Operation `k` is `y := v`. -/
theorem stage_nullary (hw : Writes ops wr) (k : Nat) {v : y.ty.Contents Val} {hy}
    (hk : ops[k]? = some (nullary (τ := τ) y v hy)) (V : Valuation τ sig Val) (hd : y ∉ wr.drop (k + 1))
    {R : y.ty.Contents Val} (hR : v = R) : after ops V (Proc.devRef .tc y) = R := by
  rw [after_at hw k _ hk V y hd, nullary_result]; exact hR

/-- Operation `k` is `y := f x`. -/
theorem stage_unary (hw : Writes ops wr) (k : Nat) {f : x.ty.Contents Val → y.ty.Contents Val} {hx hy}
    (hk : ops[k]? = some (unary (τ := τ) x y f hx hy)) (V : Valuation τ sig Val)
    (hd : y ∉ wr.drop (k + 1) ∧ x ∉ wr.drop k)
    {vx : x.ty.Contents Val} (ex : after ops V (Proc.devRef .tc x) = vx)
    {R : y.ty.Contents Val} (hR : f vx = R) : after ops V (Proc.devRef .tc y) = R := by
  rw [after_at hw k _ hk V y hd.1, unary_result, ← after_before hw k V x hd.2, ex]; exact hR

/-- Operation `k` is `y := f a b`. -/
theorem stage_binary (hw : Writes ops wr) (k : Nat) {f : a.ty.Contents Val → b.ty.Contents Val → y.ty.Contents Val} {ha hb hy}
    (hk : ops[k]? = some (binary (τ := τ) a b y f ha hb hy)) (V : Valuation τ sig Val)
    (hd : y ∉ wr.drop (k + 1) ∧ a ∉ wr.drop k ∧ b ∉ wr.drop k)
    {va : a.ty.Contents Val} (ea : after ops V (Proc.devRef .tc a) = va)
    {vb : b.ty.Contents Val} (eb : after ops V (Proc.devRef .tc b) = vb)
    {R : y.ty.Contents Val} (hR : f va vb = R) : after ops V (Proc.devRef .tc y) = R := by
  rw [after_at hw k _ hk V y hd.1, binary_result, ← after_before hw k V a hd.2.1, ← after_before hw k V b hd.2.2, ea, eb]
  exact hR

/-- Operation `k` is `y := f c a b`. -/
theorem stage_ternary (hw : Writes ops wr) (k : Nat)
    {f : c.ty.Contents Val → a.ty.Contents Val → b.ty.Contents Val → y.ty.Contents Val} {hc ha hb hy}
    (hk : ops[k]? = some (ternary (τ := τ) c a b y f hc ha hb hy)) (V : Valuation τ sig Val)
    (hd : y ∉ wr.drop (k + 1) ∧ c ∉ wr.drop k ∧ a ∉ wr.drop k ∧ b ∉ wr.drop k)
    {vc : c.ty.Contents Val} (ec : after ops V (Proc.devRef .tc c) = vc)
    {va : a.ty.Contents Val} (ea : after ops V (Proc.devRef .tc a) = va)
    {vb : b.ty.Contents Val} (eb : after ops V (Proc.devRef .tc b) = vb)
    {R : y.ty.Contents Val} (hR : f vc va vb = R) : after ops V (Proc.devRef .tc y) = R := by
  rw [after_at hw k _ hk V y hd.1, ternary_result, ← after_before hw k V c hd.2.1, ← after_before hw k V a hd.2.2.1,
    ← after_before hw k V b hd.2.2.2, ec, ea, eb]
  exact hR

/-- Operation `k` is `y := f c a b` with `f` given through another spelling `g` of the same function (equal at all
    arguments): the value is stated with `g`. -/
theorem stage_ternary' (hw : Writes ops wr) (k : Nat)
    {f : c.ty.Contents Val → a.ty.Contents Val → b.ty.Contents Val → y.ty.Contents Val} {hc ha hb hy}
    (hk : ops[k]? = some (ternary (τ := τ) c a b y f hc ha hb hy)) (V : Valuation τ sig Val)
    (hd : y ∉ wr.drop (k + 1) ∧ c ∉ wr.drop k ∧ a ∉ wr.drop k ∧ b ∉ wr.drop k)
    (g : c.ty.Contents Val → a.ty.Contents Val → b.ty.Contents Val → y.ty.Contents Val)
    (hfg : ∀ w u v, f w u v = g w u v)
    {vc : c.ty.Contents Val} (ec : after ops V (Proc.devRef .tc c) = vc)
    {va : a.ty.Contents Val} (ea : after ops V (Proc.devRef .tc a) = va)
    {vb : b.ty.Contents Val} (eb : after ops V (Proc.devRef .tc b) = vb)
    {R : y.ty.Contents Val} (hR : g vc va vb = R) : after ops V (Proc.devRef .tc y) = R :=
  stage_ternary hw k hk V hd ec ea eb ((hfg vc va vb).trans hR)

end Kinds

end Cert.LibStage
-- ==== Proof.RefStages.lean ====
/-
  Every buffer of the reference program's line of operations, read after the whole line has run.

  The reference's entry function is one line of 137 whole-array operations in single-assignment form: each writes one
  buffer, no buffer is written twice, and an operation reads only argument buffers and buffers written before it.  So
  after the whole line
    * each of the eight argument buffers holds what it held at the start, and
    * the buffer an operation writes holds the operation's function of what its operand buffers hold after the whole line.
  This module lists the written buffers in program order and checks, link by link, that operation number k writes
  exactly buffer number k; it reads the argument buffers; and it states the one reading lemma the general ones lack: a
  change of shape that keeps the row-major order of the elements leaves that recast of the operand's contents.  The
  table of the 137 operations, one equation each, is the next module.
-/
import proofs.«126286_j81570018886156_2_alg».proof.Proof.RefOps
import proofs.«126286_j81570018886156_2_alg».proof.Proof.LibStage

noncomputable section

namespace Cert.ReferenceIdeal.RefStages

open Idealize.ShloMosaic Idealize.ShloMosaic.StableHlo Cert.LibStage

section Reshape

variable {tp : Topo} {sg : RefSig} {Val : EltTy → Type} {ops : List (HloOp tp sg Val)} {wr : List (Ref sg .tc)}
  {x y : Ref sg .tc}

/-- Operation k is a change of shape: y takes x's elements, in row-major order, at y's shape. -/
theorem stage_reshape (hw : Writes ops wr) (k : Nat) {he : x.ty.elt = y.ty.elt} {hn : x.ty.shape.ShapeCasts y.ty.shape} {hx hy}
    (hk : ops[k]? = some (reshape (τ := tp) (Val := Val) x y he hn hx hy)) (V : Valuation tp sg Val)
    (hd : y ∉ wr.drop (k + 1) ∧ x ∉ wr.drop k)
    {vx : x.ty.Contents Val} (ex : after ops V (Proc.devRef .tc x) = vx)
    {R : y.ty.Contents Val} (hR : (fun i => he ▸ shapeCast y.ty.shape vx hn i) = R) :
    after ops V (Proc.devRef .tc y) = R := by
  rw [after_at hw k _ hk V y hd.1, reshape_result, ← after_before hw k V x hd.2, ex]; exact hR

end Reshape

open Cert.ReferenceIdeal Cert.ReferenceIdeal.Gen Idealize.ShloMosaic.TcCoe Idealize.SL.Sem

variable {F : FTy → Type} [FloatOps F]

/-! ## The written buffers, in program order -/

/-- The buffers the 137 operations write, operation by operation. -/
noncomputable def wr : List (Ref sig .tc) :=
  [main_v0, main_v1, main_v2, main_v3, main_v4, main_v5, main_v6, main_v7, main_cst, main_v8,
   main_cst_0, main_v9, main_v10, main_v11, main_v12, main_c, main_v13, main_v14, main_c_1, main_v15,
   main_v16, main_v17, main_v18, main_v19, main_c_2, main_v20, main_v21, main_c_3, main_v22, main_v23,
   main_v24, main_v25, main_v26, main_v27, main_c_4, main_v28, main_v29, main_c_5, main_v30, main_v31,
   main_v32, main_v33, main_v34, main_v35, main_v36, main_v37, main_cst_6, main_v38, main_v39, main_v40,
   main_v41, main_v42, main_v43, main_cst_7, main_call0_cst, main_call0_v0, main_call0_v1, main_call0_v2, main_call0_v3, main_call0_v4,
   main_v44, main_v45, main_v46, main_v47, main_v48, main_cst_8, main_v49,
   main_cst_9, main_v50, main_v51, main_v52, main_v53, main_c_10, main_v54, main_v55, main_c_11, main_v56,
   main_v57, main_v58, main_v59, main_v60, main_c_12, main_v61, main_v62, main_c_13, main_v63, main_v64,
   main_v65, main_v66, main_v67, main_v68, main_c_14, main_v69, main_v70, main_c_15, main_v71, main_v72,
   main_v73, main_v74, main_v75, main_v76, main_v77, main_v78, main_cst_16, main_v79, main_v80, main_v81,
   main_v82, main_v83, main_v84, main_cst_17, main_call1_cst, main_call1_v0, main_call1_v1, main_call1_v2, main_call1_v3, main_call1_v4,
   main_v85, main_v86, main_v87, main_v88, main_v89, main_call2_cst, main_call2_v0, main_call2_cst_0, main_call2_v1, main_call2_v2,
   main_call2_v3, main_call2_v4, main_call2_v5, main_call2_v6, main_call2_cst_1, main_call2_v7, main_call2_v8, main_call2_v9, main_call2_v10, main_v90]

theorem wr_length : wr.length = 137 := rfl

/-- Operation number k of the line writes exactly buffer number k of the list. -/
theorem writes : Writes (RefRun.ops (F := F)) wr := by
  unfold wr
  iterate 137 refine And.intro rfl ?_
  exact trivial

/-! ## The argument buffers are written by no operation -/

theorem kept_arg0 (V : Valuation τ sig (Elt F)) :
    StableHlo.after (RefRun.ops (F := F)) V (Proc.devRef .tc main_arg0) = V (Proc.devRef .tc main_arg0) :=
  keep _ _ writes V main_arg0 (by decide)
theorem kept_arg1 (V : Valuation τ sig (Elt F)) :
    StableHlo.after (RefRun.ops (F := F)) V (Proc.devRef .tc main_arg1) = V (Proc.devRef .tc main_arg1) :=
  keep _ _ writes V main_arg1 (by decide)
theorem kept_arg2 (V : Valuation τ sig (Elt F)) :
    StableHlo.after (RefRun.ops (F := F)) V (Proc.devRef .tc main_arg2) = V (Proc.devRef .tc main_arg2) :=
  keep _ _ writes V main_arg2 (by decide)
theorem kept_arg3 (V : Valuation τ sig (Elt F)) :
    StableHlo.after (RefRun.ops (F := F)) V (Proc.devRef .tc main_arg3) = V (Proc.devRef .tc main_arg3) :=
  keep _ _ writes V main_arg3 (by decide)
theorem kept_arg4 (V : Valuation τ sig (Elt F)) :
    StableHlo.after (RefRun.ops (F := F)) V (Proc.devRef .tc main_arg4) = V (Proc.devRef .tc main_arg4) :=
  keep _ _ writes V main_arg4 (by decide)
theorem kept_arg5 (V : Valuation τ sig (Elt F)) :
    StableHlo.after (RefRun.ops (F := F)) V (Proc.devRef .tc main_arg5) = V (Proc.devRef .tc main_arg5) :=
  keep _ _ writes V main_arg5 (by decide)
theorem kept_arg6 (V : Valuation τ sig (Elt F)) :
    StableHlo.after (RefRun.ops (F := F)) V (Proc.devRef .tc main_arg6) = V (Proc.devRef .tc main_arg6) :=
  keep _ _ writes V main_arg6 (by decide)
theorem kept_arg7 (V : Valuation τ sig (Elt F)) :
    StableHlo.after (RefRun.ops (F := F)) V (Proc.devRef .tc main_arg7) = V (Proc.devRef .tc main_arg7) :=
  keep _ _ writes V main_arg7 (by decide)

end Cert.ReferenceIdeal.RefStages

end
-- ==== Proof.LibSegSum.lean ====
/-
  Scatter-adds along a column of row indices, at the ideal values, read at one entry — for any extents.

  A table x : [N, C] receives updates u : [E, C] at a column [E, 1] of row indices (what a segment sum of E rows into N
  segments lowers to): update element (e, c) is added at (r e, c), where r e is edge e's index read as a signed integer,
  and is dropped when r e is outside [0, N).  So the result at (n, q) is

      x(n, q) + Σ_{e < E} [r e = n] · u(e, q)                                   (scatterRows_apply),

  the bracket meaning: the summand is u(e, q) where the equation holds and 0 elsewhere.  The vector form — x : [N],
  u : [E], the same column of indices — has at n the value x(n) + Σ_{e < E} [r e = n] · u(e)   (scatterVec_apply).

  Both follow from the exact landing condition of one update element (rows_lands_iff, vec_lands_iff): it lands on an
  entry iff its row index, read signed, IS that entry's row and (for rows) its column is that entry's column.  The sums
  are finite sums on the extended reals, which form a commutative monoid under addition, so nothing about finiteness of
  the summands is needed.
  Imports only the library.
-/
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## Rows: a table [N, C], indices [E, 1], updates [E, C] -/

/-- The dimension numbers of a row scatter: the updates' axis 1 is the window axis and goes to the table's axis 1, the
    table's axis 0 is indexed by the one component of the index vector. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)
  (idx : IVec ⟨2, ![E, 1]⟩ w) (u : (⟨2, ![E, C]⟩ : Shape).Idx)

/-- On the row axis the window starts at the edge's index, read signed. -/
theorem rows_start_row :
    (rowsScatter N C E wf).start u idx (0 : Fin 2) = (idx (ix2 (u 0) (0 : Fin 1))).toInt := by
  unfold ScatterDims.start
  rw [dif_pos (show (0 : Fin 2) ∈ (rowsScatter N C E wf).scatterDimsToOperandDims from List.mem_singleton.mpr rfl)]
  refine congrArg (fun k => (idx k).toInt) (funext fun b => Fin.ext ?_)
  match b with
  | ⟨0, _⟩ => rfl
  | ⟨1, _⟩ => rfl

/-- On the column axis the window starts at 0. -/
theorem rows_start_col : (rowsScatter N C E wf).start u idx (1 : Fin 2) = 0 := by
  unfold ScatterDims.start
  exact dif_neg (show ¬ (1 : Fin 2) ∈ ([0] : List (Fin 2)) by decide)

/-- The row axis is inserted: no window coordinate there. -/
theorem rows_window_row : (rowsScatter N C E wf).window u (0 : Fin 2) = 0 := by
  unfold ScatterDims.window
  exact dif_neg (show ¬ (0 : Fin 2) ∈ (rowsScatter N C E wf).sKept by
    simp [ScatterDims.sKept, Shape.kept, List.mem_filter, List.mem_finRange])

/-- On the column axis the window coordinate is the update's own column. -/
theorem rows_window_col : (rowsScatter N C E wf).window u (1 : Fin 2) = (u 1).val := by
  unfold ScatterDims.window
  rw [dif_pos (show (1 : Fin 2) ∈ (rowsScatter N C E wf).sKept by
    simp [ScatterDims.sKept, Shape.kept, List.mem_filter, List.mem_finRange])]
  rfl

/-- An update element lands on the entry i exactly when its edge's index, read signed, is i's row and its column is
    i's column. -/
theorem rows_lands_iff (i : (⟨2, ![N, C]⟩ : Shape).Idx) :
    (rowsScatter N C E wf).resultIdx? u idx = some i
      ↔ (idx (ix2 (u 0) (0 : Fin 1))).toInt = ((i 0).val : Int) ∧ (u 1).val = (i 1).val := by
  have hi0 : (i 0).val < N := idx2_lt0 i
  have hi1 : (i 1).val < C := idx2_lt1 i
  have hu1 : (u 1).val < C := idx2_lt1 u
  unfold ScatterDims.resultIdx?
  split
  · rename_i hall
    have h0 := (hall 0).1
    rw [rows_start_row, rows_window_row] at h0
    constructor
    · intro h
      have e0 : ((rowsScatter N C E wf).start u idx 0 + (rowsScatter N C E wf).window u 0).toNat = (i 0).val :=
        congrArg Fin.val (congrFun (Option.some.inj h) 0)
      have e1 : ((rowsScatter N C E wf).start u idx 1 + (rowsScatter N C E wf).window u 1).toNat = (i 1).val :=
        congrArg Fin.val (congrFun (Option.some.inj h) 1)
      rw [rows_start_row, rows_window_row] at e0
      rw [rows_start_col, rows_window_col] at e1
      constructor <;> omega
    · rintro ⟨hr, hc⟩
      refine congrArg some (funext fun a => Fin.ext ?_)
      match a with
      | ⟨0, _⟩ =>
        show ((rowsScatter N C E wf).start u idx 0 + (rowsScatter N C E wf).window u 0).toNat = (i 0).val
        rw [rows_start_row, rows_window_row]; omega
      | ⟨1, _⟩ =>
        show ((rowsScatter N C E wf).start u idx 1 + (rowsScatter N C E wf).window u 1).toNat = (i 1).val
        rw [rows_start_col, rows_window_col]; omega
  · rename_i hno
    constructor
    · intro h; exact absurd h (by simp)
    · rintro ⟨hr, hc⟩
      refine absurd (fun a => ?_) hno
      match a with
      | ⟨0, _⟩ =>
        show 0 ≤ (rowsScatter N C E wf).start u idx 0 + (rowsScatter N C E wf).window u 0
          ∧ (rowsScatter N C E wf).start u idx 0 + (rowsScatter N C E wf).window u 0 < (N : Int)
        rw [rows_start_row, rows_window_row]; omega
      | ⟨1, _⟩ =>
        show 0 ≤ (rowsScatter N C E wf).start u idx 1 + (rowsScatter N C E wf).window u 1
          ∧ (rowsScatter N C E wf).start u idx 1 + (rowsScatter N C E wf).window u 1 < (C : Int)
        rw [rows_start_col, rows_window_col]; omega

end Rows

/-- A row scatter-add read at (n, q): the table's entry plus the updates (e, q) of the edges e whose index is n. -/
theorem scatterRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (q : Fin C) :
    Host.scatterAdd (F := Ideal) (rowsScatter N C E wf) x idx upd (ix2 n q)
      = x (ix2 n q) + ∑ e : Fin E, if (idx (ix2 e (0 : Fin 1))).toInt = (n.val : Int) then upd (ix2 e q) else 0 := by
  simp only [Host.scatterAdd, Ideal.hostScatterAdd_def, Ideal.hostScatterAdd]
  refine congrArg (x (ix2 n q) + ·) ?_
  rw [Finset.sum_filter, sum_idx2]
  refine Finset.sum_congr rfl fun e _ => ?_
  by_cases hr : (idx (ix2 e (0 : Fin 1))).toInt = (n.val : Int)
  · rw [if_pos hr]
    rw [Finset.sum_eq_single q]
    · exact if_pos ((rows_lands_iff wf idx (ix2 e q) (ix2 n q)).mpr ⟨hr, rfl⟩)
    · intro c _ hc
      exact if_neg fun h => hc (Fin.ext ((rows_lands_iff wf idx (ix2 e c) (ix2 n q)).mp h).2)
    · intro h; exact absurd (Finset.mem_univ q) h
  · rw [if_neg hr]
    exact Finset.sum_eq_zero fun c _ => if_neg fun h => hr ((rows_lands_iff wf idx (ix2 e c) (ix2 n q)).mp h).1

/-! ## A vector [N], indices [E, 1], updates [E] -/

/-- The dimension numbers of a scatter of scalars: no window axis, the vector's one axis indexed by the one component of
    the index vector. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w) (u : (⟨1, ![E]⟩ : Shape).Idx)

/-- The window starts at the edge's index, read signed. -/
theorem vec_start : (vecScatter N E wf).start u idx (0 : Fin 1) = (idx (ix2 (u 0) (0 : Fin 1))).toInt := by
  unfold ScatterDims.start
  rw [dif_pos (show (0 : Fin 1) ∈ (vecScatter N E wf).scatterDimsToOperandDims from List.mem_singleton.mpr rfl)]
  refine congrArg (fun k => (idx k).toInt) (funext fun b => Fin.ext ?_)
  match b with
  | ⟨0, _⟩ => rfl
  | ⟨1, _⟩ => rfl

/-- The one axis is inserted: no window coordinate. -/
theorem vec_window : (vecScatter N E wf).window u (0 : Fin 1) = 0 := by
  unfold ScatterDims.window
  exact dif_neg (show ¬ (0 : Fin 1) ∈ (vecScatter N E wf).sKept by
    simp [ScatterDims.sKept, Shape.kept, List.mem_filter, List.mem_finRange])

/-- An update lands on the entry i exactly when its edge's index, read signed, is i. -/
theorem vec_lands_iff (i : (⟨1, ![N]⟩ : Shape).Idx) :
    (vecScatter N E wf).resultIdx? u idx = some i ↔ (idx (ix2 (u 0) (0 : Fin 1))).toInt = ((i 0).val : Int) := by
  have hi0 : (i 0).val < N := (i 0).isLt
  unfold ScatterDims.resultIdx?
  split
  · rename_i hall
    have h0 := (hall 0).1
    rw [vec_start, vec_window] at h0
    constructor
    · intro h
      have e0 : ((vecScatter N E wf).start u idx 0 + (vecScatter N E wf).window u 0).toNat = (i 0).val :=
        congrArg Fin.val (congrFun (Option.some.inj h) 0)
      rw [vec_start, vec_window] at e0
      omega
    · intro hr
      refine congrArg some (funext fun a => Fin.ext ?_)
      obtain rfl : a = 0 := Subsingleton.elim _ _
      show ((vecScatter N E wf).start u idx 0 + (vecScatter N E wf).window u 0).toNat = (i 0).val
      rw [vec_start, vec_window]; omega
  · rename_i hno
    constructor
    · intro h; exact absurd h (by simp)
    · intro hr
      refine absurd (fun a => ?_) hno
      obtain rfl : a = 0 := Subsingleton.elim _ _
      show 0 ≤ (vecScatter N E wf).start u idx 0 + (vecScatter N E wf).window u 0
        ∧ (vecScatter N E wf).start u idx 0 + (vecScatter N E wf).window u 0 < (N : Int)
      rw [vec_start, vec_window]; omega

end Vec

/-- A sum over the index set of a one-dimensional array is the sum over its coordinate. -/
theorem sum_idx1 {M : Type*} [AddCommMonoid M] {n : Nat} (f : (⟨1, ![n]⟩ : Shape).Idx → M) :
    ∑ i, f i = ∑ a : Fin n, f (ix1 a) := by
  refine (Equiv.sum_comp (⟨fun a => ix1 a, fun i => i 0, fun _ => rfl, fun i => (eq_ix1 i).symm⟩ :
    Fin n ≃ (⟨1, ![n]⟩ : Shape).Idx) f).symm.trans ?_
  rfl

/-- A scatter-add of scalars read at n: the vector's entry plus the updates of the edges whose index is n. -/
theorem scatterVec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatter N E wf) x idx upd (ix1 n)
      = x (ix1 n) + ∑ e : Fin E, if (idx (ix2 e (0 : Fin 1))).toInt = (n.val : Int) then upd (ix1 e) else 0 := by
  simp only [Host.scatterAdd, Ideal.hostScatterAdd_def, Ideal.hostScatterAdd]
  refine congrArg (x (ix1 n) + ·) ?_
  rw [Finset.sum_filter, sum_idx1]
  refine Finset.sum_congr rfl fun e _ => ?_
  by_cases hr : (idx (ix2 e (0 : Fin 1))).toInt = (n.val : Int)
  · rw [if_pos hr]; exact if_pos ((vec_lands_iff wf idx (ix1 e) (ix1 n)).mpr hr)
  · rw [if_neg hr]; exact if_neg fun h => hr ((vec_lands_iff wf idx (ix1 e) (ix1 n)).mp h)

end Cert.LibSegSum

end
-- ==== Proof.LibGraphOps.lean ====
/-
  Rows of a node table gathered along an edge list, and rows scattered back with addition, at the ideal values.

  A table x : [N, J] gathered at a column of E start indices has at (e, j) the entry x(r e, j), where r e is the start
  index of edge e read as a signed integer and clamped into [0, N - 1]; a vector x : [N] gathered the same way has at e
  the entry x(r e).  A scatter-add of updates u : [E, J] into a table [N, J] at a column of E indices adds u(e, j) into
  row d of column j exactly for the edges e whose index, read signed and NOT clamped, is d; an index outside [0, N)
  adds nothing.  So an edge that lands on row d has a non-negative index whose clamp is d itself.

  The law proved here (scatterAdd_rescale): if every update of one scatter is the matching update of another times a
  factor that depends only on the row the edge lands on, and that factor is a non-negative real number, then the first
  scatter's sum is the second's times the factor.  On the extended reals (a + b) * c = a * c + b * c holds for any a, b
  once 0 ≤ c < ⊤, which is what lets the factor leave the sum whatever the summands are.
  Also here: the host's reduction with a maximum body along the columns of a matrix, at a row, as a fold of max over the
  columns (hostRowMax_apply), at any extents.
  Imports only the library.
-/
import Idealize.ShloMosaic.PureOps.Ideal.Laws
import Idealize.ShloMosaic.Lib.ValueIdx
import Idealize.ShloMosaic.Lib.Pipeline.Value

noncomputable section

open scoped BigOperators

namespace Cert.LibGraph

open Idealize.ShloMosaic Idealize.ShloMosaic.ValueIdx

/-! ## A start index read signed and clamped into the table -/

/-- A start index word read as a signed integer and clamped into [0, N - 1]. -/
def clampIdx (N : Nat) (hN : 0 < N) {w : Nat} (v : BitVec w) : Fin N :=
  ⟨min v.toInt.toNat (N - 1), by have := Nat.min_le_right v.toInt.toNat (N - 1); omega⟩

/-- A non-negative index below N is its own clamp. -/
theorem clampIdx_of_landed {N : Nat} (hN : 0 < N) {w : Nat} (v : BitVec w) (d : Fin N) (h : v.toInt = (d.val : Int)) :
    clampIdx N hN v = d := by
  apply Fin.ext
  show min v.toInt.toNat (N - 1) = d.val
  have := d.isLt
  have h' : v.toInt.toNat = d.val := by omega
  rw [h']; omega

/-! ## Gathers of rows -/

/-- The dimension numbers of x[idx] for a table [N, J] and a column [E, 1] of start indices. -/
abbrev rowsGather (N J E : Nat) (wf : GatherDims.WF ⟨2, ![N, J]⟩ ⟨2, ![E, 1]⟩ ⟨2, ![E, J]⟩ [1] [0] [] [0] [] 1 ![1, J]) :
    GatherDims ⟨2, ![N, J]⟩ ⟨2, ![E, 1]⟩ ⟨2, ![E, J]⟩ where
  offsetDims := [1]
  collapsedSliceDims := [0]
  operandBatchingDims := []
  startIndicesBatchingDims := []
  startIndexMap := [0]
  indexVectorDim := 1
  sliceSizes := ![1, J]
  wf := wf

/-- The gathered table at (e, j) is the table at (clamped start index of e, j). -/
theorem gatherRows_apply {α : Type} {N J E w : Nat} (hN : 0 < N)
    (wf : GatherDims.WF ⟨2, ![N, J]⟩ ⟨2, ![E, 1]⟩ ⟨2, ![E, J]⟩ [1] [0] [] [0] [] 1 ![1, J])
    (x : (⟨2, ![N, J]⟩ : Shape).Idx → α) (idx : IVec ⟨2, ![E, 1]⟩ w) (e : Fin E) (j : Fin J) :
    Host.gather (rowsGather N J E wf) x idx (ix2 e j) = x (ix2 (clampIdx N hN (idx (ix2 e (0 : Fin 1)))) j) := by
  -- the row coordinate: the clamped start index, no batch and no offset part
  have h0 : (rowsGather N J E wf).start (ix2 e j) idx (0 : Fin 2) + (rowsGather N J E wf).batchCoord (ix2 e j) (0 : Fin 2)
      + (rowsGather N J E wf).offCoord (ix2 e j) (0 : Fin 2) = (clampIdx N hN (idx (ix2 e (0 : Fin 1)))).val := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowsGather N J E wf).startIndexMap from List.mem_singleton.mpr rfl)]
    have hsi : (rowsGather N J E wf).siIdx (ix2 e j) ⟨List.idxOf (0 : Fin 2) (rowsGather N J E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column coordinate: no start, no batch part, the result's own column
  have h1 : (rowsGather N J E wf).start (ix2 e j) idx (1 : Fin 2) + (rowsGather N J E wf).batchCoord (ix2 e j) (1 : Fin 2)
      + (rowsGather N J E wf).offCoord (ix2 e j) (1 : Fin 2) = j.val := by
    have hs : (rowsGather N J E wf).start (ix2 e j) idx (1 : Fin 2) = 0 := by
      unfold GatherDims.start
      exact dif_neg (show ¬ (1 : Fin 2) ∈ ([0] : List (Fin 2)) by decide)
    have hk : (1 : Fin 2) ∈ (rowsGather N J E wf).sKept :=
      (GatherDims.mem_sKept _ _).mpr ⟨(show ¬ (1 : Fin 2) ∈ ([0] : List (Fin 2)) by decide), List.not_mem_nil⟩
    rw [hs, GatherDims.batchCoord_eq_zero _ _ _ List.not_mem_nil, Nat.add_zero, Nat.zero_add]
    unfold GatherDims.offCoord
    rw [dif_pos hk]
    rfl
  unfold Host.gather
  refine congrArg x (funext fun a => Fin.ext ?_)
  match a with
  | ⟨0, _⟩ => exact h0
  | ⟨1, _⟩ => exact h1

/-- The dimension numbers of x[idx] for a vector [N] and a column [E, 1] of start indices. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gathered vector at e is the vector at the clamped start index of e. -/
theorem gatherVec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampIdx N hN (idx (ix2 e (0 : Fin 1))))) := by
  unfold Host.gather
  refine congrArg x (funext fun a => Fin.ext ?_)
  obtain rfl : a = 0 := Subsingleton.elim _ _
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Scatter-adds of rows -/

/-- The dimension numbers of .at[idx].add(u) for a table [N, J], a column [E, 1] of indices and updates [E, J]. -/
abbrev rowsScatter (N J E : Nat) (wf : ScatterDims.WF ⟨2, ![N, J]⟩ ⟨2, ![E, 1]⟩ ⟨2, ![E, J]⟩ [1] [0] [0] 1) :
    ScatterDims ⟨2, ![N, J]⟩ ⟨2, ![E, 1]⟩ ⟨2, ![E, J]⟩ where
  updateWindowDims := [1]
  insertedWindowDims := [0]
  scatterDimsToOperandDims := [0]
  indexVectorDim := 1
  wf := wf

/-- An update that lands on row d comes from an edge whose index, read signed, is d: it is not negative and its
    value is d. -/
theorem scatterRows_landed {N J E w : Nat} (wf : ScatterDims.WF ⟨2, ![N, J]⟩ ⟨2, ![E, 1]⟩ ⟨2, ![E, J]⟩ [1] [0] [0] 1)
    (idx : IVec ⟨2, ![E, 1]⟩ w) (u : (⟨2, ![E, J]⟩ : Shape).Idx) (i : (⟨2, ![N, J]⟩ : Shape).Idx)
    (h : (rowsScatter N J E wf).resultIdx? u idx = some i) :
    (idx (ix2 (u 0) (0 : Fin 1))).toInt = ((i 0).val : Int) := by
  unfold ScatterDims.resultIdx? at h
  split at h
  · rename_i hall
    have hi := congrFun (Option.some.inj h) 0
    have hv : ((rowsScatter N J E wf).start u idx 0 + (rowsScatter N J E wf).window u 0).toNat = (i 0).val :=
      congrArg Fin.val hi
    have hw : (rowsScatter N J E wf).window u (0 : Fin 2) = 0 := by
      unfold ScatterDims.window
      exact dif_neg (show ¬ (0 : Fin 2) ∈ (rowsScatter N J E wf).sKept by
        simp [ScatterDims.sKept, Shape.kept, List.mem_filter, List.mem_finRange])
    have hst : (rowsScatter N J E wf).start u idx (0 : Fin 2) = (idx (ix2 (u 0) (0 : Fin 1))).toInt := by
      unfold ScatterDims.start
      rw [dif_pos (show (0 : Fin 2) ∈ (rowsScatter N J E wf).scatterDimsToOperandDims from List.mem_singleton.mpr rfl)]
      have hsi : (rowsScatter N J E wf).siIdx u ⟨List.idxOf (0 : Fin 2) (rowsScatter N J E wf).scatterDimsToOperandDims,
          List.idxOf_lt_length_iff.2 (List.mem_singleton.mpr rfl)⟩ = ix2 (u 0) (0 : Fin 1) := by
        funext b; refine Fin.ext ?_
        match b with
        | ⟨0, _⟩ => rfl
        | ⟨1, _⟩ => rfl
      rw [hsi]
      rfl
    have hnn : 0 ≤ (rowsScatter N J E wf).start u idx 0 + (((rowsScatter N J E wf).window u 0 : Nat) : Int) := (hall 0).1
    rw [hw, hst] at hv hnn
    simp only [Nat.cast_zero, add_zero] at hv hnn
    omega
  · exact absurd h (by simp)

/-! ## A factor that leaves a sum -/

/-- A non-negative real factor leaves a finite sum of extended reals. -/
theorem sum_mul_of_nonneg_ne_top {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- THE LAW.  Two scatter-adds into zero tables at the same indices.  If at every update that lands on a row the
    second scatter's update is the first's times a factor c(row), and c(row) is a non-negative real, then at every
    entry the first scatter's sum times c(row) is the second's sum. -/
theorem scatterAdd_rescale {N J E w : Nat} (wf : ScatterDims.WF ⟨2, ![N, J]⟩ ⟨2, ![E, 1]⟩ ⟨2, ![E, J]⟩ [1] [0] [0] 1)
    (z : FVec Ideal ⟨2, ![N, J]⟩ .f32) (hz : ∀ i, z i = 0) (idx : IVec ⟨2, ![E, 1]⟩ w)
    (u₁ u₂ : FVec Ideal ⟨2, ![E, J]⟩ .f32) (c : Fin N → EReal) (h0 : ∀ n, 0 ≤ c n) (ht : ∀ n, c n ≠ ⊤)
    (hu : ∀ (u : (⟨2, ![E, J]⟩ : Shape).Idx) (i : (⟨2, ![N, J]⟩ : Shape).Idx),
      (rowsScatter N J E wf).resultIdx? u idx = some i → u₂ u = u₁ u * c (i 0))
    (i : (⟨2, ![N, J]⟩ : Shape).Idx) :
    Host.scatterAdd (F := Ideal) (rowsScatter N J E wf) z idx u₁ i * c (i 0)
      = Host.scatterAdd (F := Ideal) (rowsScatter N J E wf) z idx u₂ i := by
  simp only [Host.scatterAdd, Ideal.hostScatterAdd_def, Ideal.hostScatterAdd]
  rw [hz i, zero_add, zero_add]
  refine (sum_mul_of_nonneg_ne_top _ _ (c (i 0)) (h0 _) (ht _)).trans ?_
  refine Finset.sum_congr rfl fun u hu' => ?_
  exact (hu u i (Finset.mem_filter.mp hu').2).symm

/-! ## The inverse square root of a degree, guarded -/

/-- where(x > 0, rsqrt x, 0) on the extended reals is a non-negative real number, whatever x is: the inverse root of a
    positive real, 0 at +∞ (rsqrt's value there), and 0 where the guard fails. -/
theorem guardedRsqrt_nonneg_ne_top (x : EReal) :
    0 ≤ Scalar.select (Ideal.cmp .ogt x 0) (Ideal.rsqrt x) (0 : EReal)
      ∧ Scalar.select (Ideal.cmp .ogt x 0) (Ideal.rsqrt x) (0 : EReal) ≠ ⊤ := by
  induction x using EReal.rec with
  | bot => simp [Scalar.select, Ideal.cmp]
  | top =>
    have hr : Ideal.rsqrt (⊤ : EReal) = 0 := rfl
    simp [Scalar.select, Ideal.cmp, hr]
  | coe r =>
    by_cases h : 0 < r
    · have h1 : ¬ r < 0 := not_lt.mpr h.le
      have h2 : r ≠ 0 := h.ne'
      have hc : Ideal.cmp .ogt (r : EReal) 0 = 1#1 := by simp [Ideal.cmp, h]
      have hr : Ideal.rsqrt (r : EReal) = (((Real.sqrt r)⁻¹ : ℝ) : EReal) := by
        show (if r < 0 then (⊥ : EReal) else if r = 0 then ⊤ else (((Real.sqrt r)⁻¹ : ℝ) : EReal)) = _
        rw [if_neg h1, if_neg h2]
      rw [hc, show Scalar.select 1#1 (Ideal.rsqrt (r : EReal)) (0 : EReal) = Ideal.rsqrt (r : EReal) from if_pos rfl, hr]
      exact ⟨by exact_mod_cast inv_nonneg.mpr (Real.sqrt_nonneg r), EReal.coe_ne_top _⟩
    · have hc : Ideal.cmp .ogt (r : EReal) 0 = 0#1 := by simp [Ideal.cmp, h]
      rw [hc, show Scalar.select 0#1 (Ideal.rsqrt (r : EReal)) (0 : EReal) = 0 from if_neg (by decide)]
      exact ⟨le_refl _, EReal.zero_ne_top⟩

/-! ## A negative index wrapped, where the index is not negative -/

/-- where(v < 0, a, v) is v for an index word v that is not negative as a signed integer, whatever a is (in the
    programs a is v + n, the index wrapped from the end). -/
theorem wrapIdx_of_nonneg {w : Nat} (v a z : BitVec w) (hz : z = 0#w) (h : 0 ≤ v.toInt) :
    Scalar.select (IntOp.cmpi .slt v z) a v = v := by
  subst hz
  have : IntOp.cmpi .slt v 0#w = 0#1 := by
    simp only [IntOp.cmpi, BitVec.slt, BitVec.toInt_zero]
    simp [not_lt.mpr h]
  rw [this]
  exact if_neg (by decide)

/-! ## A row's maximum on the host -/

/-- The host's reduction with a maximum body along the columns of an [R, C] matrix, at row p: the fold of max, from the
    initial value, over the columns of that row's entries. -/
theorem hostRowMax_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x _ h' h hu]
  exact congrArg (fun f => Finset.fold max (init (Shape.Idx.first hu)) f (Finset.univ : Finset (Fin C)))
    (funext fun k => congrArg x (funext fun d => Fin.ext (by
      match d with
      | ⟨0, _⟩ => rfl
      | ⟨1, _⟩ => rfl)))

end Cert.LibGraph

end
-- ==== Proof.LibBcast.lean ====
/-
  `broadcast_in_dim` of small shapes read at one entry, at ANY extents and any element type.

  * A column [N, 1] repeated along C columns (operand axes to result axes 0, 1) reads, at (n, c), the column at (n, 0)
    (`bcastCol_apply`); a row [1, C] repeated along N rows reads, at (n, c), the row at (0, c) (`bcastRow_apply`).
  * A vector [C] laid as a row [1, C] (operand axis to result axis 1) reads, at (u, c), the vector at c
    (`bcastVecRow_apply`); a vector [N] laid as a column [N, 1] (operand axis to result axis 0) reads, at (n, u), the
    vector at n (`bcastVecCol_apply`).
  * A scalar broadcast to any shape reads, at any index, the scalar (`bcastScalar_apply`).
  Imports only the library.
-/
import Idealize.ShloMosaic.Lib.ValueIdx
import Idealize.ShloMosaic.Lib.Pipeline.Value

noncomputable section

namespace Cert.LibBcast

open Idealize.ShloMosaic Idealize.ShloMosaic.ValueIdx

variable {α : Type}

/-- A column [N, 1] repeated along C columns reads, at (n, c), the column at (n, 0). -/
theorem bcastCol_apply {N C : Nat} (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) := by
  refine broadcastInDim_apply ![0, 1] h x (ix2 n c) (ix2 n (0 : Fin 1)) fun a => ?_
  match a with
  | ⟨0, _⟩ =>
    show n.val = if N = 1 then 0 else n.val
    split
    · have := n.isLt; omega
    · rfl
  | ⟨1, _⟩ => rfl

/-- A row [1, C] repeated along N rows reads, at (n, c), the row at (0, c). -/
theorem bcastRow_apply {N C : Nat} (x : (⟨2, ![1, C]⟩ : Shape).Idx → α)
    (h : (⟨2, ![1, C]⟩ : Shape).BroadcastsInDim ⟨2, ![N, C]⟩ ![0, 1]) (n : Fin N) (c : Fin C) :
    broadcastInDim ⟨2, ![N, C]⟩ ![0, 1] h x (ix2 n c) = x (ix2 (0 : Fin 1) c) := by
  refine broadcastInDim_apply ![0, 1] h x (ix2 n c) (ix2 (0 : Fin 1) c) fun a => ?_
  match a with
  | ⟨0, _⟩ => rfl
  | ⟨1, _⟩ =>
    show c.val = if C = 1 then 0 else c.val
    split
    · have := c.isLt; omega
    · rfl

/-- A vector [C] laid as a row [1, C] reads, at (u, c), the vector at c. -/
theorem bcastVecRow_apply {C : Nat} (x : (⟨1, ![C]⟩ : Shape).Idx → α)
    (h : (⟨1, ![C]⟩ : Shape).BroadcastsInDim ⟨2, ![1, C]⟩ ![1]) (u : Fin 1) (c : Fin C) :
    broadcastInDim ⟨2, ![1, C]⟩ ![1] h x (ix2 u c) = x (ix1 c) := by
  refine broadcastInDim_apply ![1] h x (ix2 u c) (ix1 c) fun a => ?_
  match a with
  | ⟨0, _⟩ =>
    show c.val = if C = 1 then 0 else c.val
    split
    · have := c.isLt; omega
    · rfl

/-- A vector [N] laid as a column [N, 1] reads, at (n, u), the vector at n. -/
theorem bcastVecCol_apply {N : Nat} (x : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h x (ix2 n u) = x (ix1 n) := by
  refine broadcastInDim_apply ![0] h x (ix2 n u) (ix1 n) fun a => ?_
  match a with
  | ⟨0, _⟩ =>
    show n.val = if N = 1 then 0 else n.val
    split
    · have := n.isLt; omega
    · rfl

/-- A scalar broadcast to any shape reads, at any index, the scalar. -/
theorem bcastScalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun a => a.elim0

end Cert.LibBcast

end
-- ==== Proof.LibGcn.lean ====
/-
  One layer of normalised neighbour aggregation over an edge list, read at one entry — for any number of nodes N,
  channels C and edges M.

  An edge e has a source word s(e) and a target word d(e).  A word is turned into a node by wrapping a negative word
  from the end (w + nW where w < 0) and clamping the signed result into [0, N - 1]: write g(w) for that node.
  With a node table h : [N, C] and a node weight v : [N], every edge sends h(g(s e), ·) · (v(g(s e)) · v(g(d e))) to
  the node whose number its target word IS (read signed, not wrapped, not clamped; a word outside [0, N) sends
  nothing).  So the aggregate at (n, q) is

      0 + Σ_{e < M} [d(e) = n] · h(g(s e), q) · (v(g(s e)) · v(g(d e)))                          (aggG_apply)

  and the number of edges arriving at n, counted with a weight `one` each, is  0 + Σ_{e < M} [d(e) = n] · one
  (degG_apply).  Both are finite sums of extended reals; nothing needs to be finite.
-/
import Idealize.ShloMosaic.PureOps.Ideal.Laws
import Idealize.ShloMosaic.Lib.ValueIdx
import Idealize.ShloMosaic.Lib.Pipeline.Value
import proofs.«126286_j81570018886156_2_alg».proof.Proof.LibSegSum
import proofs.«126286_j81570018886156_2_alg».proof.Proof.LibGraphOps
import proofs.«126286_j81570018886156_2_alg».proof.Proof.LibBcast

noncomputable section

open scoped BigOperators

namespace Cert.Gcn

open Idealize.ShloMosaic Idealize.ShloMosaic.ValueIdx

/-- The shape of a scalar. -/
abbrev S0 : Shape := ⟨0, ![]⟩

section
variable {N C M : Nat} (hN : 0 < N) (nW : BitVec 32)
  (bM : S0.BroadcastsInDim ⟨1, ![M]⟩ ![]) (bN : S0.BroadcastsInDim ⟨1, ![N]⟩ ![]) (bNC : S0.BroadcastsInDim ⟨2, ![N, C]⟩ ![])
  (bM1 : (⟨1, ![M]⟩ : Shape).BroadcastsInDim ⟨2, ![M, 1]⟩ ![0])
  (bMC : (⟨2, ![M, 1]⟩ : Shape).BroadcastsInDim ⟨2, ![M, C]⟩ ![0, 1])
  (wfSv : ScatterDims.WF ⟨1, ![N]⟩ ⟨2, ![M, 1]⟩ ⟨1, ![M]⟩ [] [0] [0] 1)
  (wfGv : GatherDims.WF ⟨1, ![N]⟩ ⟨2, ![M, 1]⟩ ⟨1, ![M]⟩ [] [0] [] [0] [] 1 ![1])
  (wfGr : GatherDims.WF ⟨2, ![N, C]⟩ ⟨2, ![M, 1]⟩ ⟨2, ![M, C]⟩ [1] [0] [] [0] [] 1 ![1, C])
  (wfSr : ScatterDims.WF ⟨2, ![N, C]⟩ ⟨2, ![M, 1]⟩ ⟨2, ![M, C]⟩ [1] [0] [0] 1)

/-- The node a word names: wrapped from the end where negative, then clamped into the table. -/
def node (w : BitVec 32) : Fin N :=
  LibGraph.clampIdx N hN (Scalar.select (IntOp.cmpi .slt w 0#32) (IntOp.addi w nW) w)

/-- The wrap, on a whole vector of words. -/
def wrapv (v : IVec ⟨1, ![M]⟩ 32) : IVec ⟨1, ![M]⟩ 32 :=
  select (cmpi .slt v (broadcastInDim ⟨1, ![M]⟩ ![] bM (constantI S0 32 0#32)))
    (addi v (broadcastInDim ⟨1, ![M]⟩ ![] bM (constantI S0 32 nW))) v

theorem wrapv_apply (v : IVec ⟨1, ![M]⟩ 32) (e : Fin M) :
    wrapv nW bM v (ix1 e) = Scalar.select (IntOp.cmpi .slt (v (ix1 e)) 0#32) (IntOp.addi (v (ix1 e)) nW) (v (ix1 e)) := by
  show Scalar.select (IntOp.cmpi .slt (v (ix1 e)) (broadcastInDim ⟨1, ![M]⟩ ![] bM (constantI S0 32 0#32) (ix1 e)))
      (IntOp.addi (v (ix1 e)) (broadcastInDim ⟨1, ![M]⟩ ![] bM (constantI S0 32 nW) (ix1 e))) (v (ix1 e)) = _
  rw [LibBcast.bcastScalar_apply, LibBcast.bcastScalar_apply]
  rfl

/-- The number of edges arriving at each node, each counted `one`. -/
def degG (one : BitVec 32) (dst : IVec ⟨1, ![M]⟩ 32) : FVec Ideal ⟨1, ![N]⟩ .f32 :=
  Host.scatterAdd (F := Ideal) (LibSegSum.vecScatter N M wfSv)
    (broadcastInDim ⟨1, ![N]⟩ ![] bN (constant (F := Ideal) S0 .f32 0x00000000#32))
    (broadcastInDim ⟨2, ![M, 1]⟩ ![0] bM1 dst)
    (broadcastInDim ⟨1, ![M]⟩ ![] bM (constant (F := Ideal) S0 .f32 one))

theorem degG_apply (one : BitVec 32) (dst : IVec ⟨1, ![M]⟩ 32) (n : Fin N) :
    (degG bM bN bM1 wfSv one dst (ix1 n) : EReal)
      = (0 : EReal) + ∑ e : Fin M, if (dst (ix1 e)).toInt = (n.val : Int) then (Ideal.ofBits .f32 one : EReal) else (0 : EReal) := by
  unfold degG
  rw [LibSegSum.scatterVec_apply, LibBcast.bcastScalar_apply]
  refine congrArg₂ (· + ·) Ideal.ofBits_zero_f32 (Finset.sum_congr rfl fun e _ => ?_)
  rw [LibBcast.bcastVecCol_apply, LibBcast.bcastScalar_apply]
  rfl

/-- What an edge with source word s and target word d sends to channel q of its target. -/
def term (h : FVec Ideal ⟨2, ![N, C]⟩ .f32) (dinv : FVec Ideal ⟨1, ![N]⟩ .f32) (q : Fin C) (s d : BitVec 32) : EReal :=
  (h (ix2 (node hN nW s) q) : EReal) * ((dinv (ix1 (node hN nW s)) : EReal) * (dinv (ix1 (node hN nW d)) : EReal))

/-- The aggregate: every edge's message scattered, with addition, to its target. -/
def aggG (dinv : FVec Ideal ⟨1, ![N]⟩ .f32) (h : FVec Ideal ⟨2, ![N, C]⟩ .f32) (src dst : IVec ⟨1, ![M]⟩ 32) :
    FVec Ideal ⟨2, ![N, C]⟩ .f32 :=
  Host.scatterAdd (F := Ideal) (LibSegSum.rowsScatter N C M wfSr)
    (broadcastInDim ⟨2, ![N, C]⟩ ![] bNC (constant (F := Ideal) S0 .f32 0x00000000#32))
    (broadcastInDim ⟨2, ![M, 1]⟩ ![0] bM1 dst)
    (mulf (Host.gather (LibGraph.rowsGather N C M wfGr) h (broadcastInDim ⟨2, ![M, 1]⟩ ![0] bM1 (wrapv nW bM src)))
      (broadcastInDim ⟨2, ![M, C]⟩ ![0, 1] bMC (broadcastInDim ⟨2, ![M, 1]⟩ ![0] bM1
        (mulf (Host.gather (LibGraph.vecGather N M wfGv) dinv (broadcastInDim ⟨2, ![M, 1]⟩ ![0] bM1 (wrapv nW bM src)))
          (Host.gather (LibGraph.vecGather N M wfGv) dinv (broadcastInDim ⟨2, ![M, 1]⟩ ![0] bM1 (wrapv nW bM dst)))))))

theorem aggG_apply (dinv : FVec Ideal ⟨1, ![N]⟩ .f32) (h : FVec Ideal ⟨2, ![N, C]⟩ .f32) (src dst : IVec ⟨1, ![M]⟩ 32)
    (n : Fin N) (q : Fin C) :
    (aggG nW bM bNC bM1 bMC wfGv wfGr wfSr dinv h src dst (ix2 n q) : EReal)
      = (0 : EReal) + ∑ e : Fin M, if (dst (ix1 e)).toInt = (n.val : Int)
          then term hN nW h dinv q (src (ix1 e)) (dst (ix1 e)) else (0 : EReal) := by
  unfold aggG term
  rw [LibSegSum.scatterRows_apply, LibBcast.bcastScalar_apply]
  refine congrArg₂ (· + ·) Ideal.ofBits_zero_f32 (Finset.sum_congr rfl fun e _ => ?_)
  rw [LibBcast.bcastVecCol_apply]
  refine if_congr Iff.rfl ?_ rfl
  rw [mulf_apply, LibGraph.gatherRows_apply hN, LibBcast.bcastVecCol_apply, LibBcast.bcastCol_apply,
    LibBcast.bcastVecCol_apply, mulf_apply, LibGraph.gatherVec_apply hN, LibGraph.gatherVec_apply hN,
    LibBcast.bcastVecCol_apply, LibBcast.bcastVecCol_apply, wrapv_apply, wrapv_apply]
  rfl

end

end Cert.Gcn

end
-- ==== Proof.RefSpec.lean ====
/-
  The reference program's stages as functions of whole arrays, at the exact instance, and each stage read at one
  entry.

  With s(e), d(e) the source and target words of the 900000 edges (800000 given, then one self-loop per node), g(w) the
  node a word names, deg(n) = 0 + Σ_e [d(e) = n] · 1 and dv = 1/√deg:

    pre(h, w, b)(n, q) = (0 + Σ_e [d(e) = n] · (h·w)(g(s e), q) · (dv(g(s e)) · dv(g(d e)))) + b(q)
    leaky(v)           = where(v ≥ 0, v, c · v)                       (c the slope's f32 word)
    h₁ = leaky(pre(x, W₁, b₁)),  h₂ = leaky(pre(h₁, W₂, b₂)),  z = h₂ · Wl + bl
    out(n, q) = (z(n, q) − M(n)) − log(0 + Σ_j exp(z(n, j) − M(n))),   M(n) = max(−∞, max_j z(n, j)).
-/
import proofs.«126286_j81570018886156_2_alg».proof.Proof.Gen.ReferenceIdeal
import proofs.«126286_j81570018886156_2_alg».proof.Proof.LibGcn
import proofs.«126286_j81570018886156_2_alg».proof.Proof.LibRowOps
import Idealize.ShloMosaic.PureOps.Ideal.Laws
import Idealize.ShloMosaic.Lib.ValueIdx
import Idealize.ShloMosaic.Lib.Pipeline.Value

noncomputable section

open scoped BigOperators

namespace Cert.ReferenceIdeal.Spec

open Cert.ReferenceIdeal Cert.ReferenceIdeal.Facts₀ Idealize.ShloMosaic Idealize.ShloMosaic.ValueIdx Cert.Gcn

/-! ## The stages -/

/-- The source words: row 0 of the edge list, then one word per node. -/
def srcR (e : IVec S2x800000 32) : IVec S900000 32 :=
  concatenate S900000 0
    [⟨S800000, shapeCast S800000 (extractStridedSlice S1x800000 ![0, 0] e slices_S2x800000_S1x800000_0_0) shapeCasts_S1x800000_S800000⟩,
     ⟨S100000, iotaInDim S100000 32 0⟩] concatenates_S800000_S100000_S900000_d0

/-- The target words: row 1 of the edge list, then one word per node. -/
def dstR (e : IVec S2x800000 32) : IVec S900000 32 :=
  concatenate S900000 0
    [⟨S800000, shapeCast S800000 (extractStridedSlice S1x800000 ![1, 0] e slices_S2x800000_S1x800000_1_0) shapeCasts_S1x800000_S800000⟩,
     ⟨S100000, iotaInDim S100000 32 0⟩] concatenates_S800000_S100000_S900000_d0

/-- The degrees: the one-word added at every edge's target word, into zeros. -/
def degR (d : IVec S900000 32) : FVec Ideal S100000 .f32 :=
  degG (N := 100000) (M := 900000) bcast_S_S900000 bcast_S_S100000 bcast_S900000_S900000x1_0
    scatter_S100000_S900000x1_S900000_n_0_0_1_wf 0x3F800000#32 d

/-- The inverse square roots of the degrees. -/
def dvR (d : IVec S900000 32) : FVec Ideal S100000 .f32 := Host.rsqrt (F := Ideal) (degR d)

/-- The normalised aggregation of a 180-column table over the edges. -/
def agg180 (dv : FVec Ideal S100000 .f32) (h : FVec Ideal S100000x180 .f32) (s d : IVec S900000 32) :
    FVec Ideal S100000x180 .f32 :=
  aggG (N := 100000) (C := 180) (M := 900000) 100000#32 bcast_S_S900000 bcast_S_S100000x180 bcast_S900000_S900000x1_0
    bcast_S900000x1_S900000x180_0_1 gather_S100000_S900000x1_S900000_n_0_n_n_0_1_1_wf
    gather_S100000x180_S900000x1_S900000x180_1_0_n_n_0_1_1180_wf scatter_S100000x180_S900000x1_S900000x180_1_0_0_1_wf dv h s d

/-- The normalised aggregation of a 120-column table over the edges. -/
def agg120 (dv : FVec Ideal S100000 .f32) (h : FVec Ideal S100000x120 .f32) (s d : IVec S900000 32) :
    FVec Ideal S100000x120 .f32 :=
  aggG (N := 100000) (C := 120) (M := 900000) 100000#32 bcast_S_S900000 bcast_S_S100000x120 bcast_S900000_S900000x1_0
    bcast_S900000x1_S900000x120_0_1 gather_S100000_S900000x1_S900000_n_0_n_n_0_1_1_wf
    gather_S100000x120_S900000x1_S900000x120_1_0_n_n_0_1_1120_wf scatter_S100000x120_S900000x1_S900000x120_1_0_0_1_wf dv h s d

/-- The leaky rectifier as the reference spells it: where(v ≥ 0, v, c · v). -/
def leakyR {s : Shape} (hb : S_.BroadcastsInDim s (![] : Fin 0 → Fin s.rank)) (v : FVec Ideal s .f32) : FVec Ideal s .f32 :=
  select (cmpf (F := Ideal) .oge v (broadcastInDim s ![] hb (constant (F := Ideal) S_ .f32 0x00000000#32))) v
    (mulf (broadcastInDim s ![] hb (constant (F := Ideal) S_ .f32 0x3C23D70A#32)) v)

/-- The first layer before its rectifier. -/
def pre1 (x : FVec Ideal S100000x128 .f32) (w : FVec Ideal S128x180 .f32) (b : FVec Ideal S180 .f32) (e : IVec S2x800000 32) :
    FVec Ideal S100000x180 .f32 :=
  addf (agg180 (dvR (dstR e)) (Host.dotGeneral (F := Ideal) dot_S100000x128_S128x180_S100000x180_1_0_0_1_n_n none x w) (srcR e) (dstR e))
    (broadcastInDim S100000x180 ![0, 1] bcast_S1x180_S100000x180_0_1 (broadcastInDim S1x180 ![1] bcast_S180_S1x180_1 b))

/-- The second layer before its rectifier. -/
def pre2 (h : FVec Ideal S100000x180 .f32) (w : FVec Ideal S180x120 .f32) (b : FVec Ideal S120 .f32) (e : IVec S2x800000 32) :
    FVec Ideal S100000x120 .f32 :=
  addf (agg120 (dvR (dstR e)) (Host.dotGeneral (F := Ideal) dot_S100000x180_S180x120_S100000x120_1_0_0_1_n_n none h w) (srcR e) (dstR e))
    (broadcastInDim S100000x120 ![0, 1] bcast_S1x120_S100000x120_0_1 (broadcastInDim S1x120 ![1] bcast_S120_S1x120_1 b))

/-- The classifier's scores. -/
def logitsR (h : FVec Ideal S100000x120 .f32) (w : FVec Ideal S120x16 .f32) (b : FVec Ideal S16 .f32) : FVec Ideal S100000x16 .f32 :=
  addf (Host.dotGeneral (F := Ideal) dot_S100000x120_S120x16_S100000x16_1_0_0_1_n_n none h w)
    (broadcastInDim S100000x16 ![0, 1] bcast_S1x16_S100000x16_0_1 (broadcastInDim S1x16 ![1] bcast_S16_S1x16_1 b))

/-- The scores less their row maximum. -/
def shiftR (z : FVec Ideal S100000x16 .f32) : FVec Ideal S100000x16 .f32 :=
  subf z (broadcastInDim S100000x16 ![0, 1] bcast_S100000x1_S100000x16_0_1 (broadcastInDim S100000x1 ![0] bcast_S100000_S100000x1_0
    (maximumf (broadcastInDim S100000 ![] bcast_S_S100000 (constant (F := Ideal) S_ .f32 0xFF800000#32))
      (Host.reduce FloatOps.maximumf z (constant (F := Ideal) S_ .f32 0xFF800000#32) reducesTo_S100000x16_S100000_d1 h_S_))))

/-- The row-wise log-softmax. -/
def lsmR (z : FVec Ideal S100000x16 .f32) : FVec Ideal S100000x16 .f32 :=
  subf (shiftR z) (broadcastInDim S100000x16 ![0, 1] bcast_S100000x1_S100000x16_0_1 (Host.log (F := Ideal)
    (broadcastInDim S100000x1 ![0] bcast_S100000_S100000x1_0
      (Host.reduceAdd (F := Ideal) (Host.exp (F := Ideal) (shiftR z)) (constant (F := Ideal) S_ .f32 0x00000000#32)
        reducesTo_S100000x16_S100000_d1 h_S_))))

/-- The whole reference. -/
def outR (x : FVec Ideal S100000x128 .f32) (w1 : FVec Ideal S128x180 .f32) (b1 : FVec Ideal S180 .f32)
    (w2 : FVec Ideal S180x120 .f32) (b2 : FVec Ideal S120 .f32) (wl : FVec Ideal S120x16 .f32) (bl : FVec Ideal S16 .f32)
    (e : IVec S2x800000 32) : FVec Ideal S100000x16 .f32 :=
  lsmR (logitsR (leakyR bcast_S_S100000x120 (pre2 (leakyR bcast_S_S100000x180 (pre1 x w1 b1 e)) w2 b2 e)) wl bl)

/-! ## The stages at an entry -/

theorem hN : 0 < 100000 := by decide

/-- The rectifier at an entry. -/
theorem leakyR_apply {s : Shape} (hb : S_.BroadcastsInDim s (![] : Fin 0 → Fin s.rank)) (v : FVec Ideal s .f32) (i : s.Idx) :
    leakyR hb v i = Scalar.select (Ideal.cmp .oge (v i) (Ideal.ofBits .f32 0x00000000#32)) (v i)
      (Ideal.ofBits .f32 0x3C23D70A#32 * v i) := by
  unfold leakyR
  rw [select_apply, cmpf_apply, mulf_apply, LibBcast.bcastScalar_apply, LibBcast.bcastScalar_apply]
  rfl

/-- The three matrix products at an entry. -/
theorem dot1_apply (x : FVec Ideal S100000x128 .f32) (w : FVec Ideal S128x180 .f32) (p : Fin 100000) (q : Fin 180) :
    Host.dotGeneral (F := Ideal) dot_S100000x128_S128x180_S100000x180_1_0_0_1_n_n none x w (ix2 p q)
      = ∑ k : Fin 128, x (ix2 p k) * w (ix2 k q) :=
  LibRowOps.dotGeneral_ix2 dot_S100000x128_S128x180_S100000x180_1_0_0_1_n_n rfl rfl rfl rfl
    (fun i c => by
      unfold DotDims.lhsIdx
      rw [dif_neg (show ¬(0 : Fin _) ∈ dot_S100000x128_S128x180_S100000x180_1_0_0_1_n_n.lhsBatch by decide),
        dif_pos (show (0 : Fin _) ∈ dot_S100000x128_S128x180_S100000x180_1_0_0_1_n_n.lhsNonContracting by decide)]
      rfl)
    (fun i c => by
      unfold DotDims.rhsIdx
      rw [dif_neg (show ¬(1 : Fin _) ∈ dot_S100000x128_S128x180_S100000x180_1_0_0_1_n_n.rhsBatch by decide),
        dif_pos (show (1 : Fin _) ∈ dot_S100000x128_S128x180_S100000x180_1_0_0_1_n_n.rhsNonContracting by decide)]
      rfl) none x w p q

theorem dot2_apply (x : FVec Ideal S100000x180 .f32) (w : FVec Ideal S180x120 .f32) (p : Fin 100000) (q : Fin 120) :
    Host.dotGeneral (F := Ideal) dot_S100000x180_S180x120_S100000x120_1_0_0_1_n_n none x w (ix2 p q)
      = ∑ k : Fin 180, x (ix2 p k) * w (ix2 k q) :=
  LibRowOps.dotGeneral_ix2 dot_S100000x180_S180x120_S100000x120_1_0_0_1_n_n rfl rfl rfl rfl
    (fun i c => by
      unfold DotDims.lhsIdx
      rw [dif_neg (show ¬(0 : Fin _) ∈ dot_S100000x180_S180x120_S100000x120_1_0_0_1_n_n.lhsBatch by decide),
        dif_pos (show (0 : Fin _) ∈ dot_S100000x180_S180x120_S100000x120_1_0_0_1_n_n.lhsNonContracting by decide)]
      rfl)
    (fun i c => by
      unfold DotDims.rhsIdx
      rw [dif_neg (show ¬(1 : Fin _) ∈ dot_S100000x180_S180x120_S100000x120_1_0_0_1_n_n.rhsBatch by decide),
        dif_pos (show (1 : Fin _) ∈ dot_S100000x180_S180x120_S100000x120_1_0_0_1_n_n.rhsNonContracting by decide)]
      rfl) none x w p q

theorem dot3_apply (x : FVec Ideal S100000x120 .f32) (w : FVec Ideal S120x16 .f32) (p : Fin 100000) (q : Fin 16) :
    Host.dotGeneral (F := Ideal) dot_S100000x120_S120x16_S100000x16_1_0_0_1_n_n none x w (ix2 p q)
      = ∑ k : Fin 120, x (ix2 p k) * w (ix2 k q) :=
  LibRowOps.dotGeneral_ix2 dot_S100000x120_S120x16_S100000x16_1_0_0_1_n_n rfl rfl rfl rfl
    (fun i c => by
      unfold DotDims.lhsIdx
      rw [dif_neg (show ¬(0 : Fin _) ∈ dot_S100000x120_S120x16_S100000x16_1_0_0_1_n_n.lhsBatch by decide),
        dif_pos (show (0 : Fin _) ∈ dot_S100000x120_S120x16_S100000x16_1_0_0_1_n_n.lhsNonContracting by decide)]
      rfl)
    (fun i c => by
      unfold DotDims.rhsIdx
      rw [dif_neg (show ¬(1 : Fin _) ∈ dot_S100000x120_S120x16_S100000x16_1_0_0_1_n_n.rhsBatch by decide),
        dif_pos (show (1 : Fin _) ∈ dot_S100000x120_S120x16_S100000x16_1_0_0_1_n_n.rhsNonContracting by decide)]
      rfl) none x w p q

/-- The first layer before its rectifier, at an entry. -/
theorem pre1_apply (x : FVec Ideal S100000x128 .f32) (w : FVec Ideal S128x180 .f32) (b : FVec Ideal S180 .f32)
    (e : IVec S2x800000 32) (n : Fin 100000) (q : Fin 180) :
    pre1 x w b e (ix2 n q)
      = ((0 : EReal) + ∑ j : Fin 900000, if (dstR e (ix1 j)).toInt = (n.val : Int)
          then term hN 100000#32 (Host.dotGeneral (F := Ideal) dot_S100000x128_S128x180_S100000x180_1_0_0_1_n_n none x w)
            (dvR (dstR e)) q (srcR e (ix1 j)) (dstR e (ix1 j)) else (0 : EReal)) + b (ix1 q) := by
  unfold pre1 agg180
  rw [addf_apply, aggG_apply hN, LibBcast.bcastRow_apply, LibBcast.bcastVecRow_apply]

/-- The second layer before its rectifier, at an entry. -/
theorem pre2_apply (h : FVec Ideal S100000x180 .f32) (w : FVec Ideal S180x120 .f32) (b : FVec Ideal S120 .f32)
    (e : IVec S2x800000 32) (n : Fin 100000) (q : Fin 120) :
    pre2 h w b e (ix2 n q)
      = ((0 : EReal) + ∑ j : Fin 900000, if (dstR e (ix1 j)).toInt = (n.val : Int)
          then term hN 100000#32 (Host.dotGeneral (F := Ideal) dot_S100000x180_S180x120_S100000x120_1_0_0_1_n_n none h w)
            (dvR (dstR e)) q (srcR e (ix1 j)) (dstR e (ix1 j)) else (0 : EReal)) + b (ix1 q) := by
  unfold pre2 agg120
  rw [addf_apply, aggG_apply hN, LibBcast.bcastRow_apply, LibBcast.bcastVecRow_apply]

/-- The scores at an entry. -/
theorem logitsR_apply (h : FVec Ideal S100000x120 .f32) (w : FVec Ideal S120x16 .f32) (b : FVec Ideal S16 .f32)
    (n : Fin 100000) (j : Fin 16) :
    logitsR h w b (ix2 n j) = (∑ k : Fin 120, h (ix2 n k) * w (ix2 k j)) + b (ix1 j) := by
  unfold logitsR
  rw [addf_apply, dot3_apply, LibBcast.bcastRow_apply, LibBcast.bcastVecRow_apply]

/-- The host's logarithm and exponential, entry by entry. -/
theorem hostLog_apply {s : Shape} (x : FVec Ideal s .f32) (i : s.Idx) : Host.log (F := Ideal) x i = Ideal.log (x i) := rfl
theorem hostExp_apply {s : Shape} (x : FVec Ideal s .f32) (i : s.Idx) : Host.exp (F := Ideal) x i = Ideal.exp (x i) := rfl

/-- The largest of a start value and finitely many values. -/
def rowMax (b : EReal) (y : Fin 16 → EReal) : EReal := (Finset.univ : Finset (Fin 16)).fold max b y

/-- A score less its row maximum, at an entry: the start value −∞-word is below every fold that starts from it. -/
theorem shiftR_apply (z : FVec Ideal S100000x16 .f32) (n : Fin 100000) (q : Fin 16) :
    shiftR z (ix2 n q) = z (ix2 n q) - rowMax (Ideal.ofBits .f32 0xFF800000#32) (fun a => z (ix2 n a)) := by
  unfold shiftR
  rw [subf_apply, LibBcast.bcastCol_apply, LibBcast.bcastVecCol_apply, maximumf_apply, LibBcast.bcastScalar_apply,
    LibGraph.hostRowMax_apply z _ reducesTo_S100000x16_S100000_d1 (by decide) h_S_ n]
  refine congrArg (z (ix2 n q) - ·) ?_
  exact max_eq_right ((Finset.le_fold_max _).mpr (Or.inl le_rfl))

/-- The row-wise log-softmax at an entry. -/
theorem lsmR_apply (z : FVec Ideal S100000x16 .f32) (n : Fin 100000) (q : Fin 16) :
    lsmR z (ix2 n q)
      = (z (ix2 n q) - rowMax (Ideal.ofBits .f32 0xFF800000#32) (fun a => z (ix2 n a)))
        - Ideal.log (∑ j : Fin 16, Ideal.exp (z (ix2 n j) - rowMax (Ideal.ofBits .f32 0xFF800000#32) (fun a => z (ix2 n a)))) := by
  unfold lsmR
  rw [subf_apply, shiftR_apply, LibBcast.bcastCol_apply, hostLog_apply, LibBcast.bcastVecCol_apply,
    LibRowOps.hostRowAdd_apply _ _ reducesTo_S100000x16_S100000_d1 (by decide) h_S_ n]
  have hz : (constant (F := Ideal) S_ .f32 0x00000000#32 (Shape.Idx.first h_S_) : EReal) = 0 := Ideal.ofBits_zero_f32
  rw [hz, zero_add]
  refine congrArg (fun t => _ - Ideal.log t) (Finset.sum_congr rfl fun j _ => ?_)
  rw [hostExp_apply, shiftR_apply]

end Cert.ReferenceIdeal.Spec

end
-- ==== Proof.RefValue.lean ====
/-
  The value the reference program leaves in its result buffer, as one composed function of its eight arguments.

  The program is a line of whole-array operations, each writing one buffer that no other writes.  Reading the line
  backwards from the result, each buffer is the printed function of its operands' buffers; the chains that make up one
  mathematical stage are folded into that stage's name:
    * the source and target words of the edges (the two rows of the edge list, each followed by one word per node),
      which the program forms twice, once per layer;
    * the degrees (a one added at every edge's target) and their inverse square roots, also formed twice;
    * a word vector wrapped from the end where negative, formed three times per layer;
    * a layer's aggregation: the rows of the product gathered at the wrapped source words, weighted by the two gathered
      inverse square roots, and added at the target words; then the bias, then the leaky rectifier (the outlined
      function, with the selection it calls);
    * the classifier's scores, and the row-wise logarithm of the softmax (the outlined function).
  The end is `value`: the result buffer holds `Spec.outR` of the arguments' buffers.
-/
import proofs.«126286_j81570018886156_2_alg».proof.Proof.RefSpec
import proofs.«126286_j81570018886156_2_alg».proof.Proof.RefOps
import proofs.«126286_j81570018886156_2_alg».proof.Proof.RefStages
import proofs.«126286_j81570018886156_2_alg».proof.Proof.RefStageTable

noncomputable section

namespace Cert.ReferenceIdeal.RefValue

open Cert.ReferenceIdeal Cert.ReferenceIdeal.Facts₀ Cert.ReferenceIdeal.RefStages
open Idealize.ShloMosaic Idealize.ShloMosaic.TcCoe Idealize.SL.Sem Idealize.ShloMosaic.StableHlo

variable (V : Valuation τ sig (Elt Ideal))

/-- The buffer of `y` after the program's operations. -/
local notation "A[" y "]" => StableHlo.after (RefRun.ops (F := Ideal)) V (Proc.devRef Proc.tc y)

/-- The arguments' buffers, at their literal shapes. -/
abbrev aX : FVec Ideal S100000x128 .f32 := V (Proc.devRef .tc main_arg0)
abbrev aW1 : FVec Ideal S128x180 .f32 := V (Proc.devRef .tc main_arg1)
abbrev aB1 : FVec Ideal S180 .f32 := V (Proc.devRef .tc main_arg2)
abbrev aW2 : FVec Ideal S180x120 .f32 := V (Proc.devRef .tc main_arg3)
abbrev aB2 : FVec Ideal S120 .f32 := V (Proc.devRef .tc main_arg4)
abbrev aWl : FVec Ideal S120x16 .f32 := V (Proc.devRef .tc main_arg5)
abbrev aBl : FVec Ideal S16 .f32 := V (Proc.devRef .tc main_arg6)
abbrev aE : IVec S2x800000 32 := V (Proc.devRef .tc main_arg7)

/-! ## The edge words -/

/-- Row 0 of the edge list, flattened. -/
theorem R_v1 : (A[main_v1] : S800000.Idx → BitVec 32)
    = shapeCast S800000 (extractStridedSlice S1x800000 ![0, 0] (aE V) slices_S2x800000_S1x800000_0_0) shapeCasts_S1x800000_S800000 := by
  rw [st_main_v1, st_main_v0, kept_arg7]

/-- Row 1 of the edge list, flattened. -/
theorem R_v3 : (A[main_v3] : S800000.Idx → BitVec 32)
    = shapeCast S800000 (extractStridedSlice S1x800000 ![1, 0] (aE V) slices_S2x800000_S1x800000_1_0) shapeCasts_S1x800000_S800000 := by
  rw [st_main_v3, st_main_v2, kept_arg7]

/-- The source words, first layer. -/
theorem R_v6 : (A[main_v6] : S900000.Idx → BitVec 32) = Spec.srcR (aE V) := by
  rw [st_main_v6, st_main_v5, R_v1]; rfl

/-- The target words, first layer. -/
theorem R_v7 : (A[main_v7] : S900000.Idx → BitVec 32) = Spec.dstR (aE V) := by
  rw [st_main_v7, st_main_v5, R_v3]; rfl

/-- The source words, second layer. -/
theorem R_v47 : (A[main_v47] : S900000.Idx → BitVec 32) = Spec.srcR (aE V) := by
  rw [st_main_v47, st_main_v46, R_v1]; rfl

/-- The target words, second layer. -/
theorem R_v48 : (A[main_v48] : S900000.Idx → BitVec 32) = Spec.dstR (aE V) := by
  rw [st_main_v48, st_main_v46, R_v3]; rfl

/-! ## The degrees and their inverse square roots -/

theorem R_v11 : (A[main_v11] : S100000.Idx → EReal) = Spec.degR (Spec.dstR (aE V)) := by
  rw [st_main_v11, st_main_v10, st_main_v9, st_main_cst_0, st_main_v8, st_main_cst, R_v7]; rfl

theorem R_v12 : (A[main_v12] : S100000.Idx → EReal) = Spec.dvR (Spec.dstR (aE V)) := by
  rw [st_main_v12, R_v11]; rfl

theorem R_v52 : (A[main_v52] : S100000.Idx → EReal) = Spec.degR (Spec.dstR (aE V)) := by
  rw [st_main_v52, st_main_v51, st_main_v50, st_main_cst_9, st_main_v49, st_main_cst_8, R_v48]; rfl

theorem R_v53 : (A[main_v53] : S100000.Idx → EReal) = Spec.dvR (Spec.dstR (aE V)) := by
  rw [st_main_v53, R_v52]; rfl

/-! ## The wrapped word vectors -/

theorem R_v17 : (A[main_v17] : S900000.Idx → BitVec 32) = Gcn.wrapv 100000#32 bcast_S_S900000 (Spec.srcR (aE V)) := by
  rw [st_main_v17, st_main_v16, st_main_v15, st_main_c_1, st_main_v14, st_main_v13, st_main_c, R_v6]; rfl

theorem R_v24 : (A[main_v24] : S900000.Idx → BitVec 32) = Gcn.wrapv 100000#32 bcast_S_S900000 (Spec.dstR (aE V)) := by
  rw [st_main_v24, st_main_v23, st_main_v22, st_main_c_3, st_main_v21, st_main_v20, st_main_c_2, R_v7]; rfl

theorem R_v32 : (A[main_v32] : S900000.Idx → BitVec 32) = Gcn.wrapv 100000#32 bcast_S_S900000 (Spec.srcR (aE V)) := by
  rw [st_main_v32, st_main_v31, st_main_v30, st_main_c_5, st_main_v29, st_main_v28, st_main_c_4, R_v6]; rfl

theorem R_v58 : (A[main_v58] : S900000.Idx → BitVec 32) = Gcn.wrapv 100000#32 bcast_S_S900000 (Spec.srcR (aE V)) := by
  rw [st_main_v58, st_main_v57, st_main_v56, st_main_c_11, st_main_v55, st_main_v54, st_main_c_10, R_v47]; rfl

theorem R_v65 : (A[main_v65] : S900000.Idx → BitVec 32) = Gcn.wrapv 100000#32 bcast_S_S900000 (Spec.dstR (aE V)) := by
  rw [st_main_v65, st_main_v64, st_main_v63, st_main_c_13, st_main_v62, st_main_v61, st_main_c_12, R_v48]; rfl

theorem R_v73 : (A[main_v73] : S900000.Idx → BitVec 32) = Gcn.wrapv 100000#32 bcast_S_S900000 (Spec.srcR (aE V)) := by
  rw [st_main_v73, st_main_v72, st_main_v71, st_main_c_15, st_main_v70, st_main_v69, st_main_c_14, R_v47]; rfl

/-! ## The first layer -/

theorem R_v4 : (A[main_v4] : S100000x180.Idx → EReal)
    = Host.dotGeneral (F := Ideal) dot_S100000x128_S128x180_S100000x180_1_0_0_1_n_n none (aX V) (aW1 V) := by
  rw [st_main_v4, kept_arg0, kept_arg1]

theorem R_v40 : (A[main_v40] : S100000x180.Idx → EReal)
    = Spec.agg180 (Spec.dvR (Spec.dstR (aE V)))
        (Host.dotGeneral (F := Ideal) dot_S100000x128_S128x180_S100000x180_1_0_0_1_n_n none (aX V) (aW1 V))
        (Spec.srcR (aE V)) (Spec.dstR (aE V)) := by
  rw [st_main_v40, st_main_v39, st_main_v38, st_main_cst_6, st_main_v37, st_main_v36, st_main_v35, st_main_v34,
    st_main_v33, R_v32, st_main_v27, st_main_v26, st_main_v25, R_v24, st_main_v19, st_main_v18, R_v17, R_v12, R_v7, R_v4]
  rfl

theorem R_v43 : (A[main_v43] : S100000x180.Idx → EReal) = Spec.pre1 (aX V) (aW1 V) (aB1 V) (aE V) := by
  rw [st_main_v43, st_main_v42, st_main_v41, R_v40, kept_arg2]; rfl

theorem R_v44 : (A[main_v44] : S100000x180.Idx → EReal)
    = Spec.leakyR bcast_S_S100000x180 (Spec.pre1 (aX V) (aW1 V) (aB1 V) (aE V)) := by
  rw [st_main_v44, st_main_call0_v4, st_main_call0_v3, st_main_call0_v2, st_main_call0_v1, st_main_call0_v0,
    st_main_call0_cst, st_main_cst_7, R_v43]
  rfl

/-! ## The second layer -/

theorem R_v45 : (A[main_v45] : S100000x120.Idx → EReal)
    = Host.dotGeneral (F := Ideal) dot_S100000x180_S180x120_S100000x120_1_0_0_1_n_n none
        (Spec.leakyR bcast_S_S100000x180 (Spec.pre1 (aX V) (aW1 V) (aB1 V) (aE V))) (aW2 V) := by
  rw [st_main_v45, R_v44, kept_arg3]

theorem R_v81 : (A[main_v81] : S100000x120.Idx → EReal)
    = Spec.agg120 (Spec.dvR (Spec.dstR (aE V)))
        (Host.dotGeneral (F := Ideal) dot_S100000x180_S180x120_S100000x120_1_0_0_1_n_n none
          (Spec.leakyR bcast_S_S100000x180 (Spec.pre1 (aX V) (aW1 V) (aB1 V) (aE V))) (aW2 V))
        (Spec.srcR (aE V)) (Spec.dstR (aE V)) := by
  rw [st_main_v81, st_main_v80, st_main_v79, st_main_cst_16, st_main_v78, st_main_v77, st_main_v76, st_main_v75,
    st_main_v74, R_v73, st_main_v68, st_main_v67, st_main_v66, R_v65, st_main_v60, st_main_v59, R_v58, R_v53, R_v48, R_v45]
  rfl

theorem R_v84 : (A[main_v84] : S100000x120.Idx → EReal)
    = Spec.pre2 (Spec.leakyR bcast_S_S100000x180 (Spec.pre1 (aX V) (aW1 V) (aB1 V) (aE V))) (aW2 V) (aB2 V) (aE V) := by
  rw [st_main_v84, st_main_v83, st_main_v82, R_v81, kept_arg4]; rfl

theorem R_v85 : (A[main_v85] : S100000x120.Idx → EReal)
    = Spec.leakyR bcast_S_S100000x120
        (Spec.pre2 (Spec.leakyR bcast_S_S100000x180 (Spec.pre1 (aX V) (aW1 V) (aB1 V) (aE V))) (aW2 V) (aB2 V) (aE V)) := by
  rw [st_main_v85, st_main_call1_v4, st_main_call1_v3, st_main_call1_v2, st_main_call1_v1, st_main_call1_v0,
    st_main_call1_cst, st_main_cst_17, R_v84]
  rfl

/-! ## The scores and the logarithm of the softmax -/

theorem R_v89 : (A[main_v89] : S100000x16.Idx → EReal)
    = Spec.logitsR (Spec.leakyR bcast_S_S100000x120
        (Spec.pre2 (Spec.leakyR bcast_S_S100000x180 (Spec.pre1 (aX V) (aW1 V) (aB1 V) (aE V))) (aW2 V) (aB2 V) (aE V)))
        (aWl V) (aBl V) := by
  rw [st_main_v89, st_main_v88, st_main_v87, st_main_v86, R_v85, kept_arg5, kept_arg6]; rfl

theorem R_call2_v5 : (A[main_call2_v5] : S100000x16.Idx → EReal)
    = Spec.shiftR (Spec.logitsR (Spec.leakyR bcast_S_S100000x120
        (Spec.pre2 (Spec.leakyR bcast_S_S100000x180 (Spec.pre1 (aX V) (aW1 V) (aB1 V) (aE V))) (aW2 V) (aB2 V) (aE V)))
        (aWl V) (aBl V)) := by
  rw [st_main_call2_v5, st_main_call2_v4, st_main_call2_v3, st_main_call2_v2, st_main_call2_v1, st_main_call2_cst_0,
    st_main_call2_v0, st_main_call2_cst, R_v89]
  rfl

theorem R_v90 : (A[main_v90] : S100000x16.Idx → EReal)
    = Spec.lsmR (Spec.logitsR (Spec.leakyR bcast_S_S100000x120
        (Spec.pre2 (Spec.leakyR bcast_S_S100000x180 (Spec.pre1 (aX V) (aW1 V) (aB1 V) (aE V))) (aW2 V) (aB2 V) (aE V)))
        (aWl V) (aBl V)) := by
  rw [st_main_v90, st_main_call2_v10, st_main_call2_v9, st_main_call2_v8, st_main_call2_v7, st_main_call2_cst_1,
    st_main_call2_v6, R_call2_v5]
  rfl

/-- THE RESULT BUFFER after the program's operations is the reference function of the arguments' buffers. -/
theorem value : (StableHlo.after (RefRun.ops (F := Ideal)) V (Proc.devRef .tc main_v90) : S100000x16.Idx → EReal)
    = Spec.outR (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) :=
  R_v90 V

end Cert.ReferenceIdeal.RefValue

end
-- ==== Proof.LibRealSum.lean ====
/-
  Extended reals that are real numbers: closure facts, for any index types.

  `IsReal x` says the extended real `x` is the coercion of a real number (neither +∞ nor −∞).
  * The coercion from the reals commutes with finite sums (`coe_sum`).
  * Sums, products and finite sums of real extended reals are real (`IsReal.add`, `IsReal.mul`,
    `IsReal.sum`).
  * The fold of `max` from −∞ over real values is −∞ on the empty set and real on any other finite
    set (`fold_max_real`): a row maximum started at −∞ is a real number as soon as the row is not empty.
  These are what is needed to use distributivity, which the extended reals have only away from the
  infinities.  Imports Mathlib only.
-/
import Mathlib.Data.EReal.Operations
import Mathlib.Algebra.BigOperators.Group.Finset.Basic

namespace Cert.LibRealSum

/-- The coercion of reals into the extended reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- An extended real that is the coercion of a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} (t : Finset ι) (f : ι → EReal) (h : ∀ k, IsReal (f k)) : IsReal (∑ k ∈ t, f k) := by
  choose g hg using h
  exact ⟨∑ k ∈ t, g k, by rw [coe_sum]; exact Finset.sum_congr rfl fun k _ => hg k⟩

/-- The fold of `max` from −∞ over real values is −∞ on the empty set and real otherwise. -/
theorem fold_max_real {ι : Type*} (t : Finset ι) (f : ι → EReal) (hf : ∀ k, IsReal (f k)) :
    (t = ∅ ∧ t.fold max ⊥ f = ⊥) ∨ IsReal (t.fold max ⊥ f) := by
  classical
  induction t using Finset.induction_on with
  | empty => exact Or.inl ⟨rfl, Finset.fold_empty⟩
  | insert a t ha ih =>
    refine Or.inr ?_
    rw [Finset.fold_insert ha]
    obtain ⟨r, hr⟩ := hf a
    rcases ih with ⟨_, h0⟩ | ⟨M, hM⟩
    · rw [h0, hr]; exact ⟨r, max_eq_left bot_le⟩
    · rw [hM, hr]; exact ⟨max r M, (EReal.coe_strictMono.monotone.map_max).symm⟩

end Cert.LibRealSum
-- ==== Proof.LibAggLaw.lean ====
/-
  The algebra of one graph-convolution layer followed by a dense map, on the extended reals.

  An aggregate over edges is a masked, weighted sum: entry k of the aggregate at a node is
      0 + Σ_e [P e] · a(e, k) · c(e),
  with P e saying that edge e arrives at the node, a(e, ·) the source row of the edge and c(e) its weight.
  Multiplying the aggregate by a matrix column w(·) on the right,
      Σ_k (0 + Σ_e [P e] · a(e, k) · c(e)) · w(k)   =   0 + Σ_e [P e] · (Σ_k a(e, k) · w(k)) · c(e),
  is an exchange of two finite sums together with distributivity.  On the extended reals distributivity fails at the
  infinities, so the law is stated for entries that are real numbers: it is proved on ℝ and carried over by the
  coercion, which commutes with sums, products and the mask.
  The closure facts below say that such aggregates, a bias added and a clip at zero keep entries real.
-/
import proofs.«126286_j81570018886156_2_alg».proof.Proof.LibRealSum
import Mathlib.Algebra.BigOperators.Ring.Finset
import Mathlib.Algebra.BigOperators.Group.Finset.Sigma
import Mathlib.Tactic.Ring

open scoped BigOperators

namespace Cert.GcnLaw

open Cert.LibRealSum

/-- The law over the reals: exchange the two sums and distribute. -/
theorem real_law {E K : Type} [Fintype E] [Fintype K] (P : E → Prop) [DecidablePred P]
    (a : E → K → ℝ) (c : E → ℝ) (w : K → ℝ) :
    ∑ k, (∑ e, if P e then a e k * c e else 0) * w k = ∑ e, if P e then (∑ k, a e k * w k) * c e else 0 := by
  have h1 : ∀ k, (∑ e, if P e then a e k * c e else 0) * w k = ∑ e, (if P e then a e k * c e else 0) * w k :=
    fun k => Finset.sum_mul _ _ _
  rw [Finset.sum_congr rfl fun k _ => h1 k, Finset.sum_comm]
  refine Finset.sum_congr rfl fun e _ => ?_
  by_cases h : P e
  · simp only [if_pos h]
    rw [Finset.sum_mul]
    exact Finset.sum_congr rfl fun k _ => by ring
  · simp only [if_neg h, zero_mul, Finset.sum_const_zero]

/-- The coercion commutes with a mask. -/
theorem coe_mask (P : Prop) [Decidable P] (x : ℝ) :
    ((if P then x else 0 : ℝ) : EReal) = if P then (x : EReal) else 0 := by
  split_ifs <;> rfl

/-- The law on the extended reals, for real entries. -/
theorem agg_matmul {E K : Type} [Fintype E] [Fintype K] (P : E → Prop) [DecidablePred P]
    (a : E → K → EReal) (c : E → EReal) (w : K → EReal)
    (ha : ∀ e k, IsReal (a e k)) (hc : ∀ e, IsReal (c e)) (hw : ∀ k, IsReal (w k)) :
    ∑ k, ((0 : EReal) + ∑ e, if P e then a e k * c e else 0) * w k
      = (0 : EReal) + ∑ e, if P e then (∑ k, a e k * w k) * c e else 0 := by
  choose ar har using ha
  choose cr hcr using hc
  choose wr hwr using hw
  have hL : ∀ k, ((0 : EReal) + ∑ e, if P e then a e k * c e else 0) * w k
      = (((∑ e, if P e then ar e k * cr e else 0) * wr k : ℝ) : EReal) := by
    intro k
    rw [zero_add, EReal.coe_mul, coe_sum, hwr]
    refine congrArg (· * (wr k : EReal)) (Finset.sum_congr rfl fun e _ => ?_)
    rw [coe_mask, EReal.coe_mul, har, hcr]
  have hR : ∀ e, (if P e then (∑ k, a e k * w k) * c e else (0 : EReal))
      = ((if P e then (∑ k, ar e k * wr k) * cr e else 0 : ℝ) : EReal) := by
    intro e
    rw [coe_mask, EReal.coe_mul, coe_sum, hcr]
    refine if_congr Iff.rfl (congrArg (· * (cr e : EReal)) (Finset.sum_congr rfl fun k _ => ?_)) rfl
    rw [EReal.coe_mul, har, hwr]
  rw [zero_add]
  simp_rw [hL, hR]
  rw [← coe_sum, ← coe_sum, real_law]

/-- A masked sum of real entries, started at zero, is real. -/
theorem isReal_agg {E : Type} [Fintype E] (P : E → Prop) [DecidablePred P] (t : E → EReal) (ht : ∀ e, IsReal (t e)) :
    IsReal ((0 : EReal) + ∑ e, if P e then t e else 0) := by
  refine IsReal.add ⟨0, rfl⟩ (IsReal.sum _ _ fun e => ?_)
  by_cases h : P e
  · rw [if_pos h]; exact ht e
  · rw [if_neg h]; exact ⟨0, rfl⟩

/-- The larger of two real entries is real. -/
theorem isReal_max {x y : EReal} (hx : IsReal x) (hy : IsReal y) : IsReal (max x y) := by
  rcases le_total x y with h | h
  · rw [max_eq_right h]; exact hy
  · rw [max_eq_left h]; exact hx

/-- An entry that is non-negative and not +∞ is real. -/
theorem isReal_of_nonneg_ne_top {x : EReal} (h0 : 0 ≤ x) (ht : x ≠ ⊤) : IsReal x := by
  induction x using EReal.rec with
  | bot => exact absurd h0 (by simp)
  | coe r => exact ⟨r, rfl⟩
  | top => exact absurd rfl ht

end Cert.GcnLaw
-- ==== Proof.LibDenseStages.lean ====
/-
  The two dense stages of a graph convolution with its normalisation moved to the nodes, as functions of whole arrays
  on the extended reals, for any extents.

  * scaledProd x w d : the matrix product x · w with row p multiplied by the column entry d(p, 0):
        (p, q) ↦ (Σ_{k < K} x(p, k) · w(k, q)) · d(p, 0).
  * biasRelu s d b : every row p of s multiplied by d(p, 0), the row vector b added, and the result clipped below at
    the zero word's value:   (p, q) ↦ max (s(p, q) · d(p, 0) + b(0, q)) 0₃₂.
  Both are written through `ofCoords`, a function of the two coordinates read as a function of the index.
  Imports only the library.
-/
import Idealize.ShloMosaic.PureOps.Ideal.Laws
import Idealize.ShloMosaic.Lib.ValueIdx
import Idealize.ShloMosaic.Lib.Pipeline.Value

noncomputable section

open scoped BigOperators

namespace Cert.GcnSpec

open Idealize.ShloMosaic Idealize.ShloMosaic.ValueIdx

/-- A function of a row and a column, as a function of the index of a two-dimensional array. -/
def ofCoords {α : Type} {n0 n1 : Nat} (g : Fin n0 → Fin n1 → α) : (⟨2, ![n0, n1]⟩ : Shape).Idx → α :=
  fun i => g (i 0) (i 1)

theorem ofCoords_ix2 {α : Type} {n0 n1 : Nat} (g : Fin n0 → Fin n1 → α) (p : Fin n0) (q : Fin n1) :
    ofCoords g (ix2 p q) = g p q := rfl

/-- The value of the zero word of the 32-bit format. -/
abbrev z32 : EReal := Ideal.ofBits .f32 0x00000000#32

/-- The matrix product with every row multiplied by that row's entry of a column. -/
def scaledProd {N K C : Nat} (x : (⟨2, ![N, K]⟩ : Shape).Idx → EReal) (w : (⟨2, ![K, C]⟩ : Shape).Idx → EReal)
    (d : (⟨2, ![N, 1]⟩ : Shape).Idx → EReal) : (⟨2, ![N, C]⟩ : Shape).Idx → EReal :=
  ofCoords fun p q => (∑ k : Fin K, x (ix2 p k) * w (ix2 k q)) * d (ix2 p (0 : Fin 1))

/-- Rows multiplied by a column's entries, a row vector added, clipped below at zero. -/
def biasRelu {N C : Nat} (s : (⟨2, ![N, C]⟩ : Shape).Idx → EReal) (d : (⟨2, ![N, 1]⟩ : Shape).Idx → EReal)
    (b : (⟨2, ![1, C]⟩ : Shape).Idx → EReal) : (⟨2, ![N, C]⟩ : Shape).Idx → EReal :=
  ofCoords fun p q => max (s (ix2 p q) * d (ix2 p (0 : Fin 1)) + b (ix2 (0 : Fin 1) q)) z32

theorem scaledProd_ix2 {N K C : Nat} (x : (⟨2, ![N, K]⟩ : Shape).Idx → EReal) (w : (⟨2, ![K, C]⟩ : Shape).Idx → EReal)
    (d : (⟨2, ![N, 1]⟩ : Shape).Idx → EReal) (p : Fin N) (q : Fin C) :
    scaledProd x w d (ix2 p q) = (∑ k : Fin K, x (ix2 p k) * w (ix2 k q)) * d (ix2 p (0 : Fin 1)) := rfl

theorem biasRelu_ix2 {N C : Nat} (s : (⟨2, ![N, C]⟩ : Shape).Idx → EReal) (d : (⟨2, ![N, 1]⟩ : Shape).Idx → EReal)
    (b : (⟨2, ![1, C]⟩ : Shape).Idx → EReal) (p : Fin N) (q : Fin C) :
    biasRelu s d b (ix2 p q) = max (s (ix2 p q) * d (ix2 p (0 : Fin 1)) + b (ix2 (0 : Fin 1) q)) z32 := rfl

end Cert.GcnSpec

end
-- ==== Proof.LibF32Pos.lean ====
/-
  A positive normal f32 bit pattern denotes a positive real number.

  A 32-bit pattern whose sign bit is 0 and whose 8-bit exponent field E is neither all zeros nor all ones denotes,
  on the extended reals, the positive real  (2^23 + T) · 2^(E − 127 − 23)  with T its 23-bit fraction field
  (`ofBits_f32_pos`).  The three hypotheses are decided by evaluation for a literal word:
      ofBits_f32_pos 0x3E4CCCCD#32 (by decide) (by decide) (by decide).
  This is what a proof needs of a literal that occurs identically in both programs: that it is a real number of a known
  sign, never its value.  Imports only the library.
-/
import Idealize.ShloMosaic.PureOps.Ideal

noncomputable section

namespace Cert.LibF32Pos

open Idealize.ShloMosaic

/-- A normal, positive f32 pattern denotes a positive real. -/
theorem ofBits_f32_pos (w : BitVec 32) (hs : (w.extractLsb' (8 + 23) 1 == 1#1) = false)
    (he : ¬ (w.extractLsb' 23 8).toNat = 2 ^ 8 - 1) (he0 : ¬ (w.extractLsb' 23 8).toNat = 0) :
    ∃ a : ℝ, 0 < a ∧ Ideal.ofBits .f32 w = (a : EReal) := by
  refine ⟨(1 : ℝ) * ((2 ^ 23 + (w.extractLsb' 0 23).toNat : ℕ) : ℝ)
    * (2 : ℝ) ^ (((w.extractLsb' 23 8).toNat : ℤ) - (2 ^ (8 - 1) - 1) - ((23 : ℕ) : ℤ)), by positivity, ?_⟩
  show Ideal.ieee 8 23 w = _
  unfold Ideal.ieee
  simp only [hs, if_neg he, if_neg he0, Bool.false_eq_true, if_false]

end Cert.LibF32Pos

end
-- ==== Proof.LibGcnFactored.lean ====
/-
  One graph-convolution layer computed two ways, as whole arrays on the extended reals, for any extents.

  Nodes 0 … N − 1 carry feature rows x(p, ·) of length K; an edge list of M edges gives source words src(e) and target
  words dst(e).  The degree deg(n) counts, with weight 1₃₂ each, the edges whose target word IS n, and

      dis(n) = where(deg(n) > 0, rsqrt(max(deg(n), 1₃₂)), 0₃₂).

  A word names the node g(w): wrapped from the end where negative, then clamped into [0, N − 1].  With
  xw(p, q) = Σ_k x(p, k) · w(k, q):

    * refOut(n, q)    = max ( (0 + Σ_e [dst e = n] · xw(g(src e), q) · (dis(g(src e)) · dis(g(dst e)))) + b(q) ) 0₃₂
      — every edge's message is scaled by both end points' factors, then summed at its target;
    * kernelOut(n, q) = max ( (0 + Σ_e [dst e = n] · (xw(g(src e), q) · dis(g(src e)))) · dis(n) + b(q) ) 0₃₂
      — the rows are scaled once before they are gathered and once after they are summed.

  They agree (`kernelOut_eq_refOut`): an edge that lands on n has the non-negative word n itself as its target, so
  g(dst e) = n; and dis(n) is a non-negative real number whatever the degree is (`dinv_nonneg_ne_top`: max(·, 1₃₂) is
  positive, so its inverse root is a non-negative real, or 0 at +∞), which is exactly what lets the factor dis(n)
  enter a finite sum of extended reals term by term.  Nothing about x, w or b needs to be finite.
  Also here: `edgeRow`, one row of a [2, E] edge list flattened with the N self-loop words appended, and `dinv`, the
  guarded inverse square root of the degrees, with `dinv_nonneg_ne_top`.
  Imports the modules LibDenseStages, LibGcn (and through it LibSegSum, LibGraphOps, LibBcast), LibRowOps, LibF32Pos.
-/
import proofs.«126286_j81570018886156_2_alg».proof.Proof.LibDenseStages
import proofs.«126286_j81570018886156_2_alg».proof.Proof.LibGcn
import proofs.«126286_j81570018886156_2_alg».proof.Proof.LibRowOps
import proofs.«126286_j81570018886156_2_alg».proof.Proof.LibF32Pos
import Idealize.ShloMosaic.PureOps.Ideal.Laws
import Idealize.ShloMosaic.Lib.ValueIdx
import Idealize.ShloMosaic.Lib.Pipeline.Value

noncomputable section

open scoped BigOperators

namespace Cert.GcnLaw

open Idealize.ShloMosaic Idealize.ShloMosaic.ValueIdx Cert.GcnSpec Cert.Gcn

/-- The inverse root of a positive extended real is a non-negative real number (0 at +∞). -/
theorem rsqrt_nonneg_ne_top (y : EReal) (hy : 0 < y) : 0 ≤ Ideal.rsqrt y ∧ Ideal.rsqrt y ≠ ⊤ := by
  induction y using EReal.rec with
  | bot => exact absurd hy (by simp)
  | top => exact ⟨le_of_eq Ideal.rsqrt_top.symm, by rw [Ideal.rsqrt_top]; exact EReal.zero_ne_top⟩
  | coe r =>
    have hr : 0 < r := by exact_mod_cast hy
    have h1 : ¬ r < 0 := not_lt.mpr hr.le
    have h2 : r ≠ 0 := hr.ne'
    rw [Ideal.rsqrt_coe, if_neg h1, if_neg h2]
    exact ⟨by exact_mod_cast inv_nonneg.mpr (Real.sqrt_nonneg r), EReal.coe_ne_top _⟩

/-- where(d > 0, rsqrt(max(d, 1₃₂)), 0₃₂) is a non-negative real number for every extended real d. -/
theorem guarded_nonneg_ne_top (d : EReal) :
    0 ≤ Scalar.select (Ideal.cmp .ogt d z32) (Ideal.rsqrt (max d (Ideal.ofBits .f32 0x3F800000#32))) z32
      ∧ Scalar.select (Ideal.cmp .ogt d z32) (Ideal.rsqrt (max d (Ideal.ofBits .f32 0x3F800000#32))) z32 ≠ ⊤ := by
  obtain ⟨a, ha, hone⟩ := LibF32Pos.ofBits_f32_pos 0x3F800000#32 (by decide) (by decide) (by decide)
  have hpos : (0 : EReal) < max d (Ideal.ofBits .f32 0x3F800000#32) :=
    lt_of_lt_of_le (by rw [hone]; exact_mod_cast ha) (le_max_right _ _)
  have hz : z32 = 0 := Ideal.ofBits_zero_f32
  unfold Scalar.select
  split
  · exact rsqrt_nonneg_ne_top _ hpos
  · rw [hz]; exact ⟨le_refl _, EReal.zero_ne_top⟩

/-- One row of a [2, E] edge list, flattened, with the N self-loop words 0 … N − 1 appended. -/
def edgeRow {E N M : Nat} (off : Fin 2 → Nat) (hsl : (⟨2, ![2, E]⟩ : Shape).Slices off ⟨2, ![1, E]⟩)
    (hc : (⟨2, ![1, E]⟩ : Shape).ShapeCasts ⟨1, ![E]⟩)
    (hcat : Shape.Concatenates [(⟨1, ![E]⟩ : Shape), ⟨1, ![N]⟩] ⟨1, ![M]⟩ 0)
    (e : IVec ⟨2, ![2, E]⟩ 32) : IVec ⟨1, ![M]⟩ 32 :=
  concatenate ⟨1, ![M]⟩ 0 [⟨⟨1, ![E]⟩, shapeCast ⟨1, ![E]⟩ (extractStridedSlice ⟨2, ![1, E]⟩ off e hsl) hc⟩,
    ⟨⟨1, ![N]⟩, iotaInDim ⟨1, ![N]⟩ 32 0⟩] hcat

section
variable {N C M K : Nat} (hN : 0 < N) (nW : BitVec 32)
  (bM : S0.BroadcastsInDim ⟨1, ![M]⟩ ![]) (bN : S0.BroadcastsInDim ⟨1, ![N]⟩ ![]) (bNC : S0.BroadcastsInDim ⟨2, ![N, C]⟩ ![])
  (bM1 : (⟨1, ![M]⟩ : Shape).BroadcastsInDim ⟨2, ![M, 1]⟩ ![0])
  (bMC : (⟨2, ![M, 1]⟩ : Shape).BroadcastsInDim ⟨2, ![M, C]⟩ ![0, 1])
  (wfSv : ScatterDims.WF ⟨1, ![N]⟩ ⟨2, ![M, 1]⟩ ⟨1, ![M]⟩ [] [0] [0] 1)
  (wfGv : GatherDims.WF ⟨1, ![N]⟩ ⟨2, ![M, 1]⟩ ⟨1, ![M]⟩ [] [0] [] [0] [] 1 ![1])
  (wfGr : GatherDims.WF ⟨2, ![N, C]⟩ ⟨2, ![M, 1]⟩ ⟨2, ![M, C]⟩ [1] [0] [] [0] [] 1 ![1, C])
  (wfSr : ScatterDims.WF ⟨2, ![N, C]⟩ ⟨2, ![M, 1]⟩ ⟨2, ![M, C]⟩ [1] [0] [0] 1)
  (cN1 : (⟨1, ![N]⟩ : Shape).ShapeCasts ⟨2, ![N, 1]⟩)
  (cC : (⟨1, ![C]⟩ : Shape).ShapeCasts ⟨2, ![1, C]⟩)
  (bC1 : (⟨1, ![C]⟩ : Shape).BroadcastsInDim ⟨2, ![1, C]⟩ ![1])
  (b1C : (⟨2, ![1, C]⟩ : Shape).BroadcastsInDim ⟨2, ![N, C]⟩ ![0, 1])
  (D : DotDims ⟨2, ![N, K]⟩ ⟨2, ![K, C]⟩ ⟨2, ![N, C]⟩)
  (hlc : D.lhsContracting = [1]) (hrc : D.rhsContracting = [0]) (hr : D.contr.rank = 1)
  (hs : D.contr.size ⟨0, by omega⟩ = K)
  (hl0 : ∀ (i : (⟨2, ![N, C]⟩ : Shape).Idx) (c : D.contr.Idx), (D.lhsIdx i c 0).val = (i 0).val)
  (hr1 : ∀ (i : (⟨2, ![N, C]⟩ : Shape).Idx) (c : D.contr.Idx), (D.rhsIdx i c 1).val = (i 1).val)

/-- The guarded inverse square root of the degree, node by node. -/
def dinv (dst : IVec ⟨1, ![M]⟩ 32) : FVec Ideal ⟨1, ![N]⟩ .f32 :=
  select (cmpf (F := Ideal) .ogt (degG bM bN bM1 wfSv 0x3F800000#32 dst)
      (broadcastInDim ⟨1, ![N]⟩ ![] bN (constant (F := Ideal) S0 .f32 0x00000000#32)))
    (Host.rsqrt (F := Ideal) (maximumf (degG bM bN bM1 wfSv 0x3F800000#32 dst)
      (broadcastInDim ⟨1, ![N]⟩ ![] bN (constant (F := Ideal) S0 .f32 0x3F800000#32))))
    (broadcastInDim ⟨1, ![N]⟩ ![] bN (constant (F := Ideal) S0 .f32 0x00000000#32))

theorem dinv_nonneg_ne_top (dst : IVec ⟨1, ![M]⟩ 32) (n : Fin N) :
    0 ≤ (dinv bM bN bM1 wfSv dst (ix1 n) : EReal) ∧ (dinv bM bN bM1 wfSv dst (ix1 n) : EReal) ≠ ⊤ := by
  have h := guarded_nonneg_ne_top (degG bM bN bM1 wfSv 0x3F800000#32 dst (ix1 n))
  have e : (dinv bM bN bM1 wfSv dst (ix1 n) : EReal)
      = Scalar.select (Ideal.cmp .ogt (degG bM bN bM1 wfSv 0x3F800000#32 dst (ix1 n)) z32)
          (Ideal.rsqrt (max (degG bM bN bM1 wfSv 0x3F800000#32 dst (ix1 n)) (Ideal.ofBits .f32 0x3F800000#32))) z32 := by
    unfold dinv
    rw [select_apply, cmpf_apply, LibBcast.bcastScalar_apply]
    rfl
  rw [e]; exact h

/-- The layer with the rows scaled before the gather and after the sum. -/
def kernelOut (x : FVec Ideal ⟨2, ![N, K]⟩ .f32) (w : FVec Ideal ⟨2, ![K, C]⟩ .f32) (b : FVec Ideal ⟨1, ![C]⟩ .f32)
    (src dst : IVec ⟨1, ![M]⟩ 32) : FVec Ideal ⟨2, ![N, C]⟩ .f32 :=
  biasRelu
    (Host.scatterAdd (F := Ideal) (LibSegSum.rowsScatter N C M wfSr)
      (broadcastInDim ⟨2, ![N, C]⟩ ![] bNC (constant (F := Ideal) S0 .f32 0x00000000#32))
      (broadcastInDim ⟨2, ![M, 1]⟩ ![0] bM1 dst)
      (Host.gather (LibGraph.rowsGather N C M wfGr)
        (scaledProd x w (shapeCast ⟨2, ![N, 1]⟩ (dinv bM bN bM1 wfSv dst) cN1))
        (broadcastInDim ⟨2, ![M, 1]⟩ ![0] bM1 (wrapv nW bM src))))
    (shapeCast ⟨2, ![N, 1]⟩ (dinv bM bN bM1 wfSv dst) cN1)
    (shapeCast ⟨2, ![1, C]⟩ b cC)

/-- The layer with every edge's message scaled by both of its end points' factors. -/
def refOut (x : FVec Ideal ⟨2, ![N, K]⟩ .f32) (w : FVec Ideal ⟨2, ![K, C]⟩ .f32) (b : FVec Ideal ⟨1, ![C]⟩ .f32)
    (src dst : IVec ⟨1, ![M]⟩ 32) : FVec Ideal ⟨2, ![N, C]⟩ .f32 :=
  maximumf
    (addf (aggG nW bM bNC bM1 bMC wfGv wfGr wfSr (dinv bM bN bM1 wfSv dst) (Host.dotGeneral (F := Ideal) D none x w) src dst)
      (broadcastInDim ⟨2, ![N, C]⟩ ![0, 1] b1C (broadcastInDim ⟨2, ![1, C]⟩ ![1] bC1 b)))
    (broadcastInDim ⟨2, ![N, C]⟩ ![] bNC (constant (F := Ideal) S0 .f32 0x00000000#32))

/-- A vector [C] viewed as a row [1, C] reads, at (u, q), the vector at q. -/
theorem rowCast_apply {α : Type} (v : (⟨1, ![C]⟩ : Shape).Idx → α) (u : Fin 1) (q : Fin C) :
    shapeCast ⟨2, ![1, C]⟩ v cC (ix2 u q) = v (ix1 q) :=
  shapeCast_apply v cC _ _ (by
    have hu : u.val = 0 := by omega
    rw [Shape.rowMajor_val_two, Shape.rowMajor_val_one]
    show q.val = u.val * C + q.val
    rw [hu, Nat.zero_mul, Nat.zero_add])

include hN hlc hrc hr hs hl0 hr1 in
theorem kernelOut_eq_refOut (x : FVec Ideal ⟨2, ![N, K]⟩ .f32) (w : FVec Ideal ⟨2, ![K, C]⟩ .f32)
    (b : FVec Ideal ⟨1, ![C]⟩ .f32) (src dst : IVec ⟨1, ![M]⟩ 32) :
    kernelOut nW bM bN bNC bM1 wfSv wfGr wfSr cN1 cC x w b src dst
      = refOut nW bM bN bNC bM1 bMC wfSv wfGv wfGr wfSr bC1 b1C D x w b src dst := by
  funext i
  obtain ⟨n, q, rfl⟩ : ∃ (n : Fin N) (q : Fin C), i = ix2 n q := ⟨i 0, i 1, eq_ix2 i⟩
  unfold kernelOut refOut
  rw [biasRelu_ix2, maximumf_apply, addf_apply, aggG_apply hN, LibSegSum.scatterRows_apply,
    LibBcast.bcastScalar_apply, LibBcast.bcastRow_apply, LibBcast.bcastVecRow_apply,
    LibRowOps.shapeCast_a_a1_apply, rowCast_apply]
  have hd := dinv_nonneg_ne_top bM bN bM1 wfSv dst n
  refine congrArg₂ max (congrArg (· + b (ix1 q)) ?_) rfl
  have hc0 : (constant (F := Ideal) S0 .f32 0x00000000#32 ix0 : EReal) = 0 := Ideal.ofBits_zero_f32
  rw [hc0, zero_add, zero_add, LibGraph.sum_mul_of_nonneg_ne_top _ _ _ hd.1 hd.2]
  refine Finset.sum_congr rfl fun e _ => ?_
  rw [LibBcast.bcastVecCol_apply]
  by_cases h : (dst (ix1 e)).toInt = (n.val : Int)
  · rw [if_pos h, if_pos h, LibGraph.gatherRows_apply hN, LibBcast.bcastVecCol_apply, wrapv_apply, scaledProd_ix2,
      LibRowOps.shapeCast_a_a1_apply]
    unfold term
    rw [LibRowOps.dotGeneral_ix2 D hlc hrc hr hs hl0 hr1]
    have hnode : node hN nW (dst (ix1 e)) = n := by
      unfold node
      rw [LibGraph.wrapIdx_of_nonneg _ _ _ rfl (by omega)]
      exact LibGraph.clampIdx_of_landed hN _ n h
    rw [hnode, mul_assoc]
    rfl
  · rw [if_neg h, if_neg h, zero_mul]

end

end Cert.GcnLaw

end
-- ==== Proof.LibLayerLaws.lean ====
/-
  The algebra that joins the two arrangements of a graph-convolution layer, on the extended reals.

  An edge e of a list of M edges has a source word and a target word; it lands on node n when its target word, read
  signed, IS n, and the node its source names is g(e) (wrapped from the end where negative, then clamped).  With a node
  weight d(·) that is a non-negative real number:

    * SCALE AFTER THE SUM.  (0 + Σ_e [e lands on n] · t(e)) · d(n) = 0 + Σ_e [e lands on n] · (t(e) · d(n)): a
      non-negative finite factor enters a finite sum of extended reals term by term.
    * AGGREGATE BEFORE THE PRODUCT.  For real tables x, w and real weights,
        Σ_k ((0 + Σ_e [lands] · (x(g e, k) · d(g e))) · d(n)) · w(k, q)
          = 0 + Σ_e [lands] · (Σ_k x(g e, k) · w(k, q)) · (d(g e) · d(n)):
      the factor d(n) enters the inner sum, the two sums are exchanged and the product distributed (true on the reals,
      false at the infinities).
    * An edge that lands on n has the non-negative word n as its target, so the node its TARGET names is n itself.
    * The two spellings of the leaky rectifier agree everywhere: where(v > 0, v, v · c) = where(v ≥ 0, v, c · v); at
      v = 0 both are 0.
    * A degree that counts a positive real for every arriving edge, with at least one edge arriving, is positive; its
      inverse square root is then a non-negative real number.
  Stated over abstract finite index types and any extents.  Imports the modules LibGcn, LibAggLaw (with LibRealSum),
  LibGcnFactored and LibF32Pos.
-/
import proofs.«126286_j81570018886156_2_alg».proof.Proof.LibGcn
import proofs.«126286_j81570018886156_2_alg».proof.Proof.LibAggLaw
import proofs.«126286_j81570018886156_2_alg».proof.Proof.LibGcnFactored
import proofs.«126286_j81570018886156_2_alg».proof.Proof.LibF32Pos

noncomputable section

open scoped BigOperators

namespace Cert.GcnMath

open Idealize.ShloMosaic Idealize.ShloMosaic.ValueIdx Cert.Gcn Cert.LibRealSum

/-- The two spellings of the leaky rectifier are one function of an extended real. -/
theorem leaky_eq (v c z : EReal) (hz : z = 0) :
    Scalar.select (Ideal.cmp .ogt v z) v (v * c) = Scalar.select (Ideal.cmp .oge v z) v (c * v) := by
  subst hz
  unfold Scalar.select Ideal.cmp
  rcases lt_trichotomy v 0 with h | h | h
  · have h1 : ¬ (0 : EReal) < v := not_lt.mpr h.le
    have h2 : ¬ (0 : EReal) ≤ v := not_le.mpr h
    simp [h1, h2, mul_comm]
  · subst h; simp
  · have h2 : (0 : EReal) ≤ v := h.le
    simp [h, h2]

/-- The node named by a word that reads, signed, as the node number n is n. -/
theorem node_of_landed {N : Nat} (hN : 0 < N) (nW : BitVec 32) (w : BitVec 32) (n : Fin N)
    (h : w.toInt = (n.val : Int)) : Gcn.node hN nW w = n := by
  unfold Gcn.node
  rw [LibGraph.wrapIdx_of_nonneg _ _ _ rfl (by omega)]
  exact LibGraph.clampIdx_of_landed hN _ n h

/-- SCALE AFTER THE SUM (see the header). -/
theorem scale_out {ι : Type} [Fintype ι] (P : ι → Prop) [DecidablePred P] (t : ι → EReal) (c : EReal)
    (h0 : 0 ≤ c) (ht : c ≠ ⊤) :
    ((0 : EReal) + ∑ e, if P e then t e else 0) * c = 0 + ∑ e, if P e then t e * c else 0 := by
  rw [zero_add, zero_add, LibGraph.sum_mul_of_nonneg_ne_top _ _ _ h0 ht]
  refine Finset.sum_congr rfl fun e _ => ?_
  by_cases h : P e
  · rw [if_pos h, if_pos h]
  · rw [if_neg h, if_neg h, zero_mul]

/-- AGGREGATE BEFORE THE PRODUCT (see the header), over abstract finite index types. -/
theorem agg_then_product {ι κ : Type} [Fintype ι] [Fintype κ] (P : ι → Prop) [DecidablePred P]
    (a : ι → κ → EReal) (c : ι → EReal) (w : κ → EReal) (dn : EReal)
    (ha : ∀ e k, IsReal (a e k)) (hc : ∀ e, IsReal (c e)) (hw : ∀ k, IsReal (w k)) (h0 : 0 ≤ dn) (ht : dn ≠ ⊤) :
    ∑ k, (((0 : EReal) + ∑ e, if P e then a e k * c e else 0) * dn) * w k
      = (0 : EReal) + ∑ e, if P e then (∑ k, a e k * w k) * (c e * dn) else 0 := by
  have hdn : IsReal dn := GcnLaw.isReal_of_nonneg_ne_top h0 ht
  rw [← GcnLaw.agg_matmul P a (fun e => c e * dn) w ha (fun e => (hc e).mul hdn) hw]
  refine Finset.sum_congr rfl fun k _ => congrArg (· * w k) ?_
  rw [scale_out P _ dn h0 ht]
  refine congrArg ((0 : EReal) + ·) (Finset.sum_congr rfl fun e _ => ?_)
  by_cases h : P e
  · rw [if_pos h, if_pos h, mul_assoc]
  · rw [if_neg h, if_neg h]

/-- A sum that counts a positive real for every arriving edge, with at least one edge arriving, is positive. -/
theorem count_pos {ι : Type} [Fintype ι] (P : ι → Prop) [DecidablePred P] (a : ℝ) (ha : 0 < a) (e₀ : ι) (h₀ : P e₀) :
    (0 : EReal) < 0 + ∑ e, if P e then (a : EReal) else 0 := by
  rw [zero_add]
  have hnn : ∀ e ∈ (Finset.univ : Finset ι), (0 : EReal) ≤ if P e then (a : EReal) else 0 := fun e _ => by
    by_cases h : P e
    · rw [if_pos h]; exact_mod_cast ha.le
    · rw [if_neg h]
  calc (0 : EReal) < (a : EReal) := by exact_mod_cast ha
    _ = if P e₀ then (a : EReal) else 0 := (if_pos h₀).symm
    _ ≤ ∑ e, if P e then (a : EReal) else 0 := Finset.single_le_sum hnn (Finset.mem_univ e₀)

/-- The inverse square root of a positive extended real is a real number. -/
theorem rsqrt_real (y : EReal) (hy : 0 < y) : IsReal (Ideal.rsqrt y) :=
  GcnLaw.isReal_of_nonneg_ne_top (GcnLaw.rsqrt_nonneg_ne_top y hy).1 (GcnLaw.rsqrt_nonneg_ne_top y hy).2

end Cert.GcnMath

end
-- ==== Proof.LibSage.lean ====
/-
  General facts used for a dense layer whose two matrix products are fused into one.

  * Two matrices of a and b rows stacked one above the other read, at a row, the matrix whose span of rows holds it, at
    the row less the rows above it (`concatRows2_apply_0`, `concatRows2_apply_1`): the row counterpart of two matrices
    laid side by side.
  * Over any commutative additive monoid, a sum over n = a + b positions is the sum over the first a positions plus the
    sum over the last b (`sum_split`).
  * THE BLOCK PRODUCT: at the extended reals, if a row vector of n = a + b entries is [u | v] and a column vector of n
    entries is [s ; t] stacked, then Σ_{k<n} [u|v](k) · [s;t](k) = Σ_{k<a} u(k) · s(k) + Σ_{k<b} v(k) · t(k)
    (`sum_blocks`, stated over the entries' values at the split positions).  Only the monoid structure of addition
    is used, so no entry needs to be finite.
  Imports only the library.
-/
import Idealize.ShloMosaic.PureOps.Ideal.Laws
import Idealize.ShloMosaic.Lib.ValueIdx
import Idealize.ShloMosaic.Lib.Pipeline.Value

noncomputable section

open scoped BigOperators

namespace Cert.LibSage

open Idealize.ShloMosaic Idealize.ShloMosaic.ValueIdx

/-! ## Two matrices stacked -/

section ConcatRows2
variable {α : Type} {C a b n : Nat}
  (x1 : (⟨2, ![a, C]⟩ : Shape).Idx → α) (x2 : (⟨2, ![b, C]⟩ : Shape).Idx → α)
  (h : Shape.Concatenates [(⟨2, ![a, C]⟩ : Shape), ⟨2, ![b, C]⟩] ⟨2, ![n, C]⟩ 0)

/-- Two matrices of a and b rows stacked read, at a row p below a, the first at row p. -/
theorem concatRows2_apply_0 (p : Fin n) (q : Fin C) (p' : Fin a) (hp : p'.val = p.val) :
    concatenate ⟨2, ![n, C]⟩ 0 [⟨⟨2, ![a, C]⟩, x1⟩, ⟨⟨2, ![b, C]⟩, x2⟩] h (ix2 p q) = x1 (ix2 p' q) :=
  concatenate_apply_piece (t := ⟨2, ![n, C]⟩) (0 : Fin 2) [⟨⟨2, ![a, C]⟩, x1⟩, ⟨⟨2, ![b, C]⟩, x2⟩] h (ix2 p q) 0 (by simp)
    ⟨2, ![a, C]⟩ x1 rfl rfl 0 rfl (ix2 p' q)
    (fun d hd => by
      match d with
      | ⟨0, _⟩ => exact absurd rfl hd
      | ⟨1, _⟩ => rfl)
    (by show 0 + p'.val = p.val; omega)

/-- At a row a + p', the second at row p'. -/
theorem concatRows2_apply_1 (p : Fin n) (q : Fin C) (p' : Fin b) (hp : a + p'.val = p.val) :
    concatenate ⟨2, ![n, C]⟩ 0 [⟨⟨2, ![a, C]⟩, x1⟩, ⟨⟨2, ![b, C]⟩, x2⟩] h (ix2 p q) = x2 (ix2 p' q) :=
  concatenate_apply_piece (t := ⟨2, ![n, C]⟩) (0 : Fin 2) [⟨⟨2, ![a, C]⟩, x1⟩, ⟨⟨2, ![b, C]⟩, x2⟩] h (ix2 p q) 1 (by simp)
    ⟨2, ![b, C]⟩ x2 rfl rfl a (by simp) (ix2 p' q)
    (fun d hd => by
      match d with
      | ⟨0, _⟩ => exact absurd rfl hd
      | ⟨1, _⟩ => rfl)
    (by show a + p'.val = p.val; omega)

end ConcatRows2

/-! ## A sum over a + b positions -/

/-- A sum over n = a + b positions is the sum over the first a plus the sum over the last b. -/
theorem sum_split {M : Type*} [AddCommMonoid M] {a b n : Nat} (hn : a + b = n) (f : Fin n → M) :
    ∑ k : Fin n, f k = ∑ k : Fin a, f ⟨k.val, by omega⟩ + ∑ k : Fin b, f ⟨a + k.val, by omega⟩ := by
  subst hn
  rw [Fin.sum_univ_add]
  rfl

/-- The block product: a sum of products over n = a + b positions whose left factors are u on the first a positions
    and v on the last b, and whose right factors are s and t there, is Σ u · s + Σ v · t. -/
theorem sum_blocks {a b n : Nat} (hn : a + b = n) (l r : Fin n → EReal) (u s : Fin a → EReal) (v t : Fin b → EReal)
    (hu : ∀ k : Fin a, l ⟨k.val, by omega⟩ = u k) (hs : ∀ k : Fin a, r ⟨k.val, by omega⟩ = s k)
    (hv : ∀ k : Fin b, l ⟨a + k.val, by omega⟩ = v k) (ht : ∀ k : Fin b, r ⟨a + k.val, by omega⟩ = t k) :
    ∑ k : Fin n, l k * r k = ∑ k : Fin a, u k * s k + ∑ k : Fin b, v k * t k := by
  rw [sum_split hn]
  congr 1
  · exact Finset.sum_congr rfl fun k _ => by rw [hu k, hs k]
  · exact Finset.sum_congr rfl fun k _ => by rw [hv k, ht k]

end Cert.LibSage

end
-- ==== Proof.LibLoops.lean ====
/-
  The laws that join an edge list with its self-loops appended to the same edge list with the self-loop term added by
  hand.

  * The word of a node number k < 2^31 reads back, signed, as k (`iota_toInt`); it is not negative, so the wrap leaves
    it alone, and it is below N, so the clamp leaves it alone: the node it names is k itself (`node_iota`).
  * SUM WITH LOOPS.  Let the long list of T = E + N edges be the E given edges followed by one loop (k, k) per node
    k < N.  For any summand G(source word, target word), the sum over the long list of the summands of the edges whose
    target IS node n equals the same sum over the given edges plus G at the loop of n: of the N loops exactly one
    arrives at n.  Only commutativity and associativity of addition on the extended reals are used.
  * A degree counted with weight 1 per arriving edge, plus 1, is positive (`deg_pos`).
-/
import Idealize.ShloMosaic.PureOps.Ideal.Laws
import Idealize.ShloMosaic.Lib.IdealHost
import proofs.«126286_j81570018886156_2_alg».proof.Proof.LibSage
import proofs.«126286_j81570018886156_2_alg».proof.Proof.LibGcn

noncomputable section

open scoped BigOperators

namespace Cert.Laws

open Idealize.ShloMosaic

/-- A small natural number's 32-bit word, read signed, is the number. -/
theorem iota_toInt (k : Nat) (hk : k < 2 ^ 31) : (BitVec.ofNat 32 k).toInt = (k : Int) := by
  have h1 : (BitVec.ofNat 32 k).toNat = k := by
    rw [BitVec.toNat_ofNat]; exact Nat.mod_eq_of_lt (by omega)
  rw [BitVec.toInt_eq_toNat_cond, h1]
  split
  · rfl
  · rename_i h; exact absurd (by omega) h

/-- The node a node number's own word names is that node. -/
theorem node_iota {N : Nat} (hN : 0 < N) (nW : BitVec 32) (n : Fin N) (hlt : N ≤ 2 ^ 31) :
    Gcn.node hN nW (BitVec.ofNat 32 n.val) = n := by
  have hn : n.val < 2 ^ 31 := lt_of_lt_of_le n.isLt hlt
  have hi : (BitVec.ofNat 32 n.val).toInt = (n.val : Int) := iota_toInt n.val hn
  unfold Gcn.node
  rw [LibGraph.wrapIdx_of_nonneg (BitVec.ofNat 32 n.val) _ 0#32 rfl (by rw [hi]; exact Int.natCast_nonneg _)]
  exact LibGraph.clampIdx_of_landed hN _ n hi

/-- Of the loops, one per node, exactly the loop of n arrives at n. -/
theorem loops_sum {N : Nat} (hlt : N ≤ 2 ^ 31) (G : BitVec 32 → BitVec 32 → EReal) (n : Fin N) :
    (∑ k : Fin N, if (BitVec.ofNat 32 k.val).toInt = (n.val : Int) then G (BitVec.ofNat 32 k.val) (BitVec.ofNat 32 k.val) else 0)
      = G (BitVec.ofNat 32 n.val) (BitVec.ofNat 32 n.val) := by
  rw [Finset.sum_eq_single n]
  · rw [if_pos (iota_toInt n.val (lt_of_lt_of_le n.isLt hlt))]
  · intro k _ hk
    refine if_neg fun h => hk (Fin.ext ?_)
    rw [iota_toInt k.val (lt_of_lt_of_le k.isLt hlt)] at h
    exact Int.ofNat_inj.mp h
  · intro h; exact absurd (Finset.mem_univ n) h

/-- SUM WITH LOOPS (see the header). -/
theorem sum_with_loops {E N T : Nat} (hT : E + N = T) (hlt : N ≤ 2 ^ 31)
    (s d : Fin E → BitVec 32) (sT dT : Fin T → BitVec 32)
    (hs : ∀ e : Fin E, sT ⟨e.val, by omega⟩ = s e) (hd : ∀ e : Fin E, dT ⟨e.val, by omega⟩ = d e)
    (hsl : ∀ k : Fin N, sT ⟨E + k.val, by omega⟩ = BitVec.ofNat 32 k.val)
    (hdl : ∀ k : Fin N, dT ⟨E + k.val, by omega⟩ = BitVec.ofNat 32 k.val)
    (G : BitVec 32 → BitVec 32 → EReal) (n : Fin N) :
    (∑ e : Fin T, if (dT e).toInt = (n.val : Int) then G (sT e) (dT e) else 0)
      = (∑ e : Fin E, if (d e).toInt = (n.val : Int) then G (s e) (d e) else 0)
        + G (BitVec.ofNat 32 n.val) (BitVec.ofNat 32 n.val) := by
  rw [LibSage.sum_split hT]
  refine congrArg₂ (· + ·) (Finset.sum_congr rfl fun e _ => ?_) ?_
  · rw [hs e, hd e]
  · rw [← loops_sum hlt G n]
    exact Finset.sum_congr rfl fun k _ => by rw [hsl k, hdl k]

/-- Arriving edges counted 1 each, plus 1 for the node itself: positive. -/
theorem deg_pos {ι : Type} (s : Finset ι) (p : ι → Prop) [DecidablePred p] :
    (0 : EReal) < 0 + ((∑ e ∈ s, if p e then (1 : EReal) else 0) + 1) := by
  have hA : (0 : EReal) ≤ ∑ e ∈ s, if p e then (1 : EReal) else 0 :=
    Finset.sum_nonneg fun e _ => by split <;> norm_num
  rw [zero_add]
  calc (0 : EReal) < 1 := by norm_num
    _ ≤ (∑ e ∈ s, if p e then (1 : EReal) else 0) + 1 := le_add_of_nonneg_left hA

end Cert.Laws

end
-- ==== Proof.Degree.lean ====
/-
  The degrees are positive, so their inverse square roots are non-negative real numbers.

  The edge list ends with one self-loop per node: the edge number 800000 + n has the word of n as its target, and that
  word, read signed, is n.  So at least one edge lands on every node; the degree, which counts the positive value of the
  one-word for every edge that lands, is positive, and the inverse square root of a positive extended real is a
  non-negative real number (0 at +∞).
-/
import proofs.«126286_j81570018886156_2_alg».proof.Proof.RefSpec
import proofs.«126286_j81570018886156_2_alg».proof.Proof.LibLayerLaws
import proofs.«126286_j81570018886156_2_alg».proof.Proof.LibLoops

noncomputable section

open scoped BigOperators

namespace Cert.ReferenceIdeal.Spec

open Cert.ReferenceIdeal Cert.ReferenceIdeal.Facts₀ Idealize.ShloMosaic Idealize.ShloMosaic.ValueIdx Cert.Gcn Cert.LibRealSum

/-- The target word of the self-loop of node n is the word of n. -/
theorem dst_loop (e : IVec S2x800000 32) (n : Fin 100000) :
    dstR e (ix1 (⟨800000 + n.val, by omega⟩ : Fin 900000)) = BitVec.ofNat 32 n.val := by
  unfold dstR
  rw [concatenate_pair_apply_right (0 : Fin S900000.rank) _ (iotaInDim S100000 32 0) concatenates_S800000_S100000_S900000_d0
    (ix1 (⟨800000 + n.val, by omega⟩ : Fin 900000)) rfl rfl (ix1 n)
    (fun b hb => absurd (Fin.ext (by
      have h1 : b.val < 1 := b.isLt
      show b.val = 0
      omega)) hb)
    (by show n.val + 800000 = 800000 + n.val; omega)]
  rfl

/-- Every node has positive degree. -/
theorem deg_pos (e : IVec S2x800000 32) (n : Fin 100000) : (0 : EReal) < degR (dstR e) (ix1 n) := by
  obtain ⟨a, ha, hone⟩ := LibF32Pos.ofBits_f32_pos 0x3F800000#32 (by decide) (by decide) (by decide)
  have hlt : 800000 + n.val < 900000 := by have := n.isLt; omega
  have hland : (dstR e (ix1 (⟨800000 + n.val, hlt⟩ : Fin 900000))).toInt = (n.val : Int) := by
    rw [dst_loop]
    exact Laws.iota_toInt n.val (by have := n.isLt; omega)
  have hpos := GcnMath.count_pos (fun j : Fin 900000 => (dstR e (ix1 j)).toInt = (n.val : Int)) a ha
    (⟨800000 + n.val, hlt⟩ : Fin 900000) hland
  have hdeg : (degR (dstR e) (ix1 n) : EReal)
      = (0 : EReal) + ∑ j : Fin 900000, if (dstR e (ix1 j)).toInt = (n.val : Int) then (a : EReal) else 0 := by
    unfold degR
    rw [degG_apply, hone]
  rw [hdeg]
  exact hpos

/-- The inverse root degree of a node is the inverse square root of its degree. -/
theorem hostRsqrt_apply {s : Shape} (x : FVec Ideal s .f32) (i : s.Idx) : Host.rsqrt (F := Ideal) x i = Ideal.rsqrt (x i) := rfl
theorem dvR_apply (d : IVec S900000 32) (n : Fin 100000) : dvR d (ix1 n) = Ideal.rsqrt (degR d (ix1 n)) :=
  hostRsqrt_apply (degR d) (ix1 n)

/-- The inverse square root of a degree is a non-negative real number. -/
theorem dv_nonneg_ne_top (e : IVec S2x800000 32) (n : Fin 100000) :
    (0 : EReal) ≤ dvR (dstR e) (ix1 n) ∧ (dvR (dstR e) (ix1 n) : EReal) ≠ ⊤ := by
  rw [dvR_apply]
  exact GcnLaw.rsqrt_nonneg_ne_top _ (deg_pos e n)

theorem dv_real (e : IVec S2x800000 32) (n : Fin 100000) : IsReal (dvR (dstR e) (ix1 n)) :=
  GcnLaw.isReal_of_nonneg_ne_top (dv_nonneg_ne_top e n).1 (dv_nonneg_ne_top e n).2

end Cert.ReferenceIdeal.Spec

end
-- ==== Proof.Layers.lean ====
/-
  The two graph-convolution layers: the kernel's arrangement against the reference's, entry by entry.

  The kernel's host side gathers rows of an ALREADY scaled table at the source words and adds them at the target words
  (no weight per edge); the reference weighs every edge by both end points' inverse root degrees.

  * SECOND LAYER (product first).  The table is t(p, k) = (Σ_i h(p, i) · w(i, k)) · dv(p).  Then
      aggregate(t)(n, k) · dv(n) + b(k)  =  the reference's second layer before its rectifier, at (n, k):
    dv(n) is a non-negative real, so it enters the sum over the edges, and an edge that lands on n has n as its target
    node.  Nothing needs to be finite.
  * FIRST LAYER (aggregation first).  The table is xs(p, k) = x(p, k) · dv(p).  Then
      Σ_k (aggregate(xs)(n, k) · dv(n)) · w(k, q) + b(q)  =  the reference's first layer before its rectifier, at (n, q),
    when x and w have real entries: the sum over k and the sum over the edges are exchanged.
-/
import proofs.«126286_j81570018886156_2_alg».proof.Proof.KHost
import proofs.«126286_j81570018886156_2_alg».proof.Proof.RefSpec
import proofs.«126286_j81570018886156_2_alg».proof.Proof.Degree
import proofs.«126286_j81570018886156_2_alg».proof.Proof.LibLayerLaws

noncomputable section

open scoped BigOperators

namespace Cert.Bridge

open Idealize.ShloMosaic Idealize.ShloMosaic.ValueIdx Cert.LibRealSum
open Cert.KernelIdeal.Host Cert.ReferenceIdeal.Spec

/-- The kernel's and the reference's edge words are the same functions of the edge list. -/
theorem srcK_eq (e : IVec ⟨2, ![2, 800000]⟩ 32) : srcK e = srcR e := rfl
theorem dstK_eq (e : IVec ⟨2, ![2, 800000]⟩ 32) : dstK e = dstR e := rfl

/-- The kernel's degree column at row n is the reference's inverse root degree of n. -/
theorem dvcK_apply (d : IVec ⟨1, ![900000]⟩ 32) (n : Fin 100000) : dvcK d (ix2 n (0 : Fin 1)) = dvR d (ix1 n) := by
  unfold dvcK
  rw [LibRowOps.shapeCast_a_a1_apply]
  rfl

/-- The kernel's aggregation of a 120-column table, at an entry. -/
theorem aggK120_apply (t : FVec Ideal ⟨2, ![100000, 120]⟩ .f32) (s d : IVec ⟨1, ![900000]⟩ 32) (n : Fin 100000) (k : Fin 120) :
    aggK120 t s d (ix2 n k)
      = (0 : EReal) + ∑ j : Fin 900000, if (d (ix1 j)).toInt = (n.val : Int)
          then t (ix2 (Gcn.node hN 100000#32 (s (ix1 j))) k) else (0 : EReal) := by
  show Host.scatterAdd (F := Ideal) (LibSegSum.rowsScatter 100000 120 900000 Cert.KernelIdeal.Facts₀.scatter_S100000x120_S900000x1_S900000x120_1_0_0_1_wf)
      (broadcastInDim ⟨2, ![100000, 120]⟩ ![] Cert.KernelIdeal.Facts₀.bcast_S_S100000x120 (constant (F := Ideal) ⟨0, ![]⟩ .f32 0x00000000#32))
      (broadcastInDim ⟨2, ![900000, 1]⟩ ![0] Cert.KernelIdeal.Facts₀.bcast_S900000_S900000x1_0 d)
      (Host.gather (LibGraph.rowsGather 100000 120 900000 Cert.KernelIdeal.Facts₀.gather_S100000x120_S900000x1_S900000x120_1_0_n_n_0_1_1120_wf) t
        (broadcastInDim ⟨2, ![900000, 1]⟩ ![0] Cert.KernelIdeal.Facts₀.bcast_S900000_S900000x1_0
          (Gcn.wrapv 100000#32 Cert.KernelIdeal.Facts₀.bcast_S_S900000 s))) (ix2 n k) = _
  rw [LibSegSum.scatterRows_apply, LibBcast.bcastScalar_apply]
  refine congrArg₂ (· + ·) Ideal.ofBits_zero_f32 (Finset.sum_congr rfl fun j _ => ?_)
  rw [LibBcast.bcastVecCol_apply]
  refine if_congr Iff.rfl ?_ rfl
  rw [LibGraph.gatherRows_apply hN, LibBcast.bcastVecCol_apply, Gcn.wrapv_apply]
  rfl

/-- The kernel's aggregation of a 128-column table, at an entry. -/
theorem aggK128_apply (t : FVec Ideal ⟨2, ![100000, 128]⟩ .f32) (s d : IVec ⟨1, ![900000]⟩ 32) (n : Fin 100000) (k : Fin 128) :
    aggK128 t s d (ix2 n k)
      = (0 : EReal) + ∑ j : Fin 900000, if (d (ix1 j)).toInt = (n.val : Int)
          then t (ix2 (Gcn.node hN 100000#32 (s (ix1 j))) k) else (0 : EReal) := by
  show Host.scatterAdd (F := Ideal) (LibSegSum.rowsScatter 100000 128 900000 Cert.KernelIdeal.Facts₀.scatter_S100000x128_S900000x1_S900000x128_1_0_0_1_wf)
      (broadcastInDim ⟨2, ![100000, 128]⟩ ![] Cert.KernelIdeal.Facts₀.bcast_S_S100000x128 (constant (F := Ideal) ⟨0, ![]⟩ .f32 0x00000000#32))
      (broadcastInDim ⟨2, ![900000, 1]⟩ ![0] Cert.KernelIdeal.Facts₀.bcast_S900000_S900000x1_0 d)
      (Host.gather (LibGraph.rowsGather 100000 128 900000 Cert.KernelIdeal.Facts₀.gather_S100000x128_S900000x1_S900000x128_1_0_n_n_0_1_1128_wf) t
        (broadcastInDim ⟨2, ![900000, 1]⟩ ![0] Cert.KernelIdeal.Facts₀.bcast_S900000_S900000x1_0
          (Gcn.wrapv 100000#32 Cert.KernelIdeal.Facts₀.bcast_S_S900000 s))) (ix2 n k) = _
  rw [LibSegSum.scatterRows_apply, LibBcast.bcastScalar_apply]
  refine congrArg₂ (· + ·) Ideal.ofBits_zero_f32 (Finset.sum_congr rfl fun j _ => ?_)
  rw [LibBcast.bcastVecCol_apply]
  refine if_congr Iff.rfl ?_ rfl
  rw [LibGraph.gatherRows_apply hN, LibBcast.bcastVecCol_apply, Gcn.wrapv_apply]
  rfl

/-- SECOND LAYER (see the header). -/
theorem layer2 (h : FVec Ideal ⟨2, ![100000, 180]⟩ .f32) (w : FVec Ideal ⟨2, ![180, 120]⟩ .f32) (b : FVec Ideal ⟨1, ![120]⟩ .f32)
    (e : IVec ⟨2, ![2, 800000]⟩ 32) (t : FVec Ideal ⟨2, ![100000, 120]⟩ .f32)
    (ht : ∀ (p : Fin 100000) (k : Fin 120),
      t (ix2 p k) = (∑ i : Fin 180, h (ix2 p i) * w (ix2 i k)) * dvcK (dstK e) (ix2 p (0 : Fin 1)))
    (n : Fin 100000) (k : Fin 120) :
    aggK120 t (srcK e) (dstK e) (ix2 n k) * dvcK (dstK e) (ix2 n (0 : Fin 1)) + b (ix1 k) = pre2 h w b e (ix2 n k) := by
  rw [pre2_apply, aggK120_apply, dvcK_apply, dstK_eq, srcK_eq]
  refine congrArg (· + b (ix1 k)) ?_
  have hd := dv_nonneg_ne_top e n
  rw [GcnMath.scale_out _ _ _ hd.1 hd.2]
  refine congrArg ((0 : EReal) + ·) (Finset.sum_congr rfl fun j _ => ?_)
  by_cases hj : (dstR e (ix1 j)).toInt = (n.val : Int)
  · rw [if_pos hj, if_pos hj, ht, dvcK_apply, dstK_eq]
    unfold Gcn.term
    rw [dot2_apply, GcnMath.node_of_landed hN _ _ n hj, mul_assoc]
  · rw [if_neg hj, if_neg hj]

/-- FIRST LAYER (see the header). -/
theorem layer1 (x : FVec Ideal ⟨2, ![100000, 128]⟩ .f32) (w : FVec Ideal ⟨2, ![128, 180]⟩ .f32) (b : FVec Ideal ⟨1, ![180]⟩ .f32)
    (e : IVec ⟨2, ![2, 800000]⟩ 32) (xs : FVec Ideal ⟨2, ![100000, 128]⟩ .f32)
    (hxs : ∀ (p : Fin 100000) (k : Fin 128), xs (ix2 p k) = x (ix2 p k) * dvcK (dstK e) (ix2 p (0 : Fin 1)))
    (hx : ∀ i, IsReal (x i)) (hw : ∀ i, IsReal (w i)) (n : Fin 100000) (q : Fin 180) :
    (∑ k : Fin 128, (aggK128 xs (srcK e) (dstK e) (ix2 n k) * dvcK (dstK e) (ix2 n (0 : Fin 1))) * w (ix2 k q)) + b (ix1 q)
      = pre1 x w b e (ix2 n q) := by
  rw [pre1_apply]
  refine congrArg (· + b (ix1 q)) ?_
  have hd := dv_nonneg_ne_top e n
  have h1 : ∀ k : Fin 128, aggK128 xs (srcK e) (dstK e) (ix2 n k) * dvcK (dstK e) (ix2 n (0 : Fin 1))
      = ((0 : EReal) + ∑ j : Fin 900000, if (dstR e (ix1 j)).toInt = (n.val : Int)
          then x (ix2 (Gcn.node hN 100000#32 (srcR e (ix1 j))) k) * dvR (dstR e) (ix1 (Gcn.node hN 100000#32 (srcR e (ix1 j))))
          else 0) * dvR (dstR e) (ix1 n) := fun k => by
    rw [aggK128_apply, dvcK_apply, dstK_eq, srcK_eq]
    refine congrArg (· * dvR (dstR e) (ix1 n)) (congrArg ((0 : EReal) + ·) (Finset.sum_congr rfl fun j _ => ?_))
    by_cases hj : (dstR e (ix1 j)).toInt = (n.val : Int)
    · rw [if_pos hj, if_pos hj, hxs, dvcK_apply, dstK_eq]
    · rw [if_neg hj, if_neg hj]
  rw [Finset.sum_congr rfl fun k _ => congrArg (· * w (ix2 k q)) (h1 k)]
  rw [GcnMath.agg_then_product (fun j : Fin 900000 => (dstR e (ix1 j)).toInt = (n.val : Int))
    (fun j k => x (ix2 (Gcn.node hN 100000#32 (srcR e (ix1 j))) k))
    (fun j => dvR (dstR e) (ix1 (Gcn.node hN 100000#32 (srcR e (ix1 j)))))
    (fun k => w (ix2 k q)) (dvR (dstR e) (ix1 n))
    (fun j k => hx _) (fun j => dv_real e _) (fun k => hw _) hd.1 hd.2]
  refine congrArg ((0 : EReal) + ·) (Finset.sum_congr rfl fun j _ => ?_)
  by_cases hj : (dstR e (ix1 j)).toInt = (n.val : Int)
  · rw [if_pos hj, if_pos hj]
    unfold Gcn.term
    rw [dot1_apply, GcnMath.node_of_landed hN _ _ n hj]
  · rw [if_neg hj, if_neg hj]

end Cert.Bridge

end
-- ==== Proof.Bridge.lean ====
/-
  The kernel's value is the reference's value.

  Both programs end with the same classifier and the same row-wise log-softmax applied to the second layer's output,
  so it is enough that the two layers agree.  Layer by layer the kernel's region functions, read at an entry, are the
  left-hand sides of the two layer laws, the reference's stages the right-hand sides; the two spellings of the leaky
  rectifier are one function; and a bias vector laid as a row reads back the vector.  The first layer's law needs the
  feature table and the first weight matrix to have real entries.
-/
import proofs.«126286_j81570018886156_2_alg».proof.Proof.Layers
import proofs.«126286_j81570018886156_2_alg».proof.Proof.Region0
import proofs.«126286_j81570018886156_2_alg».proof.Proof.Region1
import proofs.«126286_j81570018886156_2_alg».proof.Proof.Region2
import proofs.«126286_j81570018886156_2_alg».proof.Proof.Region3

noncomputable section

open scoped BigOperators

namespace Cert.Bridge

open Idealize.ShloMosaic Idealize.ShloMosaic.ValueIdx Cert.LibRealSum
open Cert.KernelIdeal.Host Cert.ReferenceIdeal.Spec

/-- The kernel's first layer: scale, aggregate, scale, multiply, add the bias, rectify. -/
def h1K (x : FVec Ideal ⟨2, ![100000, 128]⟩ .f32) (w1 : FVec Ideal ⟨2, ![128, 180]⟩ .f32) (b1 : FVec Ideal ⟨1, ![180]⟩ .f32)
    (e : IVec ⟨2, ![2, 800000]⟩ 32) : FVec Ideal ⟨2, ![100000, 180]⟩ .f32 :=
  Cert.KernelIdeal.Region1.G (aggK128 (Cert.KernelIdeal.Region0.G x (dvcK (dstK e))) (srcK e) (dstK e)) (dvcK (dstK e)) w1
    (shapeCast ⟨2, ![1, 180]⟩ b1 Cert.KernelIdeal.Facts₀.shapeCasts_S180_S1x180)

/-- The kernel's whole value as a function of the eight argument arrays. -/
def outK (x : FVec Ideal ⟨2, ![100000, 128]⟩ .f32) (w1 : FVec Ideal ⟨2, ![128, 180]⟩ .f32) (b1 : FVec Ideal ⟨1, ![180]⟩ .f32)
    (w2 : FVec Ideal ⟨2, ![180, 120]⟩ .f32) (b2 : FVec Ideal ⟨1, ![120]⟩ .f32) (wl : FVec Ideal ⟨2, ![120, 16]⟩ .f32)
    (bl : FVec Ideal ⟨1, ![16]⟩ .f32) (e : IVec ⟨2, ![2, 800000]⟩ 32) : FVec Ideal ⟨2, ![100000, 16]⟩ .f32 :=
  Cert.KernelIdeal.Region3.G
    (aggK120 (Cert.KernelIdeal.Region2.G (h1K x w1 b1 e) w2 (dvcK (dstK e))) (srcK e) (dstK e)) (dvcK (dstK e))
    (shapeCast ⟨2, ![1, 120]⟩ b2 Cert.KernelIdeal.Facts₀.shapeCasts_S120_S1x120) wl (shapeCast ⟨2, ![1, 16]⟩ bl Cert.KernelIdeal.Facts₀.shapeCasts_S16_S1x16)

/-- The first layers agree, when x and the first weight matrix have real entries. -/
theorem h1_eq (x : FVec Ideal ⟨2, ![100000, 128]⟩ .f32) (w1 : FVec Ideal ⟨2, ![128, 180]⟩ .f32) (b1 : FVec Ideal ⟨1, ![180]⟩ .f32)
    (e : IVec ⟨2, ![2, 800000]⟩ 32) (hx : ∀ i, IsReal (x i)) (hw : ∀ i, IsReal (w1 i)) :
    h1K x w1 b1 e = leakyR Cert.ReferenceIdeal.Facts₀.bcast_S_S100000x180 (pre1 x w1 b1 e) := by
  funext i
  obtain ⟨p, q, rfl⟩ : ∃ (p : Fin 100000) (q : Fin 180), i = ix2 p q := ⟨i 0, i 1, eq_ix2 i⟩
  unfold h1K
  rw [Cert.KernelIdeal.Region1.G_apply, Cert.KernelIdeal.Region1.leaky_def, leakyR_apply, GcnLaw.rowCast_apply,
    layer1 x w1 b1 e _ (fun p k => Cert.KernelIdeal.Region0.G_apply x (dvcK (dstK e)) p k) hx hw p q]
  exact GcnMath.leaky_eq _ _ _ Ideal.ofBits_zero_f32

/-- THE BRIDGE: the kernel's value is the reference's value. -/
theorem out_eq (x : FVec Ideal ⟨2, ![100000, 128]⟩ .f32) (w1 : FVec Ideal ⟨2, ![128, 180]⟩ .f32) (b1 : FVec Ideal ⟨1, ![180]⟩ .f32)
    (w2 : FVec Ideal ⟨2, ![180, 120]⟩ .f32) (b2 : FVec Ideal ⟨1, ![120]⟩ .f32) (wl : FVec Ideal ⟨2, ![120, 16]⟩ .f32)
    (bl : FVec Ideal ⟨1, ![16]⟩ .f32) (e : IVec ⟨2, ![2, 800000]⟩ 32) (hx : ∀ i, IsReal (x i)) (hw : ∀ i, IsReal (w1 i)) :
    outK x w1 b1 w2 b2 wl bl e = outR x w1 b1 w2 b2 wl bl e := by
  funext i
  obtain ⟨n, q, rfl⟩ : ∃ (n : Fin 100000) (q : Fin 16), i = ix2 n q := ⟨i 0, i 1, eq_ix2 i⟩
  unfold outR
  rw [lsmR_apply]
  show Cert.KernelIdeal.Region3.rowLogSoftmax (Cert.KernelIdeal.Region3.logit _ _ _ _ _ n) q = _
  have hrow : Cert.KernelIdeal.Region3.logit
        (aggK120 (Cert.KernelIdeal.Region2.G (h1K x w1 b1 e) w2 (dvcK (dstK e))) (srcK e) (dstK e)) (dvcK (dstK e))
        (shapeCast ⟨2, ![1, 120]⟩ b2 Cert.KernelIdeal.Facts₀.shapeCasts_S120_S1x120) wl (shapeCast ⟨2, ![1, 16]⟩ bl Cert.KernelIdeal.Facts₀.shapeCasts_S16_S1x16) n
      = fun j => logitsR (leakyR Cert.ReferenceIdeal.Facts₀.bcast_S_S100000x120 (pre2 (leakyR Cert.ReferenceIdeal.Facts₀.bcast_S_S100000x180 (pre1 x w1 b1 e)) w2 b2 e)) wl bl (ix2 n j) := by
    funext j
    rw [logitsR_apply]
    unfold Cert.KernelIdeal.Region3.logit
    rw [GcnLaw.rowCast_apply]
    refine congrArg (· + bl (ix1 j)) (Finset.sum_congr rfl fun k _ => congrArg (· * wl (ix2 k j)) ?_)
    rw [leakyR_apply, GcnLaw.rowCast_apply,
      layer2 (leakyR Cert.ReferenceIdeal.Facts₀.bcast_S_S100000x180 (pre1 x w1 b1 e)) w2 b2 e _
        (fun p k => by rw [Cert.KernelIdeal.Region2.G_apply, h1_eq x w1 b1 e hx hw]) n k]
    exact GcnMath.leaky_eq _ _ _ Ideal.ofBits_zero_f32
  rw [hrow]
  rfl

end Cert.Bridge

end
-- ==== Proof.LibFiniteInput.lean ====
/-
  From "all entries have absolute value below +∞" to "every entry is a real number", at ANY shape.

  A finiteness precondition on a float array x is the array-language expression  all (|x| < +∞) : a reduction by
  "and", from the constant 1, of the entrywise comparison of |x| with the +∞ pattern broadcast from a scalar, over
  all axes into a single result.  If that result is 1 then the comparison is 1 at every entry (`all_real`); and on the
  extended reals  max x (−x) < +∞  fails at both infinities, so the entry is the coercion of a real number
  (`real_of_abs_lt_top`).  The +∞ pattern of f32 is `0x7F800000` (`inf_eq`).  Stated for any shape `s`, any list of
  reduced axes, and the shape and reduction facts as variables, so that it applies to a printed predicate's terms as
  they stand.  Imports only the library.
-/
import Idealize.ShloMosaic.Lib.ReduceAll
import Idealize.ShloMosaic.Lib.ValueIdx
import Idealize.ShloMosaic.PureOps.Ideal

noncomputable section

namespace Cert.LibFiniteInput

open Idealize.ShloMosaic Idealize.ShloMosaic.ValueIdx

/-- The scalar shape has one index. -/
instance : Subsingleton (⟨0, ![]⟩ : Shape).Idx := ⟨fun a b => funext fun d => d.elim0⟩

/-- The f32 pattern `0x7F800000` denotes `+∞`. -/
theorem inf_eq : Ideal.ofBits .f32 0x7F800000#32 = (⊤ : EReal) := by
  simp [Ideal.ofBits, Ideal.ieee]

/-- An extended real whose absolute value is below `+∞` is a real number. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- One array: if `all (|x| < +∞)` is 1, every entry of `x` is a real number. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
      (cmpf .olt (Host.absf x) (broadcastInDim s ![] hb (constant (F := Ideal) ⟨0, ![]⟩ .f32 0x7F800000#32)))
      (constantI ⟨0, ![]⟩ 1 1#1) hr hu ix0 = 1#1) (i : s.Idx) : ∃ r : ℝ, x i = (r : EReal) := by
  have h1 := Host.reduce_andi_all _ _ hr hu ix0 e i
  have h2 : BitVec.ofBool (decide (max (x i) (-(x i)) < Ideal.ofBits .f32 0x7F800000#32)) = 1#1 := h1
  rw [inf_eq] at h2
  refine real_of_abs_lt_top (x i) ?_
  by_contra hn
  rw [decide_eq_false hn] at h2
  exact absurd h2 (by decide)

end Cert.LibFiniteInput

end
-- ==== Proof.Finite.lean ====
/-
  What the precondition gives: every entry of the feature table x and of the first weight matrix is a real number.

  The precondition is the conjunction, argument by argument, of  all (|a| < +∞).  It is a chain of "and"s of scalar
  bits; a chain that is 1 has every link 1, and an array whose test is 1 has only real entries (at the exact
  instance an entry is an extended real, and |a| < +∞ excludes both infinities).  Only the two arrays that meet in the
  first layer's exchange of sums are needed: the later layers use no finiteness.
-/
import proofs.«126286_j81570018886156_2_alg».proof.Proof.LibFiniteInput
import proofs.«126286_j81570018886156_2_alg».proof.Proof.LibRealSum
import proofs.«126286_j81570018886156_2_alg».proof.Defs
import proofs.«126286_j81570018886156_2_alg».proof.Proof.Gen.Pre_finite_inputs
import Idealize.ShloMosaic.Lib.Affine

noncomputable section

namespace Cert.Finite

open Idealize.ShloMosaic Idealize.ShloMosaic.ValueIdx Cert.LibRealSum

/-- If the printed precondition holds of the eight argument arrays, the first two have only real entries. -/
theorem real_x_w (x : FVec Ideal Cert.Pre_finite_inputs.S100000x128 .f32) (w1 : FVec Ideal Cert.Pre_finite_inputs.S128x180 .f32)
    (b1 : FVec Ideal Cert.Pre_finite_inputs.S180 .f32) (w2 : FVec Ideal Cert.Pre_finite_inputs.S180x120 .f32)
    (b2 : FVec Ideal Cert.Pre_finite_inputs.S120 .f32) (wl : FVec Ideal Cert.Pre_finite_inputs.S120x16 .f32)
    (bl : FVec Ideal Cert.Pre_finite_inputs.S16 .f32) (e : IVec Cert.Pre_finite_inputs.S2x800000 32)
    (h : Cert.Pre_finite_inputs.fn (F := Ideal) x w1 b1 w2 b2 wl bl e = fun _ => 1#1) :
    (∀ i, IsReal (x i)) ∧ (∀ i, IsReal (w1 i)) := by
  have h0 := congrFun h ix0
  dsimp only [Cert.Pre_finite_inputs.fn, Cert.Pre_finite_inputs.fn_part1] at h0
  obtain ⟨h28, -⟩ := IntOp.andi_eq_one.1 h0
  obtain ⟨h23, -⟩ := IntOp.andi_eq_one.1 h28
  obtain ⟨h18, -⟩ := IntOp.andi_eq_one.1 h23
  obtain ⟨h13, -⟩ := IntOp.andi_eq_one.1 h18
  obtain ⟨h8, -⟩ := IntOp.andi_eq_one.1 h13
  obtain ⟨h3, h7⟩ := IntOp.andi_eq_one.1 h8
  exact ⟨fun i => LibFiniteInput.all_real x _ _ _ h3 i, fun i => LibFiniteInput.all_real w1 _ _ _ h7 i⟩

end Cert.Finite

end
-- ==== Proof.lean ====
/-
  The proof of the certificate's claim: the kernel's program, its idealization and the idealized reference each run
  (terminate, nothing faulting, the argument arrays unchanged); the idealization rewrote no operation; and at the exact
  instance, from memories that agree on the arguments, the idealized kernel and the idealized reference end with equal
  result arrays.

  The kernel computes a two-layer graph convolution followed by a linear classifier and a row-wise log-softmax as four
  grid computations among host gathers and scatter-adds; the reference computes the same network with plain array
  operations.  They differ in where the symmetric normalisation D^(-1/2) (A + I) D^(-1/2) is applied: the reference
  weighs every edge by both end points' inverse root degrees, the kernel scales the rows of the node table before the
  gather and again after the scatter-add; and in the first layer the kernel aggregates before it multiplies by the
  weight matrix.  Both rearrangements are laws of finite sums: the first holds on the extended reals because the
  inverse root degree is a non-negative real number (every node has its self-loop, so its degree is positive); the
  second exchanges two sums and needs the feature table and the first weight matrix to be real, which is what the
  precondition gives.  The modules: KRun (the kernel's run with its result named), Region0 … Region3 (each grid
  computation's output array as a function of its input arrays), KHost and KValue (the host side and the composed
  value), RefOps / RefRun / RefStages / RefStageTable / RefValue (the reference's operations, run and composed value), RefSpec and
  Degree (the reference's stages at an entry; the degrees), LibLayerLaws and Layers (the two laws), Bridge (the two values
  are one function), Finite (the precondition).
-/
import proofs.«126286_j81570018886156_2_alg».proof.Defs
import proofs.«126286_j81570018886156_2_alg».proof.Proof.Gen.Kernel
import proofs.«126286_j81570018886156_2_alg».proof.Proof.Gen.Kernel.Frame
import proofs.«126286_j81570018886156_2_alg».proof.Proof.Gen.KernelIdeal
import proofs.«126286_j81570018886156_2_alg».proof.Proof.Gen.KernelIdeal.Frame
import proofs.«126286_j81570018886156_2_alg».proof.Proof.Gen.ReferenceIdeal
import proofs.«126286_j81570018886156_2_alg».proof.Proof.Gen.Pre_finite_inputs
import proofs.«126286_j81570018886156_2_alg».proof.Proof.KRun
import proofs.«126286_j81570018886156_2_alg».proof.Proof.KValue
import proofs.«126286_j81570018886156_2_alg».proof.Proof.RefRun
import proofs.«126286_j81570018886156_2_alg».proof.Proof.RefStages
import proofs.«126286_j81570018886156_2_alg».proof.Proof.RefValue
import proofs.«126286_j81570018886156_2_alg».proof.Proof.Bridge
import proofs.«126286_j81570018886156_2_alg».proof.Proof.Finite
import Idealize.ShloMosaic.Adequacy
import Idealize.ShloMosaic.Init

noncomputable section

namespace Cert.Proof

open Idealize.ShloMosaic Idealize.ShloMosaic.TcCoe Idealize.SL.Sem

/-- The kernel's program as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is one straight line of host operations, none of which writes an argument. -/
theorem frame_ri : Cert.frame_ReferenceIdeal := fun m ρ _ =>
  (θ_run Cert.ReferenceIdeal.defs _ _).mono (fun _ h c =>
    ⟨(h c _).trans (Cert.ReferenceIdeal.RefStages.kept_arg0 _), (h c _).trans (Cert.ReferenceIdeal.RefStages.kept_arg1 _),
     (h c _).trans (Cert.ReferenceIdeal.RefStages.kept_arg2 _), (h c _).trans (Cert.ReferenceIdeal.RefStages.kept_arg3 _),
     (h c _).trans (Cert.ReferenceIdeal.RefStages.kept_arg4 _), (h c _).trans (Cert.ReferenceIdeal.RefStages.kept_arg5 _),
     (h c _).trans (Cert.ReferenceIdeal.RefStages.kept_arg6 _), (h c _).trans (Cert.ReferenceIdeal.RefStages.kept_arg7 _)⟩)
    (Cert.ReferenceIdeal.RefRun.run_after (F := Ideal) m ρ)

/-- The idealization rewrote nothing. -/
theorem preserves : Cert.preserves_Kernel_KernelIdeal := trivial

/-- At the exact instance both programs end at one function of the arguments: the kernel's composed value, which under
    the precondition is the reference's. -/
theorem algebraic : Cert.algebraic_KernelIdeal_ReferenceIdeal := by
  intro m ρ m' ρ' hpre hagree
  refine ⟨fun c => Cert.KernelIdeal.KValue.kernelValue (Cert.KernelIdeal.KValue.argX m c) (Cert.KernelIdeal.KValue.argW1 m c)
    (Cert.KernelIdeal.KValue.argB1 m c) (Cert.KernelIdeal.KValue.argW2 m c) (Cert.KernelIdeal.KValue.argB2 m c)
    (Cert.KernelIdeal.KValue.argWl m c) (Cert.KernelIdeal.KValue.argBl m c) (Cert.KernelIdeal.KValue.argE m c), ?_, ?_⟩
  · exact (θ_run Cert.KernelIdeal.defs _ _).mono
      (fun r h c => ⟨(h c).1.trans (Cert.KernelIdeal.KValue.value_eq m ρ c), (h c).2⟩)
      (Cert.KernelIdeal.Named.run (F := Ideal) m ρ)
  · refine (θ_run Cert.ReferenceIdeal.defs _ _).mono (fun r h c => ⟨?_,
      (h c _).trans (Cert.ReferenceIdeal.RefStages.kept_arg0 _), (h c _).trans (Cert.ReferenceIdeal.RefStages.kept_arg1 _),
      (h c _).trans (Cert.ReferenceIdeal.RefStages.kept_arg2 _), (h c _).trans (Cert.ReferenceIdeal.RefStages.kept_arg3 _),
      (h c _).trans (Cert.ReferenceIdeal.RefStages.kept_arg4 _), (h c _).trans (Cert.ReferenceIdeal.RefStages.kept_arg5 _),
      (h c _).trans (Cert.ReferenceIdeal.RefStages.kept_arg6 _), (h c _).trans (Cert.ReferenceIdeal.RefStages.kept_arg7 _)⟩)
      (Cert.ReferenceIdeal.RefRun.run_after (F := Ideal) m' ρ')
    obtain ⟨hx, hw⟩ := Cert.Finite.real_x_w _ _ _ _ _ _ _ _ (hpre c)
    refine ((h c _).trans (Cert.ReferenceIdeal.RefValue.value _)).trans ?_
    show Cert.ReferenceIdeal.Spec.outR
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact (Cert.Bridge.out_eq _ _ _ _ _ _ _ _ hx hw).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
